-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S32x24 : Shape := ⟨2, ![32, 24]⟩
abbrev S24 : Shape := ⟨1, ![24]⟩
abbrev S24x1 : Shape := ⟨2, ![24, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S24x1 : S_.BroadcastsInDim S24x1 (![] : Fin 0 → Fin S24x1.rank)
  reducesTo_S24x1_S_d0_1 : S24x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S24x1 .f32) (main_v50 : FVec F S24x1 .f32) : IVec S_ 1 :=
  let main_v51 : IVec S24x1 1 := cmpf .olt main_v49 main_v50
  let main_c_19 : IVec S_ 1 := constantI S_ 1 1#1
  let main_v52 : IVec S_ 1 := (fun x v => Host.reduce IntOp.andi x v reducesTo_S24x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S32 .f32) (main_arg10 : FVec F S32x24 .f32) (main_arg11 : FVec F S24 .f32) (main_arg12 : FVec F S24x1 .f32) (main_arg13 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x24 .f32 := Host.absf main_arg10
  let main_cst_14 : FVec F S_ .f32 := constant S_ .f32 0x7F800000#32
  let main_v40 : FVec F S32x24 .f32 := broadcastInDim S32x24 ![] bcast_S_S32x24 main_cst_14
  let main_v41 : IVec S32x24 1 := cmpf .olt main_v39 main_v40
  let main_c_15 : IVec S_ 1 := constantI S_ 1 1#1
  let main_v42 : IVec S_ 1 := (fun x v => Host.reduce IntOp.andi x v reducesTo_S32x24_S_d0_1 h_S_) main_v41 main_c_15
  let main_v43 : IVec S_ 1 := andi main_v38 main_v42
  let main_v44 : FVec F S24 .f32 := Host.absf main_arg11
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  let main_v49 : FVec F S24x1 .f32 := Host.absf main_arg12
  let main_cst_18 : FVec F S_ .f32 := constant S_ .f32 0x7F800000#32
  let main_v50 : FVec F S24x1 .f32 := broadcastInDim S24x1 ![] bcast_S_S24x1 main_cst_18
  fn_part3 (F := F) main_arg13 main_v48 main_v49 main_v50

def fn_part1 {F : FTy → Type} [FloatOps F] (main_arg6 : FVec F S32 .f32) (main_arg7 : FVec F S32x32 .f32) (main_arg8 : FVec F S32x32 .f32) (main_arg9 : FVec F S32 .f32) (main_arg10 : FVec F S32x24 .f32) (main_arg11 : FVec F S24 .f32) (main_arg12 : FVec F S24x1 .f32) (main_arg13 : FVec F S1 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S3200000 32) (main_arg2 : IVec S3200000 32) (main_arg3 : FVec F S3200000 .f32) (main_arg4 : FVec F S128x32 .f32) (main_arg5 : FVec F S128x32 .f32) (main_arg6 : FVec F S32 .f32) (main_arg7 : FVec F S32x32 .f32) (main_arg8 : FVec F S32x32 .f32) (main_arg9 : FVec F S32 .f32) (main_arg10 : FVec F S32x24 .f32) (main_arg11 : FVec F S24 .f32) (main_arg12 : FVec F S24x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S32x24 : Shape := ⟨2, ![32, 24]⟩
abbrev S24 : Shape := ⟨1, ![24]⟩
abbrev S24x1 : Shape := ⟨2, ![24, 1]⟩
abbrev S1 : Shape := ⟨1, ![1]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S3200000x1 : Shape := ⟨2, ![3200000, 1]⟩
abbrev S3200000x32 : Shape := ⟨2, ![3200000, 32]⟩
abbrev S1x24 : Shape := ⟨2, ![1, 24]⟩
abbrev S1x1 : Shape := ⟨2, ![1, 1]⟩

abbrev nBuf : Space → Nat
  | .hbm => 57
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x24, .f32⟩
  | .hbm, ⟨11, _⟩ => ⟨S24, .f32⟩
  | .hbm, ⟨12, _⟩ => ⟨S24x1, .f32⟩
  | .hbm, ⟨13, _⟩ => ⟨S1, .f32⟩
  | .hbm, ⟨14, _⟩ => ⟨S1x32, .f32⟩
  | .hbm, ⟨15, _⟩ => ⟨S100000x32, .f32⟩
  | .hbm, ⟨16, _⟩ => ⟨S100000x32, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x32, .f32⟩
  | .hbm, ⟨26, _⟩ => ⟨S3200000x1, .f32⟩
  | .hbm, ⟨27, _⟩ => ⟨S3200000x32, .f32⟩
  | .hbm, ⟨28, _⟩ => ⟨S3200000x32, .f32⟩
  | .hbm, ⟨29, _⟩ => ⟨S_, .f32⟩
  | .hbm, ⟨30, _⟩ => ⟨S100000x32, .f32⟩
  | .hbm, ⟨31, _⟩ => ⟨S3200000x1, .i32⟩
  | .hbm, ⟨32, _⟩ => ⟨S100000x32, .f32⟩
  | .hbm, ⟨33, _⟩ => ⟨S100000x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x32, .f32⟩
  | .hbm, ⟨46, _⟩ => ⟨S3200000x1, .f32⟩
  | .hbm, ⟨47, _⟩ => ⟨S3200000x32, .f32⟩
  | .hbm, ⟨48, _⟩ => ⟨S3200000x32, .f32⟩
  | .hbm, ⟨49, _⟩ => ⟨S_, .f32⟩
  | .hbm, ⟨50, _⟩ => ⟨S100000x32, .f32⟩
  | .hbm, ⟨51, _⟩ => ⟨S3200000x1, .i32⟩
  | .hbm, ⟨52, _⟩ => ⟨S100000x32, .f32⟩
  | .hbm, ⟨53, _⟩ => ⟨S100000x32, .f32⟩
  | .hbm, ⟨54, _⟩ => ⟨S1x24, .f32⟩
  | .hbm, ⟨55, _⟩ => ⟨S1x1, .f32⟩
  | .hbm, ⟨56, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S128x32, .f32⟩
  | .local _ .vmem, ⟨4, _⟩ => ⟨S1x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32x32, .f32⟩
  | .local _ .vmem, ⟨18, _⟩ => ⟨S32x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x24, .f32⟩
  | .local _ .vmem, ⟨33, _⟩ => ⟨S1x24, .f32⟩
  | .local _ .vmem, ⟨34, _⟩ => ⟨S24x1, .f32⟩
  | .local _ .vmem, ⟨35, _⟩ => ⟨S1x1, .f32⟩
  | .local _ .vmem, ⟨36, _⟩ => ⟨S1x1, .f32⟩
  | .local _ .vmem, ⟨37, _⟩ => ⟨S1x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x24 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x24 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S24x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S24_S1x24 : S24.ShapeCasts S1x24
  shapeCasts_S1_S1x1 : S1.ShapeCasts S1x1
  reduces_S5000x32_S32 : S5000x32.Reduces [0] S32
  inb_S32x24_S32x24_0_0 : ∀ a, (![0, 0] : Fin 2 → Nat) a + S32x24.size a ≤ S32x24.size a
  h_S32x24 : 0 < S32x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  inb_S24x1_S24x1_0_0 : ∀ a, (![0, 0] : Fin 2 → Nat) a + S24x1.size a ≤ S24x1.size a
  h_S24x1 : 0 < S24x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  dot_S5000x128_S128x32_S5000x32_1_0_0_1_n_n_wf : DotDims.WF S5000x128 S128x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S1x32_S32x24_S1x24_1_0_0_1_n_n_wf : DotDims.WF S1x32 S32x24 S1x24 [1] [0] [0] [1] [] []
  dot_S1x24_S24x1_S1x1_1_0_0_1_n_n_wf : DotDims.WF S1x24 S24x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x24.size a ≤ S32x24.size a
  hwx4_1 : ∀ i : grid4.Coords, EltTy.bits .f32 = 32 ∨ (Rect.block (s := S32x24) S32x24.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x24.size a ≤ S1x24.size a
  hwx4_2 : ∀ i : grid4.Coords, EltTy.bits .f32 = 32 ∨ (Rect.block (s := S1x24) S1x24.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S24x1.size a ≤ S24x1.size a
  hwx4_3 : ∀ i : grid4.Coords, EltTy.bits .f32 = 32 ∨ (Rect.block (s := S24x1) S24x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S1x32_S32x24_S1x24_1_0_0_1_n_n : DotDims S1x32 S32x24 S1x24 where
  lhsContracting := [1]
  rhsContracting := [0]
  lhsNonContracting := [0]
  rhsNonContracting := [1]
  lhsBatch := []
  rhsBatch := []
  wf := dot_S1x32_S32x24_S1x24_1_0_0_1_n_n_wf
def dot_S1x24_S24x1_S1x1_1_0_0_1_n_n : DotDims S1x24 S24x1 S1x1 where
  lhsContracting := [1]
  rhsContracting := [0]
  lhsNonContracting := [0]
  rhsNonContracting := [1]
  lhsBatch := []
  rhsBatch := []
  wf := dot_S1x24_S24x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17_0) S5000x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_1) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17_1) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S32x24.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x24.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S24x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S1x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S32x24 : Shape := ⟨2, ![32, 24]⟩
abbrev S24 : Shape := ⟨1, ![24]⟩
abbrev S24x1 : Shape := ⟨2, ![24, 1]⟩
abbrev S1 : Shape := ⟨1, ![1]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S1x24 : Shape := ⟨2, ![1, 24]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x32, .f32⟩
  | .hbm, ⟨5, _⟩ => ⟨S128x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x24, .f32⟩
  | .hbm, ⟨11, _⟩ => ⟨S24, .f32⟩
  | .hbm, ⟨12, _⟩ => ⟨S24x1, .f32⟩
  | .hbm, ⟨13, _⟩ => ⟨S1, .f32⟩
  | .hbm, ⟨14, _⟩ => ⟨S100000x32, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S3200000x1, .f32⟩
  | .hbm, ⟨25, _⟩ => ⟨S3200000x32, .f32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S100000x32, .f32⟩
  | .hbm, ⟨32, _⟩ => ⟨S100000x32, .f32⟩
  | .hbm, ⟨33, _⟩ => ⟨S1x32, .f32⟩
  | .hbm, ⟨34, _⟩ => ⟨S100000x32, .f32⟩
  | .hbm, ⟨35, _⟩ => ⟨S100000x32, .f32⟩
  | .hbm, ⟨36, _⟩ => ⟨S_, .f32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x32, .f32⟩
  | .hbm, ⟨49, _⟩ => ⟨S3200000x1, .f32⟩
  | .hbm, ⟨50, _⟩ => ⟨S3200000x32, .f32⟩
  | .hbm, ⟨51, _⟩ => ⟨S3200000x32, .f32⟩
  | .hbm, ⟨52, _⟩ => ⟨S_, .f32⟩
  | .hbm, ⟨53, _⟩ => ⟨S100000x32, .f32⟩
  | .hbm, ⟨54, _⟩ => ⟨S3200000x1, .i32⟩
  | .hbm, ⟨55, _⟩ => ⟨S100000x32, .f32⟩
  | .hbm, ⟨56, _⟩ => ⟨S100000x32, .f32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S100000x32, .f32⟩
  | .hbm, ⟨61, _⟩ => ⟨S_, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S32, .f32⟩
  | .hbm, ⟨66, _⟩ => ⟨S1x32, .f32⟩
  | .hbm, ⟨67, _⟩ => ⟨S1x24, .f32⟩
  | .hbm, ⟨68, _⟩ => ⟨S1x24, .f32⟩
  | .hbm, ⟨69, _⟩ => ⟨S1x24, .f32⟩
  | .hbm, ⟨70, _⟩ => ⟨S1x1, .f32⟩
  | .hbm, ⟨71, _⟩ => ⟨S1x1, .f32⟩
  | .hbm, ⟨72, _⟩ => ⟨S1x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S24_S1x24_1 : S24.BroadcastsInDim S1x24 (![1] : Fin 1 → Fin S1x24.rank)
  bcast_S1_S1x1_1 : S1.BroadcastsInDim S1x1 (![1] : Fin 1 → Fin S1x1.rank)
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S1x32_S32x24_S1x24_1_0_0_1_n_n_wf : DotDims.WF S1x32 S32x24 S1x24 [1] [0] [0] [1] [] []
  dot_S1x24_S24x1_S1x1_1_0_0_1_n_n_wf : DotDims.WF S1x24 S24x1 S1x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S1x32_S32x24_S1x24_1_0_0_1_n_n : DotDims S1x32 S32x24 S1x24 where
  lhsContracting := [1]
  rhsContracting := [0]
  lhsNonContracting := [0]
  rhsNonContracting := [1]
  lhsBatch := []
  rhsBatch := []
  wf := dot_S1x32_S32x24_S1x24_1_0_0_1_n_n_wf
def dot_S1x24_S24x1_S1x1_1_0_0_1_n_n : DotDims S1x24 S24x1 S1x1 where
  lhsContracting := [1]
  rhsContracting := [0]
  lhsNonContracting := [0]
  rhsNonContracting := [1]
  lhsBatch := []
  rhsBatch := []
  wf := dot_S1x24_S24x1_S1x1_1_0_0_1_n_n_wf

class Facts : Prop extends Facts₀ where

variable [Facts]
-- ==== Proof.BitsProj0.lean ====
/-
  A projection region: a grid of 20 points over blocks of 5000 rows.  At point t the body reads block t of the
  node-feature matrix X, the two weight matrices K₁, K₂ and the bias row b (each of the three held whole, fetched
  once), and stores X_t · K₁ into block t of the first result and X_t · K₂ + b (the row added to every row) into
  block t of the second.  Stated at the contents V the region is entered with: each window's block, what the
  body leaves in the two results' buffers as functions of the blocks read, that the body runs to its end from
  whole buffers, and the proof data of the pipeline that follows from it.
-/
import proofs.«136399_j53652731461900_1_alg».proof.Proof.Gen.Kernel.Launch
import proofs.«136399_j53652731461900_1_alg».proof.Proof.Gen.Kernel.Skeleton
import proofs.«136399_j53652731461900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 for the
    feature matrix and the two results, the whole array for the weights and the bias. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block whenever the body runs (fetched at that point, or fetched earlier at the
    same block index), for any proof data over the arrays of V whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The buffers, each as one rectangle. -/
abbrev wholeX0 : Rect S5000x128 := Rect.unit (s := S5000x128) ![0, 0] S5000x128.size inb_S5000x128_S5000x128_0_0
abbrev wholeK0 : Rect S128x32 := Rect.unit (s := S128x32) ![0, 0] S128x32.size inb_S128x32_S128x32_0_0
abbrev wholeB0 : Rect S1x32 := Rect.unit (s := S1x32) ![0, 0] S1x32.size inb_S1x32_S1x32_0_0
abbrev wholeO0 : Rect S5000x32 := Rect.unit (s := S5000x32) ![0, 0] S5000x32.size inb_S5000x32_S5000x32_0_0

/-- What the body leaves in the first result's buffer: its one store, of X_t · K₁. -/
def projected0 (x : Vec F S5000x128 .f32) (k1 : Vec F S128x32 .f32) : Vec F S5000x32 .f32 :=
  View.canon [⟨wholeO0, k0_pay2 (View.ld x wholeX0) (View.ld k1 wholeK0)⟩]

/-- What it leaves in the second result's buffer: its one store, of X_t · K₂ + b. -/
def shifted0 (x : Vec F S5000x128 .f32) (k2 : Vec F S128x32 .f32) (b : Vec F S1x32 .f32) : Vec F S5000x32 .f32 :=
  View.canon [⟨wholeO0, k0_pay3 (View.ld x wholeX0) (View.ld k2 wholeK0) (View.ld b wholeB0)⟩]

/-- One store of the whole rectangle covers the buffer. -/
theorem covered0 (p : Vec F S5000x32 .f32) (y : S5000x32.Idx) :
    ∃ pc ∈ ([⟨wholeO0, p⟩] : List (View.Piece (Elt F) S5000x32 .f32)), y ∈ pc.1.set :=
  View.cover_of_tiled [⟨wholeO0, p⟩] S5000x32.size (by rfl) y

set_option maxHeartbeats 2000000 in
/-- From whole buffers, the four inputs' at x, k1, k2, b and the two results' at anything, the body runs to its end,
    leaving the inputs as they were and the results' buffers at X·K₁ and X·K₂ + b. -/
theorem bodyRuns0 (c : Dev nD) (E : Set ℕ) (i : grid0.Coords) (arg1 : Memref sig .tc .vmem S5000x128 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S5000x32 .f32) (harg6 : arg6.IsWhole)
    (x : Vec F S5000x128 .f32) (k1 k2 : Vec F S128x32 .f32) (b : Vec F S1x32 .f32) (K : PUnit → sProp 𝕄) :
    iprop(owns (c : Thread nD τ) arg1 fullShare x ∗ owns (c : Thread nD τ) arg2 fullShare k1 ∗ owns (c : Thread nD τ) arg3 fullShare k2 ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare k1 ∗ owns (c : Thread nD τ) arg3 fullShare k2 ∗ owns (c : Thread nD τ) arg4 fullShare b
            ∗ owns (c : Thread nD τ) arg5 fullShare (projected0 x k1) ∗ owns (c : Thread nD τ) arg6 fullShare (shifted0 x k2 b)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covered0 _)
  iexists _; isplitr
  swap; · iexact H5
  ipureintro
  exact View.read_writes_eq_canon _ _ _ (covered0 _)

/-- The pipeline's proof data on core c: its arrays as entered; after the body at point t the inputs' buffers at
    their blocks and the results' at X_t·K₁ and X_t·K₂ + b; the untouched scoped buffers and generator register as
    the invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => projected0 (blk0 V c 0 t) (blk0 V c 1 t)
    | ⟨5, _⟩ => shifted0 (blk0 V c 0 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = projected0 (blk0 V c 0 t) (blk0 V c 1 t) := by dsimp only [dat0]
theorem after0_5 (c : Dev nD) (t : Fin cfg0.N) : (dat0 V c).after 5 t = shifted0 (blk0 V c 0 t) (blk0 V c 2 t) (blk0 V c 3 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-- What the pipeline hands the body at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what
    the core owes pass through. -/
theorem bodyAtPoint0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (bodyRuns0 c Set.univ (grid0.coords t) _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact bodyAtPoint0 V c t

end Cert.Kernel.Frame

end
-- ==== Proof.BitsCombine1.lean ====
/-
  The region that combines a layer's two halves: a grid of 20 points over blocks of 5000 rows.  At point t the
  body reads block t of the aggregated matrix and block t of the second projection, and stores into block t of
  the result the entrywise maximum of their sum with zero.  Stated at the contents V the region is entered with:
  what each window's block is, what the body leaves in the result's buffer as a function of the two blocks read,
  that the body runs to its end from whole buffers, and the proof data of the pipeline that follows from it.
-/
import proofs.«136399_j53652731461900_1_alg».proof.Proof.Gen.Kernel.Launch
import proofs.«136399_j53652731461900_1_alg».proof.Proof.Gen.Kernel.Skeleton
import proofs.«136399_j53652731461900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t: the rows 5000·t … 5000·t + 4999 of its array, as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block whenever the body runs, for any proof data over the arrays of V whose
    body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole 5000×32 buffer as one rectangle. -/
abbrev whole1 : Rect S5000x32 := Rect.unit (s := S5000x32) ![0, 0] S5000x32.size inb_S5000x32_S5000x32_0_0

/-- What the body leaves in the result's buffer: its one store, of relu(a + t) of the two blocks read. -/
def combined1 (a t : Vec F S5000x32 .f32) : Vec F S5000x32 .f32 :=
  View.canon [⟨whole1, k1_pay1 (View.ld a whole1) (View.ld t whole1)⟩]

/-- That store covers the buffer. -/
theorem covered1 (p : Vec F S5000x32 .f32) (y : S5000x32.Idx) :
    ∃ pc ∈ ([⟨whole1, p⟩] : List (View.Piece (Elt F) S5000x32 .f32)), y ∈ pc.1.set :=
  View.cover_of_tiled [⟨whole1, p⟩] S5000x32.size (by rfl) y

set_option maxHeartbeats 1000000 in
/-- From whole buffers, the two inputs' at a and t and the result's at anything, the body runs to its end, leaving
    the inputs as they were and the result's buffer at relu(a + t). -/
theorem bodyRuns1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole)
    (a t : Vec F S5000x32 .f32) (K : PUnit → sProp 𝕄) :
    iprop(owns (c : Thread nD τ) arg1 fullShare a ∗ owns (c : Thread nD τ) arg2 fullShare t ∗ (∃ d, owns (c : Thread nD τ) arg3 fullShare d)
        ∗ (iprop(owns (c : Thread nD τ) arg1 fullShare a ∗ owns (c : Thread nD τ) arg2 fullShare t ∗ owns (c : Thread nD τ) arg3 fullShare (combined1 a t)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered1 _)

/-- The pipeline's proof data on core c: its arrays as entered; after the body at point t the inputs' buffers at
    their blocks and the result's at relu of their sum; the untouched scoped buffers and generator register as the
    invariant; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => combined1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = combined1 (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the pipeline hands the body at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and what
    the core owes pass through. -/
theorem bodyAtPoint1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (bodyRuns1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact bodyAtPoint1 V c t

end Cert.Kernel.Frame

end
-- ==== Proof.BitsProj2.lean ====
/-
  A projection region: a grid of 20 points over blocks of 5000 rows.  At point t the body reads block t of the
  node-feature matrix X, the two weight matrices K₁, K₂ and the bias row b (each of the three held whole, fetched
  once), and stores X_t · K₁ into block t of the first result and X_t · K₂ + b (the row added to every row) into
  block t of the second.  Stated at the contents V the region is entered with: each window's block, what the
  body leaves in the two results' buffers as functions of the blocks read, that the body runs to its end from
  whole buffers, and the proof data of the pipeline that follows from it.
-/
import proofs.«136399_j53652731461900_1_alg».proof.Proof.Gen.Kernel.Launch
import proofs.«136399_j53652731461900_1_alg».proof.Proof.Gen.Kernel.Skeleton
import proofs.«136399_j53652731461900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 for the
    feature matrix and the two results, the whole array for the weights and the bias. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block whenever the body runs (fetched at that point, or fetched earlier at the
    same block index), for any proof data over the arrays of V whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The buffers, each as one rectangle. -/
abbrev wholeX2 : Rect S5000x32 := Rect.unit (s := S5000x32) ![0, 0] S5000x32.size inb_S5000x32_S5000x32_0_0
abbrev wholeK2 : Rect S32x32 := Rect.unit (s := S32x32) ![0, 0] S32x32.size inb_S32x32_S32x32_0_0
abbrev wholeB2 : Rect S1x32 := Rect.unit (s := S1x32) ![0, 0] S1x32.size inb_S1x32_S1x32_0_0
abbrev wholeO2 : Rect S5000x32 := Rect.unit (s := S5000x32) ![0, 0] S5000x32.size inb_S5000x32_S5000x32_0_0

/-- What the body leaves in the first result's buffer: its one store, of X_t · K₁. -/
def projected2 (x : Vec F S5000x32 .f32) (k1 : Vec F S32x32 .f32) : Vec F S5000x32 .f32 :=
  View.canon [⟨wholeO2, k2_pay2 (View.ld x wholeX2) (View.ld k1 wholeK2)⟩]

/-- What it leaves in the second result's buffer: its one store, of X_t · K₂ + b. -/
def shifted2 (x : Vec F S5000x32 .f32) (k2 : Vec F S32x32 .f32) (b : Vec F S1x32 .f32) : Vec F S5000x32 .f32 :=
  View.canon [⟨wholeO2, k2_pay3 (View.ld x wholeX2) (View.ld k2 wholeK2) (View.ld b wholeB2)⟩]

/-- One store of the whole rectangle covers the buffer. -/
theorem covered2 (p : Vec F S5000x32 .f32) (y : S5000x32.Idx) :
    ∃ pc ∈ ([⟨wholeO2, p⟩] : List (View.Piece (Elt F) S5000x32 .f32)), y ∈ pc.1.set :=
  View.cover_of_tiled [⟨wholeO2, p⟩] S5000x32.size (by rfl) y

set_option maxHeartbeats 2000000 in
/-- From whole buffers, the four inputs' at x, k1, k2, b and the two results' at anything, the body runs to its end,
    leaving the inputs as they were and the results' buffers at X·K₁ and X·K₂ + b. -/
theorem bodyRuns2 (c : Dev nD) (E : Set ℕ) (i : grid2.Coords) (arg1 : Memref sig .tc .vmem S5000x32 .f32) (harg1 : arg1.IsWhole) (arg2 : Memref sig .tc .vmem S32x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S5000x32 .f32) (harg6 : arg6.IsWhole)
    (x : Vec F S5000x32 .f32) (k1 k2 : Vec F S32x32 .f32) (b : Vec F S1x32 .f32) (K : PUnit → sProp 𝕄) :
    iprop(owns (c : Thread nD τ) arg1 fullShare x ∗ owns (c : Thread nD τ) arg2 fullShare k1 ∗ owns (c : Thread nD τ) arg3 fullShare k2 ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare k1 ∗ owns (c : Thread nD τ) arg3 fullShare k2 ∗ owns (c : Thread nD τ) arg4 fullShare b
            ∗ owns (c : Thread nD τ) arg5 fullShare (projected2 x k1) ∗ owns (c : Thread nD τ) arg6 fullShare (shifted2 x k2 b)) -∗ K ⟨⟩))
      ⊢ wp frame (wpE (defs₀ (F := F)) Variants.none c none) E (cc2__proj_kernel i arg1 harg1 arg2 harg2 arg3 harg3 arg4 harg4 arg5 harg5 arg6 harg6) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covered2 _)
  iexists _; isplitr
  swap; · iexact H5
  ipureintro
  exact View.read_writes_eq_canon _ _ _ (covered2 _)

/-- The pipeline's proof data on core c: its arrays as entered; after the body at point t the inputs' buffers at
    their blocks and the results' at X_t·K₁ and X_t·K₂ + b; the untouched scoped buffers and generator register as
    the invariant; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => projected2 (blk2 V c 0 t) (blk2 V c 1 t)
    | ⟨5, _⟩ => shifted2 (blk2 V c 0 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = projected2 (blk2 V c 0 t) (blk2 V c 1 t) := by dsimp only [dat2]
theorem after2_5 (c : Dev nD) (t : Fin cfg2.N) : (dat2 V c).after 5 t = shifted2 (blk2 V c 0 t) (blk2 V c 2 t) (blk2 V c 3 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

/-- What the pipeline hands the body at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it takes back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the run above applies; the invariant and what
    the core owes pass through. -/
theorem bodyAtPoint2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (bodyRuns2 c Set.univ (grid2.coords t) _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation2 (c : Dev nD) : BodyObligation (dat2 (F := F) V c) (defs₀ (F := F)) Variants.none () Set.univ := fun t => by
  rw [bigSep_W2, bigSep_W2]
  exact bodyAtPoint2 V c t

end Cert.Kernel.Frame

end
-- ==== Proof.BitsCombine3.lean ====
/-
  The region that combines a layer's two halves: a grid of 20 points over blocks of 5000 rows.  At point t the
  body reads block t of the aggregated matrix and block t of the second projection, and stores into block t of
  the result the entrywise maximum of their sum with zero.  Stated at the contents V the region is entered with:
  what each window's block is, what the body leaves in the result's buffer as a function of the two blocks read,
  that the body runs to its end from whole buffers, and the proof data of the pipeline that follows from it.
-/
import proofs.«136399_j53652731461900_1_alg».proof.Proof.Gen.Kernel.Launch
import proofs.«136399_j53652731461900_1_alg».proof.Proof.Gen.Kernel.Skeleton
import proofs.«136399_j53652731461900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t: the rows 5000·t … 5000·t + 4999 of its array, as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block whenever the body runs, for any proof data over the arrays of V whose
    body leaves that buffer alone. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The whole 5000×32 buffer as one rectangle. -/
abbrev whole3 : Rect S5000x32 := Rect.unit (s := S5000x32) ![0, 0] S5000x32.size inb_S5000x32_S5000x32_0_0

/-- What the body leaves in the result's buffer: its one store, of relu(a + t) of the two blocks read. -/
def combined3 (a t : Vec F S5000x32 .f32) : Vec F S5000x32 .f32 :=
  View.canon [⟨whole3, k3_pay1 (View.ld a whole3) (View.ld t whole3)⟩]

/-- That store covers the buffer. -/
theorem covered3 (p : Vec F S5000x32 .f32) (y : S5000x32.Idx) :
    ∃ pc ∈ ([⟨whole3, p⟩] : List (View.Piece (Elt F) S5000x32 .f32)), y ∈ pc.1.set :=
  View.cover_of_tiled [⟨whole3, p⟩] S5000x32.size (by rfl) y

set_option maxHeartbeats 1000000 in
/-- From whole buffers, the two inputs' at a and t and the result's at anything, the body runs to its end, leaving
    the inputs as they were and the result's buffer at relu(a + t). -/
theorem bodyRuns3 (c : Dev nD) (E : Set ℕ) (i : grid3.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole)
    (a t : Vec F S5000x32 .f32) (K : PUnit → sProp 𝕄) :
    iprop(owns (c : Thread nD τ) arg1 fullShare a ∗ owns (c : Thread nD τ) arg2 fullShare t ∗ (∃ d, owns (c : Thread nD τ) arg3 fullShare d)
        ∗ (iprop(owns (c : Thread nD τ) arg1 fullShare a ∗ owns (c : Thread nD τ) arg2 fullShare t ∗ owns (c : Thread nD τ) arg3 fullShare (combined3 a t)) -∗ K ⟨⟩))
      ⊢ wp frame (wpE (defs₀ (F := F)) Variants.none c none) E (cc3__combine_kernel i arg1 harg1 arg2 harg2 arg3 harg3) K := by
  simp only [cc3__combine_kernel_eq_skeleton]; unfold cc3__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-- The pipeline's proof data on core c: its arrays as entered; after the body at point t the inputs' buffers at
    their blocks and the result's at relu of their sum; the untouched scoped buffers and generator register as the
    invariant; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => combined3 (blk3 V c 0 t) (blk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = combined3 (blk3 V c 0 t) (blk3 V c 1 t) := by dsimp only [dat3]
theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d

/-- What the pipeline hands the body at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the run above applies; the invariant and what
    the core owes pass through. -/
theorem bodyAtPoint3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (bodyRuns3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact bodyAtPoint3 V c t

end Cert.Kernel.Frame

end
-- ==== Proof.BitsPoolRuns.lean ====
/-
  The pooling region: a grid of 20 points over blocks of 5000 rows of the node matrix, with one 1×32 scratch row
  carried from point to point.  At the first point the body zeroes the scratch; at every point it adds the column
  sums of the point's block to the scratch; at the last point it also reads the two dense layers' weights and
  biases and stores (scratch · W₁ + b₁) · W₂ + b₂ into the 1×1 result.  So a point is in one of three cases —
  first, middle, last — told apart by two conditions on the grid coordinate.  This module decides those
  conditions over the grid, says where the result's window is idle, and runs the body once per case on whole
  buffers: the pieces the scratch (and, in the last case, the result's buffer) ends with are what each run finds.
-/
import proofs.«136399_j53652731461900_1_alg».proof.Proof.Gen.Kernel.Launch
import proofs.«136399_j53652731461900_1_alg».proof.Proof.Gen.Kernel.Skeleton
import proofs.«136399_j53652731461900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid coordinate is 0. -/
abbrev atFirst (i : grid4.Coords) : Prop := (Scalar.cmpi .ne (Scalar.extui (Scalar.cmpi .eq (BitVec.ofNat 32 (i 0).val) 0#32)) 0#32) = 1#1
/-- It holds at the first point only. -/
theorem atFirst_iff : ∀ t : Fin cfg4.N, atFirst (grid4.coords t) ↔ t.val % 20 = 0 :=
  (by decide +kernel : ∀ t : Fin grid4.N, atFirst (grid4.coords t) ↔ t.val % 20 = 0)

/-- The second conditional's condition: the grid coordinate is 19. -/
abbrev atLast (i : grid4.Coords) : Prop := k4_cond2 i = 1#1
/-- It holds at the last point only. -/
theorem atLast_iff : ∀ t : Fin cfg4.N, atLast (grid4.coords t) ↔ t.val % 20 = 19 :=
  (by decide +kernel : ∀ t : Fin grid4.N, atLast (grid4.coords t) ↔ t.val % 20 = 19)

/-- The five input windows are never idle. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
/-- The result's window is idle away from the last point, and not written back there; -/
theorem idle4_5 : ∀ t : Fin cfg4.N, ¬atLast (grid4.coords t) → cfg4.idle 5 (grid4.coords t) = true := by decide +kernel
theorem noFlush4_5 : ∀ t : Fin cfg4.N, ¬atLast (grid4.coords t) → (cfg4.win 5).flush t = false := by decide +kernel
/-- at the last point it is live. -/
theorem live4_5 : ∀ t : Fin cfg4.N, atLast (grid4.coords t) → cfg4.idle 5 (grid4.coords t) = false := by decide +kernel

/-- The scratch row as a memref, and as a view. -/
abbrev scratchM : Memref sig .tc .vmem S1x32 .f32 := Memref.whole cc4_scratch0
abbrev scratchV : View sig .tc .vmem S1x32 .f32 := scratchM.view
/-- A view of the result's one staging buffer, through which its contents are stated. -/
abbrev resultV : View sig .tc .vmem S1x1 .f32 := (Memref.whole cc4_stg5_0 : Memref sig .tc .vmem S1x1 .f32).view
/-- The scoped buffers of the other regions, which this one never opens. -/
abbrev others (c : Dev nD) : sProp 𝕄 :=
  Pipeline.scopedRestBut (Ix := Unit) (Name := ℕ) (U := UR sig nD τ) (Lvl := ℕ) (Val := Elt F) spec4 c [cc4_scratch0]

/-- The invariant a region starts and ends with, with the scratch row taken out of the scoped buffers. -/
theorem startInv_eq (c : Dev nD) :
    (Pipeline.ΦA spec4 c : sProp 𝕄)
      = iprop(iprop((∃ d, owns (c : Thread nD τ) scratchM fullShare d) ∗ others c) ∗ (∃ r, prngReg c r)) := by
  unfold Pipeline.ΦA; rw [scopedRest4_split]; simp only [scratchM, owns_whole]; try rfl

set_option maxHeartbeats 2000000 in
/-- THE FIRST POINT.  From the block's buffer at x and the scratch at anything, the body runs to its end leaving
    the block's buffer as it was and the scratch with the pieces found written. -/
noncomputable def runFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i)
    (x : Vec F S5000x32 .f32) :
    { LS : List (View.Piece (Elt F) S1x32 .f32) //
      ∀ (E : Set ℕ) (K : PUnit → sProp 𝕄),
        iprop(owns (c : Thread nD τ) arg1 fullShare x ∗ (∃ d, owns (c : Thread nD τ) arg7 fullShare d)
            ∗ (iprop(owns (c : Thread nD τ) arg1 fullShare x ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, fun E K => ?run⟩
  case run =>
    simp only [cc4__pool_head_kernel_eq_skeleton]; unfold cc4__pool_head_kernel_skel
    unfold owns
    iintro ⟨⟨%f0, %hf0, H0⟩, ⟨%ds, %fs, -, HS⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact HS

set_option maxHeartbeats 2000000 in
/-- A MIDDLE POINT.  From the block's buffer at x and the scratch at s (what the point before left), the same. -/
noncomputable def runMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i)
    (x : Vec F S5000x32 .f32) (s : Vec F S1x32 .f32) :
    { LS : List (View.Piece (Elt F) S1x32 .f32) //
      ∀ (E : Set ℕ) (K : PUnit → sProp 𝕄),
        iprop(owns (c : Thread nD τ) arg1 fullShare x ∗ owns (c : Thread nD τ) arg7 fullShare s
            ∗ (iprop(owns (c : Thread nD τ) arg1 fullShare x ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, fun E K => ?run⟩
  case run =>
    simp only [cc4__pool_head_kernel_eq_skeleton]; unfold cc4__pool_head_kernel_skel
    unfold owns
    iintro ⟨⟨%f0, %hf0, H0⟩, ⟨%fs, %hfs, HS⟩, Hk⟩
    obtain rfl := harg1.eq_unread hf0; obtain rfl := harg7.eq_unread hfs
    sl_exec (disch := first | exact hc0 | exact hc1)
    sl_step
    iapply Hk
    isplitl [H0]
    · iexists _; isplitr; · ipureintro; exact harg1.read_unread _
      iexact H0
    iexists _; iexact HS

set_option maxHeartbeats 4000000 in
/-- THE LAST POINT.  From the block's buffer at x, the weights' and biases' buffers at w1, b1, w2, b2, the result's
    at anything and the scratch at s, the body runs to its end leaving the inputs as they were and the scratch and
    the result's buffer with the pieces found written. -/
noncomputable def runLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) :
    Σ' (LO : List (View.Piece (Elt F) S1x1 .f32)), { LS : List (View.Piece (Elt F) S1x32 .f32) //
      ∀ (E : Set ℕ) (K : PUnit → sProp 𝕄),
        iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg5 fullShare b2
            ∗ (∃ d, owns (c : Thread nD τ) arg6 fullShare d) ∗ owns (c : Thread nD τ) arg7 fullShare s
            ∗ (iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg5 fullShare b2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, ?_, fun E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.Kernel.Frame

end
-- ==== Proof.BitsPool4.lean ====
/-
  The pooling region, continued: what the scratch row holds after each point (the first point's run, then one
  middle run per point over what the point before left, the last point's run at point 19), what the result's
  buffer holds after the last point, the region's invariant before each point (the scratch row at what the point
  before left), the proof data of the pipeline, and the body obligation, by cases on where the point is.
-/
import proofs.«136399_j53652731461900_1_alg».proof.Proof.BitsPoolRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 of the node
    matrix for window 0, the whole array for the weights, the biases and the result. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block whenever the body runs, for any proof data over the arrays of V whose
    body leaves that buffer alone. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Each window's current buffer at point t, as the pipeline passes it to the body. -/
abbrev ms4_0 (t : Fin cfg4.N) : Memref sig .tc .vmem S5000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S32x24 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x24 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S24x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1 .f32 := win4_5.stage (cfg4.slots t 5)
abbrev hs4_5 (t : Fin cfg4.N) : (ms4_5 t).IsWhole := hstage4_5 ((cfg4.slots t 5).cast nbuf4_5)

/-! ## What each case leaves -/

/-- The scratch after the first point: the run's pieces read back. -/
def accFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i) (x : Vec F S5000x32 .f32) : Vec F S1x32 .f32 :=
  scratchV.read (Elt F) (scratchV.writes (Elt F) scratchV.junk (runFirst c i arg1 harg1 arg2 harg2 arg3 harg3 arg4 harg4 arg5 harg5 arg6 harg6 arg7 harg7 hc0 hc1 x).1)
/-- Those pieces cover the scratch row. -/
theorem coverFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i) (x : Vec F S5000x32 .f32) (y : S1x32.Idx) :
    ∃ pc ∈ (runFirst c i arg1 harg1 arg2 harg2 arg3 harg3 arg4 harg4 arg5 harg5 arg6 harg6 arg7 harg7 hc0 hc1 x).1, y ∈ pc.1.set :=
  View.cover_of_tiledL (runFirst c i arg1 harg1 arg2 harg2 arg3 harg3 arg4 harg4 arg5 harg5 arg6 harg6 arg7 harg7 hc0 hc1 x).1 S1x32.size (by sl_kernel_rfl) y

/-- The scratch after a middle point, from what the point before left in it. -/
def accMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i) (x : Vec F S5000x32 .f32) (s : Vec F S1x32 .f32) : Vec F S1x32 .f32 :=
  scratchV.read (Elt F) (scratchV.writes (Elt F) scratchV.junk (runMid c i arg1 harg1 arg2 harg2 arg3 harg3 arg4 harg4 arg5 harg5 arg6 harg6 arg7 harg7 hc0 hc1 x s).1)
theorem coverMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i) (x : Vec F S5000x32 .f32) (s : Vec F S1x32 .f32) (y : S1x32.Idx) :
    ∃ pc ∈ (runMid c i arg1 harg1 arg2 harg2 arg3 harg3 arg4 harg4 arg5 harg5 arg6 harg6 arg7 harg7 hc0 hc1 x s).1, y ∈ pc.1.set :=
  View.cover_of_tiledL (runMid c i arg1 harg1 arg2 harg2 arg3 harg3 arg4 harg4 arg5 harg5 arg6 harg6 arg7 harg7 hc0 hc1 x s).1 S1x32.size (by sl_kernel_rfl) y

/-- The scratch after the last point, -/
def accLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) : Vec F S1x32 .f32 :=
  scratchV.read (Elt F) (scratchV.writes (Elt F) scratchV.junk (runLast c i arg1 harg1 arg2 harg2 arg3 harg3 arg4 harg4 arg5 harg5 arg6 harg6 arg7 harg7 hc0 hc1 x w1 b1 w2 b2 s).2.1)
theorem coverLastS (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) (y : S1x32.Idx) :
    ∃ pc ∈ (runLast c i arg1 harg1 arg2 harg2 arg3 harg3 arg4 harg4 arg5 harg5 arg6 harg6 arg7 harg7 hc0 hc1 x w1 b1 w2 b2 s).2.1, y ∈ pc.1.set :=
  View.cover_of_tiledL (runLast c i arg1 harg1 arg2 harg2 arg3 harg3 arg4 harg4 arg5 harg5 arg6 harg6 arg7 harg7 hc0 hc1 x w1 b1 w2 b2 s).2.1 S1x32.size (by sl_kernel_rfl) y

/-- and the result's buffer after it. -/
def resLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) : Vec F S1x1 .f32 :=
  resultV.read (Elt F) (resultV.writes (Elt F) resultV.junk (runLast c i arg1 harg1 arg2 harg2 arg3 harg3 arg4 harg4 arg5 harg5 arg6 harg6 arg7 harg7 hc0 hc1 x w1 b1 w2 b2 s).1)
theorem coverLastO (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) (y : S1x1.Idx) :
    ∃ pc ∈ (runLast c i arg1 harg1 arg2 harg2 arg3 harg3 arg4 harg4 arg5 harg5 arg6 harg6 arg7 harg7 hc0 hc1 x w1 b1 w2 b2 s).1, y ∈ pc.1.set :=
  View.cover_of_tiledL (runLast c i arg1 harg1 arg2 harg2 arg3 harg3 arg4 harg4 arg5 harg5 arg6 harg6 arg7 harg7 hc0 hc1 x w1 b1 w2 b2 s).1 S1x1.size (by sl_kernel_rfl) y

/-! ## The scratch row, point by point -/

/-- THE ACCUMULATION: what the scratch row holds after the body at point n. -/
def accAt (c : Dev nD) : (n : ℕ) → n < cfg4.N → Vec F S1x32 .f32
  | 0, hn => accFirst c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scratchM (Memref.isWhole_whole _) ((atFirst_iff ⟨0, hn⟩).mpr (Nat.zero_mod _))
      (fun h => by have h' := (atLast_iff ⟨0, hn⟩).mp h; (try dsimp only at h'); omega) (blk4 V c 0 ⟨0, hn⟩)
  | n + 1, hn =>
    if h1 : (n + 1) % 20 = 19 then
      accLast c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) (fun h => by have h' := (atFirst_iff (⟨n + 1, hn⟩ : Fin cfg4.N)).mp h; have hN : ((⟨n + 1, hn⟩ : Fin cfg4.N)).val < 20 := lt_of_lt_of_eq ((⟨n + 1, hn⟩ : Fin cfg4.N)).isLt (show cfg4.N = 20 from N_4); (try dsimp only at h' hN); omega) ((atLast_iff ⟨n + 1, hn⟩).mpr h1)
        (blk4 V c 0 ⟨n + 1, hn⟩) (blk4 V c 1 ⟨n + 1, hn⟩) (blk4 V c 2 ⟨n + 1, hn⟩) (blk4 V c 3 ⟨n + 1, hn⟩) (blk4 V c 4 ⟨n + 1, hn⟩) (accAt c n (Nat.lt_of_succ_lt hn))
    else
      accMid c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) (fun h => by have h' := (atFirst_iff (⟨n + 1, hn⟩ : Fin cfg4.N)).mp h; have hN : ((⟨n + 1, hn⟩ : Fin cfg4.N)).val < 20 := lt_of_lt_of_eq ((⟨n + 1, hn⟩ : Fin cfg4.N)).isLt (show cfg4.N = 20 from N_4); (try dsimp only at h' hN); omega) (fun h => h1 ((atLast_iff ⟨n + 1, hn⟩).mp h))
        (blk4 V c 0 ⟨n + 1, hn⟩) (accAt c n (Nat.lt_of_succ_lt hn))

/-- What the scratch held when point t began, for a point that is not the first. -/
abbrev accBefore (c : Dev nD) (t : Fin cfg4.N) : Vec F S1x32 .f32 :=
  accAt V c (t.val - 1) (Nat.lt_of_le_of_lt (Nat.sub_le _ _) t.isLt)

theorem accAt_first (c : Dev nD) (t : Fin cfg4.N) (h0 : t.val % 20 = 0) (h1 : ¬t.val % 20 = 19) :
    accAt V c t.val t.isLt = accFirst c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) ((atFirst_iff t).mpr h0) (fun h => h1 ((atLast_iff t).mp h)) (blk4 V c 0 t) := by
  obtain ⟨n, hn⟩ := t
  cases n with
  | zero => exact rfl
  | succ n => exact (by exfalso; have hN : n + 1 < 20 := lt_of_lt_of_eq hn (show cfg4.N = 20 from N_4); (try dsimp only at h0); omega)

theorem accAt_mid (c : Dev nD) (t : Fin cfg4.N) (h0 : ¬t.val % 20 = 0) (h1 : ¬t.val % 20 = 19) :
    accAt V c t.val t.isLt = accMid c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) (fun h => h1 ((atLast_iff t).mp h)) (blk4 V c 0 t) (accBefore V c t) := by
  obtain ⟨n, hn⟩ := t
  cases n with
  | zero => exact (by exfalso; (try dsimp only at h0); exact absurd (Nat.zero_mod _) h0)
  | succ n => exact (dif_neg h1).trans rfl

theorem accAt_last (c : Dev nD) (t : Fin cfg4.N) (h0 : ¬t.val % 20 = 0) (h1 : t.val % 20 = 19) :
    accAt V c t.val t.isLt = accLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
      (blk4 V c 0 t) (blk4 V c 1 t) (blk4 V c 2 t) (blk4 V c 3 t) (blk4 V c 4 t) (accBefore V c t) := by
  obtain ⟨n, hn⟩ := t
  cases n with
  | zero => exact (by exfalso; (try dsimp only at h0); exact absurd (Nat.zero_mod _) h0)
  | succ n => exact (dif_pos h1).trans rfl

/-- What the result's buffer holds after the body at point t: at the last point the run's store; elsewhere nothing
    is stored into it and nothing reads this value (the window is idle there and not written back). -/
def resAt (c : Dev nD) (t : Fin cfg4.N) : Vec F S1x1 .f32 :=
  if h1 : t.val % 20 = 19 then
    resLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => by have h' := (atFirst_iff t).mp h; omega) ((atLast_iff t).mpr h1)
      (blk4 V c 0 t) (blk4 V c 1 t) (blk4 V c 2 t) (blk4 V c 3 t) (blk4 V c 4 t) (accBefore V c t)
  else resultV.read (Elt F) resultV.junk

theorem resAt_last (c : Dev nD) (t : Fin cfg4.N) (h0 : ¬t.val % 20 = 0) (h1 : t.val % 20 = 19) :
    resAt V c t = resLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
      (blk4 V c 0 t) (blk4 V c 1 t) (blk4 V c 2 t) (blk4 V c 3 t) (blk4 V c 4 t) (accBefore V c t) := dif_pos h1

/-! ## The invariant -/

/-- The region's invariant before point n: before the first point what every region starts with; afterwards the
    scratch row at what the point before left, the other regions' scoped buffers unopened, the generator register. -/
def PhiS (c : Dev nD) : (n : ℕ) → n ≤ cfg4.N → sProp 𝕄
  | 0, _ => Pipeline.ΦA spec4 c
  | n + 1, hn => iprop(iprop(owns (c : Thread nD τ) scratchM fullShare (accAt V c n hn) ∗ others c) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(owns (c : Thread nD τ) scratchM fullShare (accAt V c n hn) ∗ others c) ∗ (∃ r, prngReg c r)) := rfl
theorem PhiS_pos (c : Dev nD) (n : ℕ) (h : n ≤ cfg4.N) (hz : n ≠ 0) :
    PhiS V c n h = iprop(iprop(owns (c : Thread nD τ) scratchM fullShare (accAt V c (n - 1) (by omega)) ∗ others c) ∗ (∃ r, prngReg c r)) := by
  cases n with
  | zero => exact absurd rfl hz
  | succ n => rfl

/-! ## The proof data -/

/-- The pipeline's proof data on core c: its arrays as entered; after the body at point t the inputs' buffers at
    their blocks and the result's at what the last point stores; the invariant above; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => resAt V c t
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = resAt V c t := by dsimp only [dat4]
theorem before4_0 (c : Dev nD) (t : Fin cfg4.N) (d) : (dat4 V c).before 0 t d = blk4 V c 0 t :=
  before4_0_of V (dat4 V c) (A_eq4 V c 0) (after4_0 V c) t d
theorem before4_1 (c : Dev nD) (t : Fin cfg4.N) (d) : (dat4 V c).before 1 t d = blk4 V c 1 t :=
  before4_1_of V (dat4 V c) (A_eq4 V c 1) (after4_1 V c) t d
theorem before4_2 (c : Dev nD) (t : Fin cfg4.N) (d) : (dat4 V c).before 2 t d = blk4 V c 2 t :=
  before4_2_of V (dat4 V c) (A_eq4 V c 2) (after4_2 V c) t d
theorem before4_3 (c : Dev nD) (t : Fin cfg4.N) (d) : (dat4 V c).before 3 t d = blk4 V c 3 t :=
  before4_3_of V (dat4 V c) (A_eq4 V c 3) (after4_3 V c) t d
theorem before4_4 (c : Dev nD) (t : Fin cfg4.N) (d) : (dat4 V c).before 4 t d = blk4 V c 4 t :=
  before4_4_of V (dat4 V c) (A_eq4 V c 4) (after4_4 V c) t d

/-! ## The body obligation -/

/-- What the pipeline hands the body at point t, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it takes back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

theorem leaves4_0 (c : Dev nD) (t : Fin cfg4.N) : (dat4 V c).leavesExact 0 t = owns (c : Thread nD τ) (ms4_0 t) fullShare (blk4 V c 0 t) := by
  unfold Dat.leavesExact; rw [live4_0 t, after4_0]
theorem leaves4_1 (c : Dev nD) (t : Fin cfg4.N) : (dat4 V c).leavesExact 1 t = owns (c : Thread nD τ) (ms4_1 t) fullShare (blk4 V c 1 t) := by
  unfold Dat.leavesExact; rw [live4_1 t, after4_1]
theorem leaves4_2 (c : Dev nD) (t : Fin cfg4.N) : (dat4 V c).leavesExact 2 t = owns (c : Thread nD τ) (ms4_2 t) fullShare (blk4 V c 2 t) := by
  unfold Dat.leavesExact; rw [live4_2 t, after4_2]
theorem leaves4_3 (c : Dev nD) (t : Fin cfg4.N) : (dat4 V c).leavesExact 3 t = owns (c : Thread nD τ) (ms4_3 t) fullShare (blk4 V c 3 t) := by
  unfold Dat.leavesExact; rw [live4_3 t, after4_3]
theorem leaves4_4 (c : Dev nD) (t : Fin cfg4.N) : (dat4 V c).leavesExact 4 t = owns (c : Thread nD τ) (ms4_4 t) fullShare (blk4 V c 4 t) := by
  unfold Dat.leavesExact; rw [live4_4 t, after4_4]

set_option maxHeartbeats 4800000 in
/-- The body at any point.  The inputs' buffers hold their blocks; the invariant hands over the scratch row (at
    anything at the first point, at what the point before left afterwards) and takes it back at this point's
    contents; away from the last point the result's buffer goes back untouched, at the last point it is stored. -/
theorem bodyAtPoint4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS V c (t.val + 1) t.isLt from rfl, PhiS_succ]
  rw [leaves4_0, leaves4_1, leaves4_2, leaves4_3, leaves4_4]
  have hN : t.val < 20 := lt_of_lt_of_eq t.isLt (show cfg4.N = 20 from N_4)
  by_cases h0 : t.val % 20 = 0
  · have h1 : ¬t.val % 20 = 19 := by omega
    have hz : t.val = 0 := by omega
    rw [Dat.leavesExact_idle (dat4 V c) 5 t (idle4_5 t (fun h => h1 ((atLast_iff t).mp h))) (noFlush4_5 t (fun h => h1 ((atLast_iff t).mp h)))]
    rw [accAt_first V c t h0 h1]
    unfold accFirst; (try dsimp only)
    rw [PhiS_castSucc V c t, PhiS_zero V c _ _ hz, startInv_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runFirst c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) ((atFirst_iff t).mpr h0) (fun h => h1 ((atLast_iff t).mp h)) (blk4 V c 0 t)).2 Set.univ _)
    isplitl [H0]; · iexact H0
    isplitl [HS]; · iexact HS
    iintro ⟨H0, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · rw [show (dat4 V c).leavesExact 5 t = owns (c : Thread nD τ) (ms4_5 t) fullShare ((dat4 V c).after 5 t) from by
        unfold Dat.leavesExact; rw [live4_5 t ((atLast_iff t).mpr h1)], after4_5, resAt_last V c t h0 h1]
      rw [accAt_last V c t h0 h1]
      unfold accLast resLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((runLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
        (blk4 V c 0 t) (blk4 V c 1 t) (blk4 V c 2 t) (blk4 V c 3 t) (blk4 V c 4 t) (accBefore V c t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastS c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO c _ _ _ _ _ _ _ _ _ _ _ _ _ _ _ _ _ _ _ _ _ _ _)
    · rw [Dat.leavesExact_idle (dat4 V c) 5 t (idle4_5 t (fun h => h1 ((atLast_iff t).mp h))) (noFlush4_5 t (fun h => h1 ((atLast_iff t).mp h)))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((runMid c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) (fun h => h1 ((atLast_iff t).mp h)) (blk4 V c 0 t) (accBefore V c t)).2 Set.univ _)
      isplitl [H0]; · iexact H0
      isplitl [HS]; · iexact HS
      iintro ⟨H0, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pipeline, at every point. -/
theorem body_obligation4 (c : Dev nD) : BodyObligation (dat4 (F := F) V c) (defs₀ (F := F)) Variants.none () Set.univ := fun t => by
  rw [bigSep_W4, bigSep_W4]
  exact bodyAtPoint4 V c t

/-- What every region starts with is this region's invariant before its first point. -/
theorem startInv4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives that back: the scratch row's contents are forgotten. -/
theorem endInv4 (c : Dev nD) : (dat4 V c).Φ (Fin.last cfg4.N) ⊢ Pipeline.ΦA spec4 c := by
  rw [show (dat4 V c).Φ (Fin.last cfg4.N) = PhiS V c (Fin.last cfg4.N).val (Nat.le_of_lt_succ (Fin.last cfg4.N).isLt) from rfl,
    PhiS_pos V c _ _ (by rw [Fin.val_last]; have : cfg4.N = 20 := N_4; omega), startInv_eq]
  iintro ⟨⟨HS, Hoth⟩, Hg⟩
  isplitl [HS Hoth]
  · isplitl [HS]
    · iexists _; iexact HS
    iexact Hoth
  iexact Hg

end Cert.Kernel.Frame

end
-- ==== Proof.BitsRun.lean ====
/-
  The whole run of the program: five kernel regions among stretches of host operations.  The contents of the
  unscoped buffers at each of the eleven boundaries are a fold from the launch memory: a host stretch applies its
  operations; a region puts, into the arrays its pipeline writes back, what its write-backs leave, and keeps every
  other buffer.  Each region is entered with every unscoped buffer at the boundary's contents and left with them at
  the next boundary's.  The result: every weakly fair execution terminates, nothing faulting, with every unscoped
  buffer at the last boundary's contents — in particular every argument as launched (no host operation writes one
  and no region writes one back) and the result array at what the last region's write-back leaves.
-/
import proofs.«136399_j53652731461900_1_alg».proof.Proof.BitsProj0
import proofs.«136399_j53652731461900_1_alg».proof.Proof.BitsCombine1
import proofs.«136399_j53652731461900_1_alg».proof.Proof.BitsProj2
import proofs.«136399_j53652731461900_1_alg».proof.Proof.BitsCombine3
import proofs.«136399_j53652731461900_1_alg».proof.Proof.BitsPool4
import proofs.«136399_j53652731461900_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev Bd0 : Dev nD → Valuation τ sig (Elt F) := fun c b => (s₀ m ρ).mem ((c : Dev nD), b)
/-- After host stretch 0 (region 0's entry). -/
abbrev Bd1 : Dev nD → Valuation τ sig (Elt F) := fun c => StableHlo.after hostOps0 (Bd0 m ρ c)
/-- The same read at the TensorCore's references. -/
abbrev En1 : (c : Dev nD) → (b : Ref sig .tc) → Buf (Elt F) ((c : Thread nD τ).loc b) := fun c b => Bd1 m ρ c b
/-- At region 0's exit: its arrays at what the pipeline leaves, every other buffer as entered. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem leaves0 (c : Dev nD) (w : Fin cfg0.W) : (dat0 (En1 m ρ) c).arrAt w cfg0.N = Ex2 m ρ c (Pipeline.arrRef spec0 w) :=
  (Bd2_arr m ρ c w).symm
theorem rest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- Region 0 changes only the arrays it writes back: main_v1_0, main_v1_1. -/
theorem Bd2_keep (c : Dev nD) (r : Ref sig .tc) (h : r ∉ ([main_v1_0, main_v1_1] : List (Ref sig .tc))) :
    Bd2 m ρ c (Proc.devRef .tc r) = Bd1 m ρ c (Proc.devRef .tc r) := by
  by_cases hw : ∃ w, Pipeline.arrRef spec0 w = r
  · obtain ⟨w, rfl⟩ := hw
    fin_cases w
    · exact (Bd2_arr m ρ c 0).trans (((dat0 (En1 m ρ) c).arrAt_in 0 rfl _).trans (A_eq0 (En1 m ρ) c 0))
    · exact (Bd2_arr m ρ c 1).trans (((dat0 (En1 m ρ) c).arrAt_in 1 rfl _).trans (A_eq0 (En1 m ρ) c 1))
    · exact (Bd2_arr m ρ c 2).trans (((dat0 (En1 m ρ) c).arrAt_in 2 rfl _).trans (A_eq0 (En1 m ρ) c 2))
    · exact (Bd2_arr m ρ c 3).trans (((dat0 (En1 m ρ) c).arrAt_in 3 rfl _).trans (A_eq0 (En1 m ρ) c 3))
    · exact absurd (by decide) h
    · exact absurd (by decide) h
  · exact Bd2_of_ne m ρ c r fun w e => hw ⟨w, e⟩
/-- After host stretch 1 (region 1's entry). -/
abbrev Bd3 : Dev nD → Valuation τ sig (Elt F) := fun c => StableHlo.after hostOps1 (Bd2 m ρ c)
/-- The same read at the TensorCore's references. -/
abbrev En3 : (c : Dev nD) → (b : Ref sig .tc) → Buf (Elt F) ((c : Thread nD τ).loc b) := fun c b => Bd3 m ρ c b
/-- At region 1's exit: its arrays at what the pipeline leaves, every other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem leaves1 (c : Dev nD) (w : Fin cfg1.W) : (dat1 (En3 m ρ) c).arrAt w cfg1.N = Ex4 m ρ c (Pipeline.arrRef spec1 w) :=
  (Bd4_arr m ρ c w).symm
theorem rest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- Region 1 changes only the arrays it writes back: main_v15. -/
theorem Bd4_keep (c : Dev nD) (r : Ref sig .tc) (h : r ∉ ([main_v15] : List (Ref sig .tc))) :
    Bd4 m ρ c (Proc.devRef .tc r) = Bd3 m ρ c (Proc.devRef .tc r) := by
  by_cases hw : ∃ w, Pipeline.arrRef spec1 w = r
  · obtain ⟨w, rfl⟩ := hw
    fin_cases w
    · exact (Bd4_arr m ρ c 0).trans (((dat1 (En3 m ρ) c).arrAt_in 0 rfl _).trans (A_eq1 (En3 m ρ) c 0))
    · exact (Bd4_arr m ρ c 1).trans (((dat1 (En3 m ρ) c).arrAt_in 1 rfl _).trans (A_eq1 (En3 m ρ) c 1))
    · exact absurd (by decide) h
  · exact Bd4_of_ne m ρ c r fun w e => hw ⟨w, e⟩
/-- After host stretch 2 (region 2's entry). -/
abbrev Bd5 : Dev nD → Valuation τ sig (Elt F) := fun c => StableHlo.after hostOps2 (Bd4 m ρ c)
/-- The same read at the TensorCore's references. -/
abbrev En5 : (c : Dev nD) → (b : Ref sig .tc) → Buf (Elt F) ((c : Thread nD τ).loc b) := fun c b => Bd5 m ρ c b
/-- At region 2's exit: its arrays at what the pipeline leaves, every other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem leaves2 (c : Dev nD) (w : Fin cfg2.W) : (dat2 (En5 m ρ) c).arrAt w cfg2.N = Ex6 m ρ c (Pipeline.arrRef spec2 w) :=
  (Bd6_arr m ρ c w).symm
theorem rest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)
/-- Region 2 changes only the arrays it writes back: main_v17_0, main_v17_1. -/
theorem Bd6_keep (c : Dev nD) (r : Ref sig .tc) (h : r ∉ ([main_v17_0, main_v17_1] : List (Ref sig .tc))) :
    Bd6 m ρ c (Proc.devRef .tc r) = Bd5 m ρ c (Proc.devRef .tc r) := by
  by_cases hw : ∃ w, Pipeline.arrRef spec2 w = r
  · obtain ⟨w, rfl⟩ := hw
    fin_cases w
    · exact (Bd6_arr m ρ c 0).trans (((dat2 (En5 m ρ) c).arrAt_in 0 rfl _).trans (A_eq2 (En5 m ρ) c 0))
    · exact (Bd6_arr m ρ c 1).trans (((dat2 (En5 m ρ) c).arrAt_in 1 rfl _).trans (A_eq2 (En5 m ρ) c 1))
    · exact (Bd6_arr m ρ c 2).trans (((dat2 (En5 m ρ) c).arrAt_in 2 rfl _).trans (A_eq2 (En5 m ρ) c 2))
    · exact (Bd6_arr m ρ c 3).trans (((dat2 (En5 m ρ) c).arrAt_in 3 rfl _).trans (A_eq2 (En5 m ρ) c 3))
    · exact absurd (by decide) h
    · exact absurd (by decide) h
  · exact Bd6_of_ne m ρ c r fun w e => hw ⟨w, e⟩
/-- After host stretch 3 (region 3's entry). -/
abbrev Bd7 : Dev nD → Valuation τ sig (Elt F) := fun c => StableHlo.after hostOps3 (Bd6 m ρ c)
/-- The same read at the TensorCore's references. -/
abbrev En7 : (c : Dev nD) → (b : Ref sig .tc) → Buf (Elt F) ((c : Thread nD τ).loc b) := fun c b => Bd7 m ρ c b
/-- At region 3's exit: its arrays at what the pipeline leaves, every other buffer as entered. -/
def Bd8 (c : Dev nD) : Valuation τ sig (Elt F) :=
  Pipeline.withArrays spec3 c (Bd7 m ρ c) fun w => (dat3 (En7 m ρ) c).arrAt w cfg3.N
theorem Bd8_arr (c : Dev nD) (w : Fin cfg3.W) :
    Bd8 m ρ c (Proc.devRef .tc (Pipeline.arrRef spec3 w)) = (dat3 (En7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m ρ c b
theorem leaves3 (c : Dev nD) (w : Fin cfg3.W) : (dat3 (En7 m ρ) c).arrAt w cfg3.N = Ex8 m ρ c (Pipeline.arrRef spec3 w) :=
  (Bd8_arr m ρ c w).symm
theorem rest3 (c : Dev nD) : ∀ b, b ∉ Finset.univ.image (Pipeline.arrRef spec3) → Ex8 m ρ c b = En7 m ρ c b :=
  fun b hb => Bd8_of_ne m ρ c b fun w e => hb (Finset.mem_image.mpr ⟨w, Finset.mem_univ _, e⟩)
/-- Region 3 changes only the arrays it writes back: main_v31. -/
theorem Bd8_keep (c : Dev nD) (r : Ref sig .tc) (h : r ∉ ([main_v31] : List (Ref sig .tc))) :
    Bd8 m ρ c (Proc.devRef .tc r) = Bd7 m ρ c (Proc.devRef .tc r) := by
  by_cases hw : ∃ w, Pipeline.arrRef spec3 w = r
  · obtain ⟨w, rfl⟩ := hw
    fin_cases w
    · exact (Bd8_arr m ρ c 0).trans (((dat3 (En7 m ρ) c).arrAt_in 0 rfl _).trans (A_eq3 (En7 m ρ) c 0))
    · exact (Bd8_arr m ρ c 1).trans (((dat3 (En7 m ρ) c).arrAt_in 1 rfl _).trans (A_eq3 (En7 m ρ) c 1))
    · exact absurd (by decide) h
  · exact Bd8_of_ne m ρ c r fun w e => hw ⟨w, e⟩
/-- After host stretch 4 (region 4's entry). -/
abbrev Bd9 : Dev nD → Valuation τ sig (Elt F) := fun c => StableHlo.after hostOps4 (Bd8 m ρ c)
/-- The same read at the TensorCore's references. -/
abbrev En9 : (c : Dev nD) → (b : Ref sig .tc) → Buf (Elt F) ((c : Thread nD τ).loc b) := fun c b => Bd9 m ρ c b
/-- At region 4's exit: its arrays at what the pipeline leaves, every other buffer as entered. -/
def Bd10 (c : Dev nD) : Valuation τ sig (Elt F) :=
  Pipeline.withArrays spec4 c (Bd9 m ρ c) fun w => (dat4 (En9 m ρ) c).arrAt w cfg4.N
theorem Bd10_arr (c : Dev nD) (w : Fin cfg4.W) :
    Bd10 m ρ c (Proc.devRef .tc (Pipeline.arrRef spec4 w)) = (dat4 (En9 m ρ) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m ρ c (Proc.devRef .tc b) = Bd9 m ρ c (Proc.devRef .tc b) := by
  unfold Bd10; exact Pipeline.withArrays_of_ne spec4 c _ _ b hb
abbrev Ex10 : (c : Dev nD) → (b : Ref sig .tc) → Buf (Elt F) ((c : Thread nD τ).loc b) := fun c b => Bd10 m ρ c b
theorem leaves4 (c : Dev nD) (w : Fin cfg4.W) : (dat4 (En9 m ρ) c).arrAt w cfg4.N = Ex10 m ρ c (Pipeline.arrRef spec4 w) :=
  (Bd10_arr m ρ c w).symm
theorem rest4 (c : Dev nD) : ∀ b, b ∉ Finset.univ.image (Pipeline.arrRef spec4) → Ex10 m ρ c b = En9 m ρ c b :=
  fun b hb => Bd10_of_ne m ρ c b fun w e => hb (Finset.mem_image.mpr ⟨w, Finset.mem_univ _, e⟩)
/-- Region 4 changes only the arrays it writes back: main_v34. -/
theorem Bd10_keep (c : Dev nD) (r : Ref sig .tc) (h : r ∉ ([main_v34] : List (Ref sig .tc))) :
    Bd10 m ρ c (Proc.devRef .tc r) = Bd9 m ρ c (Proc.devRef .tc r) := by
  by_cases hw : ∃ w, Pipeline.arrRef spec4 w = r
  · obtain ⟨w, rfl⟩ := hw
    fin_cases w
    · exact (Bd10_arr m ρ c 0).trans (((dat4 (En9 m ρ) c).arrAt_in 0 rfl _).trans (A_eq4 (En9 m ρ) c 0))
    · exact (Bd10_arr m ρ c 1).trans (((dat4 (En9 m ρ) c).arrAt_in 1 rfl _).trans (A_eq4 (En9 m ρ) c 1))
    · exact (Bd10_arr m ρ c 2).trans (((dat4 (En9 m ρ) c).arrAt_in 2 rfl _).trans (A_eq4 (En9 m ρ) c 2))
    · exact (Bd10_arr m ρ c 3).trans (((dat4 (En9 m ρ) c).arrAt_in 3 rfl _).trans (A_eq4 (En9 m ρ) c 3))
    · exact (Bd10_arr m ρ c 4).trans (((dat4 (En9 m ρ) c).arrAt_in 4 rfl _).trans (A_eq4 (En9 m ρ) c 4))
    · exact absurd (by decide) h
  · exact Bd10_of_ne m ρ c r fun w e => hw ⟨w, e⟩

/-! ## The arguments are never written -/

/-- The fourteen argument arrays. -/
abbrev argRefs : List (Ref sig .tc) := [main_arg0, main_arg1, main_arg2, main_arg3, main_arg4, main_arg5, main_arg6, main_arg7, main_arg8, main_arg9, main_arg10, main_arg11, main_arg12, main_arg13]

theorem kept0 (c : Dev nD) (r : Ref sig .tc) (hr : r ∈ argRefs) : Bd0 m ρ c (Proc.devRef .tc r) = m ((c : Thread nD τ).loc r) := rfl
theorem kept1 (c : Dev nD) (r : Ref sig .tc) (hr : r ∈ argRefs) : Bd1 m ρ c (Proc.devRef .tc r) = m ((c : Thread nD τ).loc r) :=
  (StableHlo.after_of_writes_sub hostOps0 _ hostOps0_writes ((by decide : ∀ r ∈ argRefs, r ∉ hostOps0_W) r hr)).trans (kept0 m ρ c r hr)
theorem kept2 (c : Dev nD) (r : Ref sig .tc) (hr : r ∈ argRefs) : Bd2 m ρ c (Proc.devRef .tc r) = m ((c : Thread nD τ).loc r) :=
  (Bd2_keep m ρ c r ((by decide : ∀ r ∈ argRefs, r ∉ ([main_v1_0, main_v1_1] : List (Ref sig .tc))) r hr)).trans (kept1 m ρ c r hr)
theorem kept3 (c : Dev nD) (r : Ref sig .tc) (hr : r ∈ argRefs) : Bd3 m ρ c (Proc.devRef .tc r) = m ((c : Thread nD τ).loc r) :=
  (StableHlo.after_of_writes_sub hostOps1 _ hostOps1_writes ((by decide : ∀ r ∈ argRefs, r ∉ hostOps1_W) r hr)).trans (kept2 m ρ c r hr)
theorem kept4 (c : Dev nD) (r : Ref sig .tc) (hr : r ∈ argRefs) : Bd4 m ρ c (Proc.devRef .tc r) = m ((c : Thread nD τ).loc r) :=
  (Bd4_keep m ρ c r ((by decide : ∀ r ∈ argRefs, r ∉ ([main_v15] : List (Ref sig .tc))) r hr)).trans (kept3 m ρ c r hr)
theorem kept5 (c : Dev nD) (r : Ref sig .tc) (hr : r ∈ argRefs) : Bd5 m ρ c (Proc.devRef .tc r) = m ((c : Thread nD τ).loc r) :=
  (StableHlo.after_of_writes_sub hostOps2 _ hostOps2_writes ((by decide : ∀ r ∈ argRefs, r ∉ hostOps2_W) r hr)).trans (kept4 m ρ c r hr)
theorem kept6 (c : Dev nD) (r : Ref sig .tc) (hr : r ∈ argRefs) : Bd6 m ρ c (Proc.devRef .tc r) = m ((c : Thread nD τ).loc r) :=
  (Bd6_keep m ρ c r ((by decide : ∀ r ∈ argRefs, r ∉ ([main_v17_0, main_v17_1] : List (Ref sig .tc))) r hr)).trans (kept5 m ρ c r hr)
theorem kept7 (c : Dev nD) (r : Ref sig .tc) (hr : r ∈ argRefs) : Bd7 m ρ c (Proc.devRef .tc r) = m ((c : Thread nD τ).loc r) :=
  (StableHlo.after_of_writes_sub hostOps3 _ hostOps3_writes ((by decide : ∀ r ∈ argRefs, r ∉ hostOps3_W) r hr)).trans (kept6 m ρ c r hr)
theorem kept8 (c : Dev nD) (r : Ref sig .tc) (hr : r ∈ argRefs) : Bd8 m ρ c (Proc.devRef .tc r) = m ((c : Thread nD τ).loc r) :=
  (Bd8_keep m ρ c r ((by decide : ∀ r ∈ argRefs, r ∉ ([main_v31] : List (Ref sig .tc))) r hr)).trans (kept7 m ρ c r hr)
theorem kept9 (c : Dev nD) (r : Ref sig .tc) (hr : r ∈ argRefs) : Bd9 m ρ c (Proc.devRef .tc r) = m ((c : Thread nD τ).loc r) :=
  (StableHlo.after_of_writes_sub hostOps4 _ hostOps4_writes ((by decide : ∀ r ∈ argRefs, r ∉ hostOps4_W) r hr)).trans (kept8 m ρ c r hr)
theorem kept10 (c : Dev nD) (r : Ref sig .tc) (hr : r ∈ argRefs) : Bd10 m ρ c (Proc.devRef .tc r) = m ((c : Thread nD τ).loc r) :=
  (Bd10_keep m ρ c r ((by decide : ∀ r ∈ argRefs, r ∉ ([main_v34] : List (Ref sig .tc))) r hr)).trans (kept9 m ρ c r hr)

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
  | ⟨4, _⟩ => fun c => dat4 (En9 m ρ) c
abbrev noVariants : Variants := Variants.none
/-- No core owes another anything. -/
abbrev noDues : GSem nD τ sig → Finset Unit := fun _ => ∅
abbrev noLevels : GSem nD τ sig → Unit → ℕ := fun _ _ => 0
/-- Beside the buffers through every segment: the core's generator register at some state and its dues, at nothing. -/
abbrev riding (c : Dev nD) : sProp 𝕄 := iprop((∃ r, prngReg c r) ∗ ∃ W, owes (c : Thread nD τ) (0 : CellTallies nD τ sig Unit) W)
/-- A host stretch as a segment from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev lastState (c : Dev nD) : sProp 𝕄 := iprop(StableHlo.held (c : Thread nD τ) (Pipeline.ucRefs τ sig) (Bd10 m ρ c) ∗ ∃ r, prngReg c r)

/-! ## The regions as segments -/

set_option backward.isDefEq.respectTransparency.types false in
/-- Region 0 over the thread state: entered from every unscoped buffer at boundary 1's contents, left at boundary
    2's.  Its arrays are split out of the unscoped buffers and put back at the exit contents; the generator register
    goes into the region's invariant and comes out; nothing is owed; the kernel has no semaphore of its own. -/
def reg0 : Pipeline.RegionSeg (pcfgs (F := F)) adm (pdats m ρ) () defs₀ noVariants noDues noLevels 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ noDues noLevels 0 fun _ _ => rfl
  pre c := iprop(StableHlo.held (c : Thread nD τ) (Pipeline.ucRefs τ sig) (Bd1 m ρ c) ∗ riding c)
  post c := iprop(StableHlo.held (c : Thread nD τ) (Pipeline.ucRefs τ sig) (Bd2 m ρ c) ∗ riding c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (leaves0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary
    4's.  Its arrays are split out of the unscoped buffers and put back at the exit contents; the generator register
    goes into the region's invariant and comes out; nothing is owed; the kernel has no semaphore of its own. -/
def reg1 : Pipeline.RegionSeg (pcfgs (F := F)) adm (pdats m ρ) () defs₀ noVariants noDues noLevels 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ noDues noLevels 1 fun _ _ => rfl
  pre c := iprop(StableHlo.held (c : Thread nD τ) (Pipeline.ucRefs τ sig) (Bd3 m ρ c) ∗ riding c)
  post c := iprop(StableHlo.held (c : Thread nD τ) (Pipeline.ucRefs τ sig) (Bd4 m ρ c) ∗ riding c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (leaves1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary
    6's.  Its arrays are split out of the unscoped buffers and put back at the exit contents; the generator register
    goes into the region's invariant and comes out; nothing is owed; the kernel has no semaphore of its own. -/
def reg2 : Pipeline.RegionSeg (pcfgs (F := F)) adm (pdats m ρ) () defs₀ noVariants noDues noLevels 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ noDues noLevels 2 fun _ _ => rfl
  pre c := iprop(StableHlo.held (c : Thread nD τ) (Pipeline.ucRefs τ sig) (Bd5 m ρ c) ∗ riding c)
  post c := iprop(StableHlo.held (c : Thread nD τ) (Pipeline.ucRefs τ sig) (Bd6 m ρ c) ∗ riding c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (leaves2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary
    8's.  Its arrays are split out of the unscoped buffers and put back at the exit contents; the generator register
    goes into the region's invariant and comes out; nothing is owed; the kernel has no semaphore of its own. -/
def reg3 : Pipeline.RegionSeg (pcfgs (F := F)) adm (pdats m ρ) () defs₀ noVariants noDues noLevels 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ noDues noLevels 3 fun _ _ => rfl
  pre c := iprop(StableHlo.held (c : Thread nD τ) (Pipeline.ucRefs τ sig) (Bd7 m ρ c) ∗ riding c)
  post c := iprop(StableHlo.held (c : Thread nD τ) (Pipeline.ucRefs τ sig) (Bd8 m ρ c) ∗ riding c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (leaves3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary
    10's.  Its arrays are split out of the unscoped buffers and put back at the exit contents; the generator register
    goes into the region's invariant and comes out; nothing is owed; the kernel has no semaphore of its own. -/
def reg4 : Pipeline.RegionSeg (pcfgs (F := F)) adm (pdats m ρ) () defs₀ noVariants noDues noLevels 4 where
  win := launch4.win.to₀
  block_pos := launch4.block_pos
  stage_whole := launch4.stage_whole
  K := PEmpty
  osem k := k.elim
  ho := Pipeline.OwnSemFacts.none _
  hbody c := (body_obligation4 (En9 m ρ) c).loose
  hwaits := Pipeline.hwaits_of_owed_zero _ _ _ _ noDues noLevels 4 fun _ _ => rfl
  pre c := iprop(StableHlo.held (c : Thread nD τ) (Pipeline.ucRefs τ sig) (Bd9 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (En9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    have hback : (Pipeline.ΦA spec4 c : sProp 𝕄)
        ⊢ iprop((∃ r, prngReg c r) ∗ BI.emp ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (show (pdats m ρ 4 c).Φ (Fin.last _) ⊢ Pipeline.ΦA spec4 c from endInv4 (En9 m ρ) c).trans hback
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (En9 m ρ c) (Ex10 m ρ c) ((pdats m ρ 4 c).arrAt · cfg4.N) (leaves4 m ρ c) (rest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's ten segments in order. -/
abbrev allSegs : List (Pipeline.Seg (pcfgs (F := F)) adm (pdats m ρ) () defs₀ noVariants noDues noLevels) :=
  [ .host (hostSeg hostOps0 hostOps0_sub hostOps0_fresh (Bd0 m ρ)),
    .region (reg0 m ρ),
    .host (hostSeg hostOps1 hostOps1_sub hostOps1_fresh (Bd2 m ρ)),
    .region (reg1 m ρ),
    .host (hostSeg hostOps2 hostOps2_sub hostOps2_fresh (Bd4 m ρ)),
    .region (reg2 m ρ),
    .host (hostSeg hostOps3 hostOps3_sub hostOps3_fresh (Bd6 m ρ)),
    .region (reg3 m ρ),
    .host (hostSeg hostOps4 hostOps4_sub hostOps4_fresh (Bd8 m ρ)),
    .region (reg4 m ρ) ]

/-- The program is the run of its segments. -/
theorem main_run (c : Dev nD) : main (F := F) c = Pipeline.Seg.run (allSegs m ρ) := (main_chain c).trans (by chain_rfl)

set_option backward.isDefEq.respectTransparency.types false in
/-- THE RUN.  From any memory with zero counters every weakly fair execution of the program on the TensorCores
    terminates, nothing faulting, and in every final memory each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd10 m ρ c b) :=
  Pipeline.θ_run_regions_kit (pcfgs (F := F)) adm (pdats m ρ) () cellOf_inj emb₁ defs₀ noVariants noDues noLevels m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noDues noLevels fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd10 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd10 m ρ c) s')
      isplitl [Hh] <;> iassumption)
    (hQ := fun s h c => h c)

/-- An argument array ends as launched. -/
theorem arg_kept (c : Dev nD) (r : Ref sig .tc) (hr : r ∈ argRefs) (hu : ¬ (Proc.devRef .tc r : DevRef τ sig).isScoped)
    (s : MemSt nD τ sig (Elt F)) (h : ∀ b ∈ Pipeline.ucRefs τ sig, s.mem (((c : Thread nD τ)).1, b) = Bd10 m ρ c b) :
    s.mem ((c.tc : Thread nD τ).loc r) = m ((c.tc : Thread nD τ).loc r) :=
  (h _ (mem_uc r hu)).trans (kept10 m ρ c r hr)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨arg_kept m ρ c main_arg0 (by decide) (by decide) r.2 (h c),
    arg_kept m ρ c main_arg1 (by decide) (by decide) r.2 (h c),
    arg_kept m ρ c main_arg2 (by decide) (by decide) r.2 (h c),
    arg_kept m ρ c main_arg3 (by decide) (by decide) r.2 (h c),
    arg_kept m ρ c main_arg4 (by decide) (by decide) r.2 (h c),
    arg_kept m ρ c main_arg5 (by decide) (by decide) r.2 (h c),
    arg_kept m ρ c main_arg6 (by decide) (by decide) r.2 (h c),
    arg_kept m ρ c main_arg7 (by decide) (by decide) r.2 (h c),
    arg_kept m ρ c main_arg8 (by decide) (by decide) r.2 (h c),
    arg_kept m ρ c main_arg9 (by decide) (by decide) r.2 (h c),
    arg_kept m ρ c main_arg10 (by decide) (by decide) r.2 (h c),
    arg_kept m ρ c main_arg11 (by decide) (by decide) r.2 (h c),
    arg_kept m ρ c main_arg12 (by decide) (by decide) r.2 (h c),
    arg_kept m ρ c main_arg13 (by decide) (by decide) r.2 (h c)⟩) (run_all m ρ)

end Cert.Kernel.Frame

end
-- ==== Proof.IdealProj0.lean ====
/-
  A projection region: a grid of 20 points over blocks of 5000 rows.  At point t the body reads block t of the
  node-feature matrix X, the two weight matrices K₁, K₂ and the bias row b (each of the three held whole, fetched
  once), and stores X_t · K₁ into block t of the first result and X_t · K₂ + b (the row added to every row) into
  block t of the second.  Stated at the contents V the region is entered with: each window's block, what the
  body leaves in the two results' buffers as functions of the blocks read, that the body runs to its end from
  whole buffers, and the proof data of the pipeline that follows from it.
-/
import proofs.«136399_j53652731461900_1_alg».proof.Proof.Gen.KernelIdeal.Launch
import proofs.«136399_j53652731461900_1_alg».proof.Proof.Gen.KernelIdeal.Skeleton
import proofs.«136399_j53652731461900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 for the
    feature matrix and the two results, the whole array for the weights and the bias. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block whenever the body runs (fetched at that point, or fetched earlier at the
    same block index), for any proof data over the arrays of V whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The buffers, each as one rectangle. -/
abbrev wholeX0 : Rect S5000x128 := Rect.unit (s := S5000x128) ![0, 0] S5000x128.size inb_S5000x128_S5000x128_0_0
abbrev wholeK0 : Rect S128x32 := Rect.unit (s := S128x32) ![0, 0] S128x32.size inb_S128x32_S128x32_0_0
abbrev wholeB0 : Rect S1x32 := Rect.unit (s := S1x32) ![0, 0] S1x32.size inb_S1x32_S1x32_0_0
abbrev wholeO0 : Rect S5000x32 := Rect.unit (s := S5000x32) ![0, 0] S5000x32.size inb_S5000x32_S5000x32_0_0

/-- What the body leaves in the first result's buffer: its one store, of X_t · K₁. -/
def projected0 (x : Vec F S5000x128 .f32) (k1 : Vec F S128x32 .f32) : Vec F S5000x32 .f32 :=
  View.canon [⟨wholeO0, k0_pay2 (View.ld x wholeX0) (View.ld k1 wholeK0)⟩]

/-- What it leaves in the second result's buffer: its one store, of X_t · K₂ + b. -/
def shifted0 (x : Vec F S5000x128 .f32) (k2 : Vec F S128x32 .f32) (b : Vec F S1x32 .f32) : Vec F S5000x32 .f32 :=
  View.canon [⟨wholeO0, k0_pay3 (View.ld x wholeX0) (View.ld k2 wholeK0) (View.ld b wholeB0)⟩]

/-- One store of the whole rectangle covers the buffer. -/
theorem covered0 (p : Vec F S5000x32 .f32) (y : S5000x32.Idx) :
    ∃ pc ∈ ([⟨wholeO0, p⟩] : List (View.Piece (Elt F) S5000x32 .f32)), y ∈ pc.1.set :=
  View.cover_of_tiled [⟨wholeO0, p⟩] S5000x32.size (by rfl) y

set_option maxHeartbeats 2000000 in
/-- From whole buffers, the four inputs' at x, k1, k2, b and the two results' at anything, the body runs to its end,
    leaving the inputs as they were and the results' buffers at X·K₁ and X·K₂ + b. -/
theorem bodyRuns0 (c : Dev nD) (E : Set ℕ) (i : grid0.Coords) (arg1 : Memref sig .tc .vmem S5000x128 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S5000x32 .f32) (harg6 : arg6.IsWhole)
    (x : Vec F S5000x128 .f32) (k1 k2 : Vec F S128x32 .f32) (b : Vec F S1x32 .f32) (K : PUnit → sProp 𝕄) :
    iprop(owns (c : Thread nD τ) arg1 fullShare x ∗ owns (c : Thread nD τ) arg2 fullShare k1 ∗ owns (c : Thread nD τ) arg3 fullShare k2 ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare k1 ∗ owns (c : Thread nD τ) arg3 fullShare k2 ∗ owns (c : Thread nD τ) arg4 fullShare b
            ∗ owns (c : Thread nD τ) arg5 fullShare (projected0 x k1) ∗ owns (c : Thread nD τ) arg6 fullShare (shifted0 x k2 b)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covered0 _)
  iexists _; isplitr
  swap; · iexact H5
  ipureintro
  exact View.read_writes_eq_canon _ _ _ (covered0 _)

/-- The pipeline's proof data on core c: its arrays as entered; after the body at point t the inputs' buffers at
    their blocks and the results' at X_t·K₁ and X_t·K₂ + b; the untouched scoped buffers and generator register as
    the invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => projected0 (blk0 V c 0 t) (blk0 V c 1 t)
    | ⟨5, _⟩ => shifted0 (blk0 V c 0 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = projected0 (blk0 V c 0 t) (blk0 V c 1 t) := by dsimp only [dat0]
theorem after0_5 (c : Dev nD) (t : Fin cfg0.N) : (dat0 V c).after 5 t = shifted0 (blk0 V c 0 t) (blk0 V c 2 t) (blk0 V c 3 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-- What the pipeline hands the body at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies; the invariant and what
    the core owes pass through. -/
theorem bodyAtPoint0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (bodyRuns0 c Set.univ (grid0.coords t) _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact bodyAtPoint0 V c t

end Cert.KernelIdeal.Frame

end
-- ==== Proof.IdealCombine1.lean ====
/-
  The region that combines a layer's two halves: a grid of 20 points over blocks of 5000 rows.  At point t the
  body reads block t of the aggregated matrix and block t of the second projection, and stores into block t of
  the result the entrywise maximum of their sum with zero.  Stated at the contents V the region is entered with:
  what each window's block is, what the body leaves in the result's buffer as a function of the two blocks read,
  that the body runs to its end from whole buffers, and the proof data of the pipeline that follows from it.
-/
import proofs.«136399_j53652731461900_1_alg».proof.Proof.Gen.KernelIdeal.Launch
import proofs.«136399_j53652731461900_1_alg».proof.Proof.Gen.KernelIdeal.Skeleton
import proofs.«136399_j53652731461900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t: the rows 5000·t … 5000·t + 4999 of its array, as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block whenever the body runs, for any proof data over the arrays of V whose
    body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole 5000×32 buffer as one rectangle. -/
abbrev whole1 : Rect S5000x32 := Rect.unit (s := S5000x32) ![0, 0] S5000x32.size inb_S5000x32_S5000x32_0_0

/-- What the body leaves in the result's buffer: its one store, of relu(a + t) of the two blocks read. -/
def combined1 (a t : Vec F S5000x32 .f32) : Vec F S5000x32 .f32 :=
  View.canon [⟨whole1, k1_pay1 (View.ld a whole1) (View.ld t whole1)⟩]

/-- That store covers the buffer. -/
theorem covered1 (p : Vec F S5000x32 .f32) (y : S5000x32.Idx) :
    ∃ pc ∈ ([⟨whole1, p⟩] : List (View.Piece (Elt F) S5000x32 .f32)), y ∈ pc.1.set :=
  View.cover_of_tiled [⟨whole1, p⟩] S5000x32.size (by rfl) y

set_option maxHeartbeats 1000000 in
/-- From whole buffers, the two inputs' at a and t and the result's at anything, the body runs to its end, leaving
    the inputs as they were and the result's buffer at relu(a + t). -/
theorem bodyRuns1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole)
    (a t : Vec F S5000x32 .f32) (K : PUnit → sProp 𝕄) :
    iprop(owns (c : Thread nD τ) arg1 fullShare a ∗ owns (c : Thread nD τ) arg2 fullShare t ∗ (∃ d, owns (c : Thread nD τ) arg3 fullShare d)
        ∗ (iprop(owns (c : Thread nD τ) arg1 fullShare a ∗ owns (c : Thread nD τ) arg2 fullShare t ∗ owns (c : Thread nD τ) arg3 fullShare (combined1 a t)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered1 _)

/-- The pipeline's proof data on core c: its arrays as entered; after the body at point t the inputs' buffers at
    their blocks and the result's at relu of their sum; the untouched scoped buffers and generator register as the
    invariant; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => combined1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = combined1 (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the pipeline hands the body at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and what
    the core owes pass through. -/
theorem bodyAtPoint1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (bodyRuns1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact bodyAtPoint1 V c t

end Cert.KernelIdeal.Frame

end
-- ==== Proof.IdealProj2.lean ====
/-
  A projection region: a grid of 20 points over blocks of 5000 rows.  At point t the body reads block t of the
  node-feature matrix X, the two weight matrices K₁, K₂ and the bias row b (each of the three held whole, fetched
  once), and stores X_t · K₁ into block t of the first result and X_t · K₂ + b (the row added to every row) into
  block t of the second.  Stated at the contents V the region is entered with: each window's block, what the
  body leaves in the two results' buffers as functions of the blocks read, that the body runs to its end from
  whole buffers, and the proof data of the pipeline that follows from it.
-/
import proofs.«136399_j53652731461900_1_alg».proof.Proof.Gen.KernelIdeal.Launch
import proofs.«136399_j53652731461900_1_alg».proof.Proof.Gen.KernelIdeal.Skeleton
import proofs.«136399_j53652731461900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 for the
    feature matrix and the two results, the whole array for the weights and the bias. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block whenever the body runs (fetched at that point, or fetched earlier at the
    same block index), for any proof data over the arrays of V whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The buffers, each as one rectangle. -/
abbrev wholeX2 : Rect S5000x32 := Rect.unit (s := S5000x32) ![0, 0] S5000x32.size inb_S5000x32_S5000x32_0_0
abbrev wholeK2 : Rect S32x32 := Rect.unit (s := S32x32) ![0, 0] S32x32.size inb_S32x32_S32x32_0_0
abbrev wholeB2 : Rect S1x32 := Rect.unit (s := S1x32) ![0, 0] S1x32.size inb_S1x32_S1x32_0_0
abbrev wholeO2 : Rect S5000x32 := Rect.unit (s := S5000x32) ![0, 0] S5000x32.size inb_S5000x32_S5000x32_0_0

/-- What the body leaves in the first result's buffer: its one store, of X_t · K₁. -/
def projected2 (x : Vec F S5000x32 .f32) (k1 : Vec F S32x32 .f32) : Vec F S5000x32 .f32 :=
  View.canon [⟨wholeO2, k2_pay2 (View.ld x wholeX2) (View.ld k1 wholeK2)⟩]

/-- What it leaves in the second result's buffer: its one store, of X_t · K₂ + b. -/
def shifted2 (x : Vec F S5000x32 .f32) (k2 : Vec F S32x32 .f32) (b : Vec F S1x32 .f32) : Vec F S5000x32 .f32 :=
  View.canon [⟨wholeO2, k2_pay3 (View.ld x wholeX2) (View.ld k2 wholeK2) (View.ld b wholeB2)⟩]

/-- One store of the whole rectangle covers the buffer. -/
theorem covered2 (p : Vec F S5000x32 .f32) (y : S5000x32.Idx) :
    ∃ pc ∈ ([⟨wholeO2, p⟩] : List (View.Piece (Elt F) S5000x32 .f32)), y ∈ pc.1.set :=
  View.cover_of_tiled [⟨wholeO2, p⟩] S5000x32.size (by rfl) y

set_option maxHeartbeats 2000000 in
/-- From whole buffers, the four inputs' at x, k1, k2, b and the two results' at anything, the body runs to its end,
    leaving the inputs as they were and the results' buffers at X·K₁ and X·K₂ + b. -/
theorem bodyRuns2 (c : Dev nD) (E : Set ℕ) (i : grid2.Coords) (arg1 : Memref sig .tc .vmem S5000x32 .f32) (harg1 : arg1.IsWhole) (arg2 : Memref sig .tc .vmem S32x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S5000x32 .f32) (harg5 : arg5.IsWhole) (arg6 : Memref sig .tc .vmem S5000x32 .f32) (harg6 : arg6.IsWhole)
    (x : Vec F S5000x32 .f32) (k1 k2 : Vec F S32x32 .f32) (b : Vec F S1x32 .f32) (K : PUnit → sProp 𝕄) :
    iprop(owns (c : Thread nD τ) arg1 fullShare x ∗ owns (c : Thread nD τ) arg2 fullShare k1 ∗ owns (c : Thread nD τ) arg3 fullShare k2 ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare k1 ∗ owns (c : Thread nD τ) arg3 fullShare k2 ∗ owns (c : Thread nD τ) arg4 fullShare b
            ∗ owns (c : Thread nD τ) arg5 fullShare (projected2 x k1) ∗ owns (c : Thread nD τ) arg6 fullShare (shifted2 x k2 b)) -∗ K ⟨⟩))
      ⊢ wp frame (wpE (defs₀ (F := F)) Variants.none c none) E (cc2__proj_kernel i arg1 harg1 arg2 harg2 arg3 harg3 arg4 harg4 arg5 harg5 arg6 harg6) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covered2 _)
  iexists _; isplitr
  swap; · iexact H5
  ipureintro
  exact View.read_writes_eq_canon _ _ _ (covered2 _)

/-- The pipeline's proof data on core c: its arrays as entered; after the body at point t the inputs' buffers at
    their blocks and the results' at X_t·K₁ and X_t·K₂ + b; the untouched scoped buffers and generator register as
    the invariant; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => projected2 (blk2 V c 0 t) (blk2 V c 1 t)
    | ⟨5, _⟩ => shifted2 (blk2 V c 0 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = projected2 (blk2 V c 0 t) (blk2 V c 1 t) := by dsimp only [dat2]
theorem after2_5 (c : Dev nD) (t : Fin cfg2.N) : (dat2 V c).after 5 t = shifted2 (blk2 V c 0 t) (blk2 V c 2 t) (blk2 V c 3 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

/-- What the pipeline hands the body at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it takes back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the run above applies; the invariant and what
    the core owes pass through. -/
theorem bodyAtPoint2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (bodyRuns2 c Set.univ (grid2.coords t) _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation2 (c : Dev nD) : BodyObligation (dat2 (F := F) V c) (defs₀ (F := F)) Variants.none () Set.univ := fun t => by
  rw [bigSep_W2, bigSep_W2]
  exact bodyAtPoint2 V c t

end Cert.KernelIdeal.Frame

end
-- ==== Proof.IdealCombine3.lean ====
/-
  The region that combines a layer's two halves: a grid of 20 points over blocks of 5000 rows.  At point t the
  body reads block t of the aggregated matrix and block t of the second projection, and stores into block t of
  the result the entrywise maximum of their sum with zero.  Stated at the contents V the region is entered with:
  what each window's block is, what the body leaves in the result's buffer as a function of the two blocks read,
  that the body runs to its end from whole buffers, and the proof data of the pipeline that follows from it.
-/
import proofs.«136399_j53652731461900_1_alg».proof.Proof.Gen.KernelIdeal.Launch
import proofs.«136399_j53652731461900_1_alg».proof.Proof.Gen.KernelIdeal.Skeleton
import proofs.«136399_j53652731461900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t: the rows 5000·t … 5000·t + 4999 of its array, as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block whenever the body runs, for any proof data over the arrays of V whose
    body leaves that buffer alone. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The whole 5000×32 buffer as one rectangle. -/
abbrev whole3 : Rect S5000x32 := Rect.unit (s := S5000x32) ![0, 0] S5000x32.size inb_S5000x32_S5000x32_0_0

/-- What the body leaves in the result's buffer: its one store, of relu(a + t) of the two blocks read. -/
def combined3 (a t : Vec F S5000x32 .f32) : Vec F S5000x32 .f32 :=
  View.canon [⟨whole3, k3_pay1 (View.ld a whole3) (View.ld t whole3)⟩]

/-- That store covers the buffer. -/
theorem covered3 (p : Vec F S5000x32 .f32) (y : S5000x32.Idx) :
    ∃ pc ∈ ([⟨whole3, p⟩] : List (View.Piece (Elt F) S5000x32 .f32)), y ∈ pc.1.set :=
  View.cover_of_tiled [⟨whole3, p⟩] S5000x32.size (by rfl) y

set_option maxHeartbeats 1000000 in
/-- From whole buffers, the two inputs' at a and t and the result's at anything, the body runs to its end, leaving
    the inputs as they were and the result's buffer at relu(a + t). -/
theorem bodyRuns3 (c : Dev nD) (E : Set ℕ) (i : grid3.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole)
    (a t : Vec F S5000x32 .f32) (K : PUnit → sProp 𝕄) :
    iprop(owns (c : Thread nD τ) arg1 fullShare a ∗ owns (c : Thread nD τ) arg2 fullShare t ∗ (∃ d, owns (c : Thread nD τ) arg3 fullShare d)
        ∗ (iprop(owns (c : Thread nD τ) arg1 fullShare a ∗ owns (c : Thread nD τ) arg2 fullShare t ∗ owns (c : Thread nD τ) arg3 fullShare (combined3 a t)) -∗ K ⟨⟩))
      ⊢ wp frame (wpE (defs₀ (F := F)) Variants.none c none) E (cc3__combine_kernel i arg1 harg1 arg2 harg2 arg3 harg3) K := by
  simp only [cc3__combine_kernel_eq_skeleton]; unfold cc3__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-- The pipeline's proof data on core c: its arrays as entered; after the body at point t the inputs' buffers at
    their blocks and the result's at relu of their sum; the untouched scoped buffers and generator register as the
    invariant; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => combined3 (blk3 V c 0 t) (blk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = combined3 (blk3 V c 0 t) (blk3 V c 1 t) := by dsimp only [dat3]
theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d

/-- What the pipeline hands the body at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the run above applies; the invariant and what
    the core owes pass through. -/
theorem bodyAtPoint3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (bodyRuns3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact bodyAtPoint3 V c t

end Cert.KernelIdeal.Frame

end
-- ==== Proof.IdealPoolRuns.lean ====
/-
  The pooling region: a grid of 20 points over blocks of 5000 rows of the node matrix, with one 1×32 scratch row
  carried from point to point.  At the first point the body zeroes the scratch; at every point it adds the column
  sums of the point's block to the scratch; at the last point it also reads the two dense layers' weights and
  biases and stores (scratch · W₁ + b₁) · W₂ + b₂ into the 1×1 result.  So a point is in one of three cases —
  first, middle, last — told apart by two conditions on the grid coordinate.  This module decides those
  conditions over the grid, says where the result's window is idle, and runs the body once per case on whole
  buffers: the pieces the scratch (and, in the last case, the result's buffer) ends with are what each run finds.
-/
import proofs.«136399_j53652731461900_1_alg».proof.Proof.Gen.KernelIdeal.Launch
import proofs.«136399_j53652731461900_1_alg».proof.Proof.Gen.KernelIdeal.Skeleton
import proofs.«136399_j53652731461900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid coordinate is 0. -/
abbrev atFirst (i : grid4.Coords) : Prop := (Scalar.cmpi .ne (Scalar.extui (Scalar.cmpi .eq (BitVec.ofNat 32 (i 0).val) 0#32)) 0#32) = 1#1
/-- It holds at the first point only. -/
theorem atFirst_iff : ∀ t : Fin cfg4.N, atFirst (grid4.coords t) ↔ t.val % 20 = 0 :=
  (by decide +kernel : ∀ t : Fin grid4.N, atFirst (grid4.coords t) ↔ t.val % 20 = 0)

/-- The second conditional's condition: the grid coordinate is 19. -/
abbrev atLast (i : grid4.Coords) : Prop := k4_cond2 i = 1#1
/-- It holds at the last point only. -/
theorem atLast_iff : ∀ t : Fin cfg4.N, atLast (grid4.coords t) ↔ t.val % 20 = 19 :=
  (by decide +kernel : ∀ t : Fin grid4.N, atLast (grid4.coords t) ↔ t.val % 20 = 19)

/-- The five input windows are never idle. -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
/-- The result's window is idle away from the last point, and not written back there; -/
theorem idle4_5 : ∀ t : Fin cfg4.N, ¬atLast (grid4.coords t) → cfg4.idle 5 (grid4.coords t) = true := by decide +kernel
theorem noFlush4_5 : ∀ t : Fin cfg4.N, ¬atLast (grid4.coords t) → (cfg4.win 5).flush t = false := by decide +kernel
/-- at the last point it is live. -/
theorem live4_5 : ∀ t : Fin cfg4.N, atLast (grid4.coords t) → cfg4.idle 5 (grid4.coords t) = false := by decide +kernel

/-- The scratch row as a memref, and as a view. -/
abbrev scratchM : Memref sig .tc .vmem S1x32 .f32 := Memref.whole cc4_scratch0
abbrev scratchV : View sig .tc .vmem S1x32 .f32 := scratchM.view
/-- A view of the result's one staging buffer, through which its contents are stated. -/
abbrev resultV : View sig .tc .vmem S1x1 .f32 := (Memref.whole cc4_stg5_0 : Memref sig .tc .vmem S1x1 .f32).view
/-- The scoped buffers of the other regions, which this one never opens. -/
abbrev others (c : Dev nD) : sProp 𝕄 :=
  Pipeline.scopedRestBut (Ix := Unit) (Name := ℕ) (U := UR sig nD τ) (Lvl := ℕ) (Val := Elt F) spec4 c [cc4_scratch0]

/-- The invariant a region starts and ends with, with the scratch row taken out of the scoped buffers. -/
theorem startInv_eq (c : Dev nD) :
    (Pipeline.ΦA spec4 c : sProp 𝕄)
      = iprop(iprop((∃ d, owns (c : Thread nD τ) scratchM fullShare d) ∗ others c) ∗ (∃ r, prngReg c r)) := by
  unfold Pipeline.ΦA; rw [scopedRest4_split]; simp only [scratchM, owns_whole]; try rfl

set_option maxHeartbeats 2000000 in
/-- THE FIRST POINT.  From the block's buffer at x and the scratch at anything, the body runs to its end leaving
    the block's buffer as it was and the scratch with the pieces found written. -/
noncomputable def runFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i)
    (x : Vec F S5000x32 .f32) :
    { LS : List (View.Piece (Elt F) S1x32 .f32) //
      ∀ (E : Set ℕ) (K : PUnit → sProp 𝕄),
        iprop(owns (c : Thread nD τ) arg1 fullShare x ∗ (∃ d, owns (c : Thread nD τ) arg7 fullShare d)
            ∗ (iprop(owns (c : Thread nD τ) arg1 fullShare x ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, fun E K => ?run⟩
  case run =>
    simp only [cc4__pool_head_kernel_eq_skeleton]; unfold cc4__pool_head_kernel_skel
    unfold owns
    iintro ⟨⟨%f0, %hf0, H0⟩, ⟨%ds, %fs, -, HS⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact HS

set_option maxHeartbeats 2000000 in
/-- A MIDDLE POINT.  From the block's buffer at x and the scratch at s (what the point before left), the same. -/
noncomputable def runMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i)
    (x : Vec F S5000x32 .f32) (s : Vec F S1x32 .f32) :
    { LS : List (View.Piece (Elt F) S1x32 .f32) //
      ∀ (E : Set ℕ) (K : PUnit → sProp 𝕄),
        iprop(owns (c : Thread nD τ) arg1 fullShare x ∗ owns (c : Thread nD τ) arg7 fullShare s
            ∗ (iprop(owns (c : Thread nD τ) arg1 fullShare x ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, fun E K => ?run⟩
  case run =>
    simp only [cc4__pool_head_kernel_eq_skeleton]; unfold cc4__pool_head_kernel_skel
    unfold owns
    iintro ⟨⟨%f0, %hf0, H0⟩, ⟨%fs, %hfs, HS⟩, Hk⟩
    obtain rfl := harg1.eq_unread hf0; obtain rfl := harg7.eq_unread hfs
    sl_exec (disch := first | exact hc0 | exact hc1)
    sl_step
    iapply Hk
    isplitl [H0]
    · iexists _; isplitr; · ipureintro; exact harg1.read_unread _
      iexact H0
    iexists _; iexact HS

set_option maxHeartbeats 4000000 in
/-- THE LAST POINT.  From the block's buffer at x, the weights' and biases' buffers at w1, b1, w2, b2, the result's
    at anything and the scratch at s, the body runs to its end leaving the inputs as they were and the scratch and
    the result's buffer with the pieces found written. -/
noncomputable def runLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) :
    Σ' (LO : List (View.Piece (Elt F) S1x1 .f32)), { LS : List (View.Piece (Elt F) S1x32 .f32) //
      ∀ (E : Set ℕ) (K : PUnit → sProp 𝕄),
        iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg5 fullShare b2
            ∗ (∃ d, owns (c : Thread nD τ) arg6 fullShare d) ∗ owns (c : Thread nD τ) arg7 fullShare s
            ∗ (iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg5 fullShare b2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7) K } := by
  refine ⟨?_, ?_, fun E K => ?run⟩
  case run =>
    simp only [cc4__pool_head_kernel_eq_skeleton]; unfold cc4__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.KernelIdeal.Frame

end
-- ==== Proof.IdealPool4.lean ====
/-
  The pooling region, continued: what the scratch row holds after each point (the first point's run, then one
  middle run per point over what the point before left, the last point's run at point 19), what the result's
  buffer holds after the last point, the region's invariant before each point (the scratch row at what the point
  before left), the proof data of the pipeline, and the body obligation, by cases on where the point is.
-/
import proofs.«136399_j53652731461900_1_alg».proof.Proof.IdealPoolRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it: rows 5000·t … 5000·t + 4999 of the node
    matrix for window 0, the whole array for the weights, the biases and the result. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block whenever the body runs, for any proof data over the arrays of V whose
    body leaves that buffer alone. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Each window's current buffer at point t, as the pipeline passes it to the body. -/
abbrev ms4_0 (t : Fin cfg4.N) : Memref sig .tc .vmem S5000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S32x24 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x24 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S24x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1 .f32 := win4_5.stage (cfg4.slots t 5)
abbrev hs4_5 (t : Fin cfg4.N) : (ms4_5 t).IsWhole := hstage4_5 ((cfg4.slots t 5).cast nbuf4_5)

/-! ## What each case leaves -/

/-- The scratch after the first point: the run's pieces read back. -/
def accFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i) (x : Vec F S5000x32 .f32) : Vec F S1x32 .f32 :=
  scratchV.read (Elt F) (scratchV.writes (Elt F) scratchV.junk (runFirst c i arg1 harg1 arg2 harg2 arg3 harg3 arg4 harg4 arg5 harg5 arg6 harg6 arg7 harg7 hc0 hc1 x).1)
/-- Those pieces cover the scratch row. -/
theorem coverFirst (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i) (x : Vec F S5000x32 .f32) (y : S1x32.Idx) :
    ∃ pc ∈ (runFirst c i arg1 harg1 arg2 harg2 arg3 harg3 arg4 harg4 arg5 harg5 arg6 harg6 arg7 harg7 hc0 hc1 x).1, y ∈ pc.1.set :=
  View.cover_of_tiledL (runFirst c i arg1 harg1 arg2 harg2 arg3 harg3 arg4 harg4 arg5 harg5 arg6 harg6 arg7 harg7 hc0 hc1 x).1 S1x32.size (by sl_kernel_rfl) y

/-- The scratch after a middle point, from what the point before left in it. -/
def accMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i) (x : Vec F S5000x32 .f32) (s : Vec F S1x32 .f32) : Vec F S1x32 .f32 :=
  scratchV.read (Elt F) (scratchV.writes (Elt F) scratchV.junk (runMid c i arg1 harg1 arg2 harg2 arg3 harg3 arg4 harg4 arg5 harg5 arg6 harg6 arg7 harg7 hc0 hc1 x s).1)
theorem coverMid (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i) (x : Vec F S5000x32 .f32) (s : Vec F S1x32 .f32) (y : S1x32.Idx) :
    ∃ pc ∈ (runMid c i arg1 harg1 arg2 harg2 arg3 harg3 arg4 harg4 arg5 harg5 arg6 harg6 arg7 harg7 hc0 hc1 x s).1, y ∈ pc.1.set :=
  View.cover_of_tiledL (runMid c i arg1 harg1 arg2 harg2 arg3 harg3 arg4 harg4 arg5 harg5 arg6 harg6 arg7 harg7 hc0 hc1 x s).1 S1x32.size (by sl_kernel_rfl) y

/-- The scratch after the last point, -/
def accLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) : Vec F S1x32 .f32 :=
  scratchV.read (Elt F) (scratchV.writes (Elt F) scratchV.junk (runLast c i arg1 harg1 arg2 harg2 arg3 harg3 arg4 harg4 arg5 harg5 arg6 harg6 arg7 harg7 hc0 hc1 x w1 b1 w2 b2 s).2.1)
theorem coverLastS (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) (y : S1x32.Idx) :
    ∃ pc ∈ (runLast c i arg1 harg1 arg2 harg2 arg3 harg3 arg4 harg4 arg5 harg5 arg6 harg6 arg7 harg7 hc0 hc1 x w1 b1 w2 b2 s).2.1, y ∈ pc.1.set :=
  View.cover_of_tiledL (runLast c i arg1 harg1 arg2 harg2 arg3 harg3 arg4 harg4 arg5 harg5 arg6 harg6 arg7 harg7 hc0 hc1 x w1 b1 w2 b2 s).2.1 S1x32.size (by sl_kernel_rfl) y

/-- and the result's buffer after it. -/
def resLast (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) : Vec F S1x1 .f32 :=
  resultV.read (Elt F) (resultV.writes (Elt F) resultV.junk (runLast c i arg1 harg1 arg2 harg2 arg3 harg3 arg4 harg4 arg5 harg5 arg6 harg6 arg7 harg7 hc0 hc1 x w1 b1 w2 b2 s).1)
theorem coverLastO (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i)
    (x : Vec F S5000x32 .f32) (w1 : Vec F S32x24 .f32) (b1 : Vec F S1x24 .f32) (w2 : Vec F S24x1 .f32) (b2 : Vec F S1x1 .f32) (s : Vec F S1x32 .f32) (y : S1x1.Idx) :
    ∃ pc ∈ (runLast c i arg1 harg1 arg2 harg2 arg3 harg3 arg4 harg4 arg5 harg5 arg6 harg6 arg7 harg7 hc0 hc1 x w1 b1 w2 b2 s).1, y ∈ pc.1.set :=
  View.cover_of_tiledL (runLast c i arg1 harg1 arg2 harg2 arg3 harg3 arg4 harg4 arg5 harg5 arg6 harg6 arg7 harg7 hc0 hc1 x w1 b1 w2 b2 s).1 S1x1.size (by sl_kernel_rfl) y

/-! ## The scratch row, point by point -/

/-- THE ACCUMULATION: what the scratch row holds after the body at point n. -/
def accAt (c : Dev nD) : (n : ℕ) → n < cfg4.N → Vec F S1x32 .f32
  | 0, hn => accFirst c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scratchM (Memref.isWhole_whole _) ((atFirst_iff ⟨0, hn⟩).mpr (Nat.zero_mod _))
      (fun h => by have h' := (atLast_iff ⟨0, hn⟩).mp h; (try dsimp only at h'); omega) (blk4 V c 0 ⟨0, hn⟩)
  | n + 1, hn =>
    if h1 : (n + 1) % 20 = 19 then
      accLast c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) (fun h => by have h' := (atFirst_iff (⟨n + 1, hn⟩ : Fin cfg4.N)).mp h; have hN : ((⟨n + 1, hn⟩ : Fin cfg4.N)).val < 20 := lt_of_lt_of_eq ((⟨n + 1, hn⟩ : Fin cfg4.N)).isLt (show cfg4.N = 20 from N_4); (try dsimp only at h' hN); omega) ((atLast_iff ⟨n + 1, hn⟩).mpr h1)
        (blk4 V c 0 ⟨n + 1, hn⟩) (blk4 V c 1 ⟨n + 1, hn⟩) (blk4 V c 2 ⟨n + 1, hn⟩) (blk4 V c 3 ⟨n + 1, hn⟩) (blk4 V c 4 ⟨n + 1, hn⟩) (accAt c n (Nat.lt_of_succ_lt hn))
    else
      accMid c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) (fun h => by have h' := (atFirst_iff (⟨n + 1, hn⟩ : Fin cfg4.N)).mp h; have hN : ((⟨n + 1, hn⟩ : Fin cfg4.N)).val < 20 := lt_of_lt_of_eq ((⟨n + 1, hn⟩ : Fin cfg4.N)).isLt (show cfg4.N = 20 from N_4); (try dsimp only at h' hN); omega) (fun h => h1 ((atLast_iff ⟨n + 1, hn⟩).mp h))
        (blk4 V c 0 ⟨n + 1, hn⟩) (accAt c n (Nat.lt_of_succ_lt hn))

/-- What the scratch held when point t began, for a point that is not the first. -/
abbrev accBefore (c : Dev nD) (t : Fin cfg4.N) : Vec F S1x32 .f32 :=
  accAt V c (t.val - 1) (Nat.lt_of_le_of_lt (Nat.sub_le _ _) t.isLt)

theorem accAt_first (c : Dev nD) (t : Fin cfg4.N) (h0 : t.val % 20 = 0) (h1 : ¬t.val % 20 = 19) :
    accAt V c t.val t.isLt = accFirst c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) ((atFirst_iff t).mpr h0) (fun h => h1 ((atLast_iff t).mp h)) (blk4 V c 0 t) := by
  obtain ⟨n, hn⟩ := t
  cases n with
  | zero => exact rfl
  | succ n => exact (by exfalso; have hN : n + 1 < 20 := lt_of_lt_of_eq hn (show cfg4.N = 20 from N_4); (try dsimp only at h0); omega)

theorem accAt_mid (c : Dev nD) (t : Fin cfg4.N) (h0 : ¬t.val % 20 = 0) (h1 : ¬t.val % 20 = 19) :
    accAt V c t.val t.isLt = accMid c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) (fun h => h1 ((atLast_iff t).mp h)) (blk4 V c 0 t) (accBefore V c t) := by
  obtain ⟨n, hn⟩ := t
  cases n with
  | zero => exact (by exfalso; (try dsimp only at h0); exact absurd (Nat.zero_mod _) h0)
  | succ n => exact (dif_neg h1).trans rfl

theorem accAt_last (c : Dev nD) (t : Fin cfg4.N) (h0 : ¬t.val % 20 = 0) (h1 : t.val % 20 = 19) :
    accAt V c t.val t.isLt = accLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
      (blk4 V c 0 t) (blk4 V c 1 t) (blk4 V c 2 t) (blk4 V c 3 t) (blk4 V c 4 t) (accBefore V c t) := by
  obtain ⟨n, hn⟩ := t
  cases n with
  | zero => exact (by exfalso; (try dsimp only at h0); exact absurd (Nat.zero_mod _) h0)
  | succ n => exact (dif_pos h1).trans rfl

/-- What the result's buffer holds after the body at point t: at the last point the run's store; elsewhere nothing
    is stored into it and nothing reads this value (the window is idle there and not written back). -/
def resAt (c : Dev nD) (t : Fin cfg4.N) : Vec F S1x1 .f32 :=
  if h1 : t.val % 20 = 19 then
    resLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => by have h' := (atFirst_iff t).mp h; omega) ((atLast_iff t).mpr h1)
      (blk4 V c 0 t) (blk4 V c 1 t) (blk4 V c 2 t) (blk4 V c 3 t) (blk4 V c 4 t) (accBefore V c t)
  else resultV.read (Elt F) resultV.junk

theorem resAt_last (c : Dev nD) (t : Fin cfg4.N) (h0 : ¬t.val % 20 = 0) (h1 : t.val % 20 = 19) :
    resAt V c t = resLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
      (blk4 V c 0 t) (blk4 V c 1 t) (blk4 V c 2 t) (blk4 V c 3 t) (blk4 V c 4 t) (accBefore V c t) := dif_pos h1

/-! ## The invariant -/

/-- The region's invariant before point n: before the first point what every region starts with; afterwards the
    scratch row at what the point before left, the other regions' scoped buffers unopened, the generator register. -/
def PhiS (c : Dev nD) : (n : ℕ) → n ≤ cfg4.N → sProp 𝕄
  | 0, _ => Pipeline.ΦA spec4 c
  | n + 1, hn => iprop(iprop(owns (c : Thread nD τ) scratchM fullShare (accAt V c n hn) ∗ others c) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(owns (c : Thread nD τ) scratchM fullShare (accAt V c n hn) ∗ others c) ∗ (∃ r, prngReg c r)) := rfl
theorem PhiS_pos (c : Dev nD) (n : ℕ) (h : n ≤ cfg4.N) (hz : n ≠ 0) :
    PhiS V c n h = iprop(iprop(owns (c : Thread nD τ) scratchM fullShare (accAt V c (n - 1) (by omega)) ∗ others c) ∗ (∃ r, prngReg c r)) := by
  cases n with
  | zero => exact absurd rfl hz
  | succ n => rfl

/-! ## The proof data -/

/-- The pipeline's proof data on core c: its arrays as entered; after the body at point t the inputs' buffers at
    their blocks and the result's at what the last point stores; the invariant above; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => resAt V c t
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = resAt V c t := by dsimp only [dat4]
theorem before4_0 (c : Dev nD) (t : Fin cfg4.N) (d) : (dat4 V c).before 0 t d = blk4 V c 0 t :=
  before4_0_of V (dat4 V c) (A_eq4 V c 0) (after4_0 V c) t d
theorem before4_1 (c : Dev nD) (t : Fin cfg4.N) (d) : (dat4 V c).before 1 t d = blk4 V c 1 t :=
  before4_1_of V (dat4 V c) (A_eq4 V c 1) (after4_1 V c) t d
theorem before4_2 (c : Dev nD) (t : Fin cfg4.N) (d) : (dat4 V c).before 2 t d = blk4 V c 2 t :=
  before4_2_of V (dat4 V c) (A_eq4 V c 2) (after4_2 V c) t d
theorem before4_3 (c : Dev nD) (t : Fin cfg4.N) (d) : (dat4 V c).before 3 t d = blk4 V c 3 t :=
  before4_3_of V (dat4 V c) (A_eq4 V c 3) (after4_3 V c) t d
theorem before4_4 (c : Dev nD) (t : Fin cfg4.N) (d) : (dat4 V c).before 4 t d = blk4 V c 4 t :=
  before4_4_of V (dat4 V c) (A_eq4 V c 4) (after4_4 V c) t d

/-! ## The body obligation -/

/-- What the pipeline hands the body at point t, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it takes back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

theorem leaves4_0 (c : Dev nD) (t : Fin cfg4.N) : (dat4 V c).leavesExact 0 t = owns (c : Thread nD τ) (ms4_0 t) fullShare (blk4 V c 0 t) := by
  unfold Dat.leavesExact; rw [live4_0 t, after4_0]
theorem leaves4_1 (c : Dev nD) (t : Fin cfg4.N) : (dat4 V c).leavesExact 1 t = owns (c : Thread nD τ) (ms4_1 t) fullShare (blk4 V c 1 t) := by
  unfold Dat.leavesExact; rw [live4_1 t, after4_1]
theorem leaves4_2 (c : Dev nD) (t : Fin cfg4.N) : (dat4 V c).leavesExact 2 t = owns (c : Thread nD τ) (ms4_2 t) fullShare (blk4 V c 2 t) := by
  unfold Dat.leavesExact; rw [live4_2 t, after4_2]
theorem leaves4_3 (c : Dev nD) (t : Fin cfg4.N) : (dat4 V c).leavesExact 3 t = owns (c : Thread nD τ) (ms4_3 t) fullShare (blk4 V c 3 t) := by
  unfold Dat.leavesExact; rw [live4_3 t, after4_3]
theorem leaves4_4 (c : Dev nD) (t : Fin cfg4.N) : (dat4 V c).leavesExact 4 t = owns (c : Thread nD τ) (ms4_4 t) fullShare (blk4 V c 4 t) := by
  unfold Dat.leavesExact; rw [live4_4 t, after4_4]

set_option maxHeartbeats 4800000 in
/-- The body at any point.  The inputs' buffers hold their blocks; the invariant hands over the scratch row (at
    anything at the first point, at what the point before left afterwards) and takes it back at this point's
    contents; away from the last point the result's buffer goes back untouched, at the last point it is stored. -/
theorem bodyAtPoint4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS V c (t.val + 1) t.isLt from rfl, PhiS_succ]
  rw [leaves4_0, leaves4_1, leaves4_2, leaves4_3, leaves4_4]
  have hN : t.val < 20 := lt_of_lt_of_eq t.isLt (show cfg4.N = 20 from N_4)
  by_cases h0 : t.val % 20 = 0
  · have h1 : ¬t.val % 20 = 19 := by omega
    have hz : t.val = 0 := by omega
    rw [Dat.leavesExact_idle (dat4 V c) 5 t (idle4_5 t (fun h => h1 ((atLast_iff t).mp h))) (noFlush4_5 t (fun h => h1 ((atLast_iff t).mp h)))]
    rw [accAt_first V c t h0 h1]
    unfold accFirst; (try dsimp only)
    rw [PhiS_castSucc V c t, PhiS_zero V c _ _ hz, startInv_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runFirst c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) ((atFirst_iff t).mpr h0) (fun h => h1 ((atLast_iff t).mp h)) (blk4 V c 0 t)).2 Set.univ _)
    isplitl [H0]; · iexact H0
    isplitl [HS]; · iexact HS
    iintro ⟨H0, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 20 = 19
    · rw [show (dat4 V c).leavesExact 5 t = owns (c : Thread nD τ) (ms4_5 t) fullShare ((dat4 V c).after 5 t) from by
        unfold Dat.leavesExact; rw [live4_5 t ((atLast_iff t).mpr h1)], after4_5, resAt_last V c t h0 h1]
      rw [accAt_last V c t h0 h1]
      unfold accLast resLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((runLast c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr h1)
        (blk4 V c 0 t) (blk4 V c 1 t) (blk4 V c 2 t) (blk4 V c 3 t) (blk4 V c 4 t) (accBefore V c t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastS c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO c _ _ _ _ _ _ _ _ _ _ _ _ _ _ _ _ _ _ _ _ _ _ _)
    · rw [Dat.leavesExact_idle (dat4 V c) 5 t (idle4_5 t (fun h => h1 ((atLast_iff t).mp h))) (noFlush4_5 t (fun h => h1 ((atLast_iff t).mp h)))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((runMid c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) (fun h => h1 ((atLast_iff t).mp h)) (blk4 V c 0 t) (accBefore V c t)).2 Set.univ _)
      isplitl [H0]; · iexact H0
      isplitl [HS]; · iexact HS
      iintro ⟨H0, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pipeline, at every point. -/
theorem body_obligation4 (c : Dev nD) : BodyObligation (dat4 (F := F) V c) (defs₀ (F := F)) Variants.none () Set.univ := fun t => by
  rw [bigSep_W4, bigSep_W4]
  exact bodyAtPoint4 V c t

/-- What every region starts with is this region's invariant before its first point. -/
theorem startInv4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives that back: the scratch row's contents are forgotten. -/
theorem endInv4 (c : Dev nD) : (dat4 V c).Φ (Fin.last cfg4.N) ⊢ Pipeline.ΦA spec4 c := by
  rw [show (dat4 V c).Φ (Fin.last cfg4.N) = PhiS V c (Fin.last cfg4.N).val (Nat.le_of_lt_succ (Fin.last cfg4.N).isLt) from rfl,
    PhiS_pos V c _ _ (by rw [Fin.val_last]; have : cfg4.N = 20 := N_4; omega), startInv_eq]
  iintro ⟨⟨HS, Hoth⟩, Hg⟩
  isplitl [HS Hoth]
  · isplitl [HS]
    · iexists _; iexact HS
    iexact Hoth
  iexact Hg

end Cert.KernelIdeal.Frame

end
-- ==== Proof.IdealRun.lean ====
/-
  The whole run of the program: five kernel regions among stretches of host operations.  The contents of the
  unscoped buffers at each of the eleven boundaries are a fold from the launch memory: a host stretch applies its
  operations; a region puts, into the arrays its pipeline writes back, what its write-backs leave, and keeps every
  other buffer.  Each region is entered with every unscoped buffer at the boundary's contents and left with them at
  the next boundary's.  The result: every weakly fair execution terminates, nothing faulting, with every unscoped
  buffer at the last boundary's contents — in particular every argument as launched (no host operation writes one
  and no region writes one back) and the result array at what the last region's write-back leaves.
-/
import proofs.«136399_j53652731461900_1_alg».proof.Proof.IdealProj0
import proofs.«136399_j53652731461900_1_alg».proof.Proof.IdealCombine1
import proofs.«136399_j53652731461900_1_alg».proof.Proof.IdealProj2
import proofs.«136399_j53652731461900_1_alg».proof.Proof.IdealCombine3
import proofs.«136399_j53652731461900_1_alg».proof.Proof.IdealPool4
import proofs.«136399_j53652731461900_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev Bd0 : Dev nD → Valuation τ sig (Elt F) := fun c b => (s₀ m ρ).mem ((c : Dev nD), b)
/-- After host stretch 0 (region 0's entry). -/
abbrev Bd1 : Dev nD → Valuation τ sig (Elt F) := fun c => StableHlo.after hostOps0 (Bd0 m ρ c)
/-- The same read at the TensorCore's references. -/
abbrev En1 : (c : Dev nD) → (b : Ref sig .tc) → Buf (Elt F) ((c : Thread nD τ).loc b) := fun c b => Bd1 m ρ c b
/-- At region 0's exit: its arrays at what the pipeline leaves, every other buffer as entered. -/
def Bd2 (c : Dev nD) : Valuation τ sig (Elt F) :=
  Pipeline.withArrays spec0 c (Bd1 m ρ c) fun w => (dat0 (En1 m ρ) c).arrAt w cfg0.N
theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem leaves0 (c : Dev nD) (w : Fin cfg0.W) : (dat0 (En1 m ρ) c).arrAt w cfg0.N = Ex2 m ρ c (Pipeline.arrRef spec0 w) :=
  (Bd2_arr m ρ c w).symm
theorem rest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- Region 0 changes only the arrays it writes back: main_v1_0, main_v1_1. -/
theorem Bd2_keep (c : Dev nD) (r : Ref sig .tc) (h : r ∉ ([main_v1_0, main_v1_1] : List (Ref sig .tc))) :
    Bd2 m ρ c (Proc.devRef .tc r) = Bd1 m ρ c (Proc.devRef .tc r) := by
  by_cases hw : ∃ w, Pipeline.arrRef spec0 w = r
  · obtain ⟨w, rfl⟩ := hw
    fin_cases w
    · exact (Bd2_arr m ρ c 0).trans (((dat0 (En1 m ρ) c).arrAt_in 0 rfl _).trans (A_eq0 (En1 m ρ) c 0))
    · exact (Bd2_arr m ρ c 1).trans (((dat0 (En1 m ρ) c).arrAt_in 1 rfl _).trans (A_eq0 (En1 m ρ) c 1))
    · exact (Bd2_arr m ρ c 2).trans (((dat0 (En1 m ρ) c).arrAt_in 2 rfl _).trans (A_eq0 (En1 m ρ) c 2))
    · exact (Bd2_arr m ρ c 3).trans (((dat0 (En1 m ρ) c).arrAt_in 3 rfl _).trans (A_eq0 (En1 m ρ) c 3))
    · exact absurd (by decide) h
    · exact absurd (by decide) h
  · exact Bd2_of_ne m ρ c r fun w e => hw ⟨w, e⟩
/-- After host stretch 1 (region 1's entry). -/
abbrev Bd3 : Dev nD → Valuation τ sig (Elt F) := fun c => StableHlo.after hostOps1 (Bd2 m ρ c)
/-- The same read at the TensorCore's references. -/
abbrev En3 : (c : Dev nD) → (b : Ref sig .tc) → Buf (Elt F) ((c : Thread nD τ).loc b) := fun c b => Bd3 m ρ c b
/-- At region 1's exit: its arrays at what the pipeline leaves, every other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem leaves1 (c : Dev nD) (w : Fin cfg1.W) : (dat1 (En3 m ρ) c).arrAt w cfg1.N = Ex4 m ρ c (Pipeline.arrRef spec1 w) :=
  (Bd4_arr m ρ c w).symm
theorem rest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- Region 1 changes only the arrays it writes back: main_v15. -/
theorem Bd4_keep (c : Dev nD) (r : Ref sig .tc) (h : r ∉ ([main_v15] : List (Ref sig .tc))) :
    Bd4 m ρ c (Proc.devRef .tc r) = Bd3 m ρ c (Proc.devRef .tc r) := by
  by_cases hw : ∃ w, Pipeline.arrRef spec1 w = r
  · obtain ⟨w, rfl⟩ := hw
    fin_cases w
    · exact (Bd4_arr m ρ c 0).trans (((dat1 (En3 m ρ) c).arrAt_in 0 rfl _).trans (A_eq1 (En3 m ρ) c 0))
    · exact (Bd4_arr m ρ c 1).trans (((dat1 (En3 m ρ) c).arrAt_in 1 rfl _).trans (A_eq1 (En3 m ρ) c 1))
    · exact absurd (by decide) h
  · exact Bd4_of_ne m ρ c r fun w e => hw ⟨w, e⟩
/-- After host stretch 2 (region 2's entry). -/
abbrev Bd5 : Dev nD → Valuation τ sig (Elt F) := fun c => StableHlo.after hostOps2 (Bd4 m ρ c)
/-- The same read at the TensorCore's references. -/
abbrev En5 : (c : Dev nD) → (b : Ref sig .tc) → Buf (Elt F) ((c : Thread nD τ).loc b) := fun c b => Bd5 m ρ c b
/-- At region 2's exit: its arrays at what the pipeline leaves, every other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem leaves2 (c : Dev nD) (w : Fin cfg2.W) : (dat2 (En5 m ρ) c).arrAt w cfg2.N = Ex6 m ρ c (Pipeline.arrRef spec2 w) :=
  (Bd6_arr m ρ c w).symm
theorem rest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)
/-- Region 2 changes only the arrays it writes back: main_v17_0, main_v17_1. -/
theorem Bd6_keep (c : Dev nD) (r : Ref sig .tc) (h : r ∉ ([main_v17_0, main_v17_1] : List (Ref sig .tc))) :
    Bd6 m ρ c (Proc.devRef .tc r) = Bd5 m ρ c (Proc.devRef .tc r) := by
  by_cases hw : ∃ w, Pipeline.arrRef spec2 w = r
  · obtain ⟨w, rfl⟩ := hw
    fin_cases w
    · exact (Bd6_arr m ρ c 0).trans (((dat2 (En5 m ρ) c).arrAt_in 0 rfl _).trans (A_eq2 (En5 m ρ) c 0))
    · exact (Bd6_arr m ρ c 1).trans (((dat2 (En5 m ρ) c).arrAt_in 1 rfl _).trans (A_eq2 (En5 m ρ) c 1))
    · exact (Bd6_arr m ρ c 2).trans (((dat2 (En5 m ρ) c).arrAt_in 2 rfl _).trans (A_eq2 (En5 m ρ) c 2))
    · exact (Bd6_arr m ρ c 3).trans (((dat2 (En5 m ρ) c).arrAt_in 3 rfl _).trans (A_eq2 (En5 m ρ) c 3))
    · exact absurd (by decide) h
    · exact absurd (by decide) h
  · exact Bd6_of_ne m ρ c r fun w e => hw ⟨w, e⟩
/-- After host stretch 3 (region 3's entry). -/
abbrev Bd7 : Dev nD → Valuation τ sig (Elt F) := fun c => StableHlo.after hostOps3 (Bd6 m ρ c)
/-- The same read at the TensorCore's references. -/
abbrev En7 : (c : Dev nD) → (b : Ref sig .tc) → Buf (Elt F) ((c : Thread nD τ).loc b) := fun c b => Bd7 m ρ c b
/-- At region 3's exit: its arrays at what the pipeline leaves, every other buffer as entered. -/
def Bd8 (c : Dev nD) : Valuation τ sig (Elt F) :=
  Pipeline.withArrays spec3 c (Bd7 m ρ c) fun w => (dat3 (En7 m ρ) c).arrAt w cfg3.N
theorem Bd8_arr (c : Dev nD) (w : Fin cfg3.W) :
    Bd8 m ρ c (Proc.devRef .tc (Pipeline.arrRef spec3 w)) = (dat3 (En7 m ρ) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m ρ c (Proc.devRef .tc b) = Bd7 m ρ c (Proc.devRef .tc b) := by
  unfold Bd8; exact Pipeline.withArrays_of_ne spec3 c _ _ b hb
abbrev Ex8 : (c : Dev nD) → (b : Ref sig .tc) → Buf (Elt F) ((c : Thread nD τ).loc b) := fun c b => Bd8 m ρ c b
theorem leaves3 (c : Dev nD) (w : Fin cfg3.W) : (dat3 (En7 m ρ) c).arrAt w cfg3.N = Ex8 m ρ c (Pipeline.arrRef spec3 w) :=
  (Bd8_arr m ρ c w).symm
theorem rest3 (c : Dev nD) : ∀ b, b ∉ Finset.univ.image (Pipeline.arrRef spec3) → Ex8 m ρ c b = En7 m ρ c b :=
  fun b hb => Bd8_of_ne m ρ c b fun w e => hb (Finset.mem_image.mpr ⟨w, Finset.mem_univ _, e⟩)
/-- Region 3 changes only the arrays it writes back: main_v31. -/
theorem Bd8_keep (c : Dev nD) (r : Ref sig .tc) (h : r ∉ ([main_v31] : List (Ref sig .tc))) :
    Bd8 m ρ c (Proc.devRef .tc r) = Bd7 m ρ c (Proc.devRef .tc r) := by
  by_cases hw : ∃ w, Pipeline.arrRef spec3 w = r
  · obtain ⟨w, rfl⟩ := hw
    fin_cases w
    · exact (Bd8_arr m ρ c 0).trans (((dat3 (En7 m ρ) c).arrAt_in 0 rfl _).trans (A_eq3 (En7 m ρ) c 0))
    · exact (Bd8_arr m ρ c 1).trans (((dat3 (En7 m ρ) c).arrAt_in 1 rfl _).trans (A_eq3 (En7 m ρ) c 1))
    · exact absurd (by decide) h
  · exact Bd8_of_ne m ρ c r fun w e => hw ⟨w, e⟩
/-- After host stretch 4 (region 4's entry). -/
abbrev Bd9 : Dev nD → Valuation τ sig (Elt F) := fun c => StableHlo.after hostOps4 (Bd8 m ρ c)
/-- The same read at the TensorCore's references. -/
abbrev En9 : (c : Dev nD) → (b : Ref sig .tc) → Buf (Elt F) ((c : Thread nD τ).loc b) := fun c b => Bd9 m ρ c b
/-- At region 4's exit: its arrays at what the pipeline leaves, every other buffer as entered. -/
def Bd10 (c : Dev nD) : Valuation τ sig (Elt F) :=
  Pipeline.withArrays spec4 c (Bd9 m ρ c) fun w => (dat4 (En9 m ρ) c).arrAt w cfg4.N
theorem Bd10_arr (c : Dev nD) (w : Fin cfg4.W) :
    Bd10 m ρ c (Proc.devRef .tc (Pipeline.arrRef spec4 w)) = (dat4 (En9 m ρ) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m ρ c (Proc.devRef .tc b) = Bd9 m ρ c (Proc.devRef .tc b) := by
  unfold Bd10; exact Pipeline.withArrays_of_ne spec4 c _ _ b hb
abbrev Ex10 : (c : Dev nD) → (b : Ref sig .tc) → Buf (Elt F) ((c : Thread nD τ).loc b) := fun c b => Bd10 m ρ c b
theorem leaves4 (c : Dev nD) (w : Fin cfg4.W) : (dat4 (En9 m ρ) c).arrAt w cfg4.N = Ex10 m ρ c (Pipeline.arrRef spec4 w) :=
  (Bd10_arr m ρ c w).symm
theorem rest4 (c : Dev nD) : ∀ b, b ∉ Finset.univ.image (Pipeline.arrRef spec4) → Ex10 m ρ c b = En9 m ρ c b :=
  fun b hb => Bd10_of_ne m ρ c b fun w e => hb (Finset.mem_image.mpr ⟨w, Finset.mem_univ _, e⟩)
/-- Region 4 changes only the arrays it writes back: main_v34. -/
theorem Bd10_keep (c : Dev nD) (r : Ref sig .tc) (h : r ∉ ([main_v34] : List (Ref sig .tc))) :
    Bd10 m ρ c (Proc.devRef .tc r) = Bd9 m ρ c (Proc.devRef .tc r) := by
  by_cases hw : ∃ w, Pipeline.arrRef spec4 w = r
  · obtain ⟨w, rfl⟩ := hw
    fin_cases w
    · exact (Bd10_arr m ρ c 0).trans (((dat4 (En9 m ρ) c).arrAt_in 0 rfl _).trans (A_eq4 (En9 m ρ) c 0))
    · exact (Bd10_arr m ρ c 1).trans (((dat4 (En9 m ρ) c).arrAt_in 1 rfl _).trans (A_eq4 (En9 m ρ) c 1))
    · exact (Bd10_arr m ρ c 2).trans (((dat4 (En9 m ρ) c).arrAt_in 2 rfl _).trans (A_eq4 (En9 m ρ) c 2))
    · exact (Bd10_arr m ρ c 3).trans (((dat4 (En9 m ρ) c).arrAt_in 3 rfl _).trans (A_eq4 (En9 m ρ) c 3))
    · exact (Bd10_arr m ρ c 4).trans (((dat4 (En9 m ρ) c).arrAt_in 4 rfl _).trans (A_eq4 (En9 m ρ) c 4))
    · exact absurd (by decide) h
  · exact Bd10_of_ne m ρ c r fun w e => hw ⟨w, e⟩

/-! ## The arguments are never written -/

/-- The fourteen argument arrays. -/
abbrev argRefs : List (Ref sig .tc) := [main_arg0, main_arg1, main_arg2, main_arg3, main_arg4, main_arg5, main_arg6, main_arg7, main_arg8, main_arg9, main_arg10, main_arg11, main_arg12, main_arg13]

theorem kept0 (c : Dev nD) (r : Ref sig .tc) (hr : r ∈ argRefs) : Bd0 m ρ c (Proc.devRef .tc r) = m ((c : Thread nD τ).loc r) := rfl
theorem kept1 (c : Dev nD) (r : Ref sig .tc) (hr : r ∈ argRefs) : Bd1 m ρ c (Proc.devRef .tc r) = m ((c : Thread nD τ).loc r) :=
  (StableHlo.after_of_writes_sub hostOps0 _ hostOps0_writes ((by decide : ∀ r ∈ argRefs, r ∉ hostOps0_W) r hr)).trans (kept0 m ρ c r hr)
theorem kept2 (c : Dev nD) (r : Ref sig .tc) (hr : r ∈ argRefs) : Bd2 m ρ c (Proc.devRef .tc r) = m ((c : Thread nD τ).loc r) :=
  (Bd2_keep m ρ c r ((by decide : ∀ r ∈ argRefs, r ∉ ([main_v1_0, main_v1_1] : List (Ref sig .tc))) r hr)).trans (kept1 m ρ c r hr)
theorem kept3 (c : Dev nD) (r : Ref sig .tc) (hr : r ∈ argRefs) : Bd3 m ρ c (Proc.devRef .tc r) = m ((c : Thread nD τ).loc r) :=
  (StableHlo.after_of_writes_sub hostOps1 _ hostOps1_writes ((by decide : ∀ r ∈ argRefs, r ∉ hostOps1_W) r hr)).trans (kept2 m ρ c r hr)
theorem kept4 (c : Dev nD) (r : Ref sig .tc) (hr : r ∈ argRefs) : Bd4 m ρ c (Proc.devRef .tc r) = m ((c : Thread nD τ).loc r) :=
  (Bd4_keep m ρ c r ((by decide : ∀ r ∈ argRefs, r ∉ ([main_v15] : List (Ref sig .tc))) r hr)).trans (kept3 m ρ c r hr)
theorem kept5 (c : Dev nD) (r : Ref sig .tc) (hr : r ∈ argRefs) : Bd5 m ρ c (Proc.devRef .tc r) = m ((c : Thread nD τ).loc r) :=
  (StableHlo.after_of_writes_sub hostOps2 _ hostOps2_writes ((by decide : ∀ r ∈ argRefs, r ∉ hostOps2_W) r hr)).trans (kept4 m ρ c r hr)
theorem kept6 (c : Dev nD) (r : Ref sig .tc) (hr : r ∈ argRefs) : Bd6 m ρ c (Proc.devRef .tc r) = m ((c : Thread nD τ).loc r) :=
  (Bd6_keep m ρ c r ((by decide : ∀ r ∈ argRefs, r ∉ ([main_v17_0, main_v17_1] : List (Ref sig .tc))) r hr)).trans (kept5 m ρ c r hr)
theorem kept7 (c : Dev nD) (r : Ref sig .tc) (hr : r ∈ argRefs) : Bd7 m ρ c (Proc.devRef .tc r) = m ((c : Thread nD τ).loc r) :=
  (StableHlo.after_of_writes_sub hostOps3 _ hostOps3_writes ((by decide : ∀ r ∈ argRefs, r ∉ hostOps3_W) r hr)).trans (kept6 m ρ c r hr)
theorem kept8 (c : Dev nD) (r : Ref sig .tc) (hr : r ∈ argRefs) : Bd8 m ρ c (Proc.devRef .tc r) = m ((c : Thread nD τ).loc r) :=
  (Bd8_keep m ρ c r ((by decide : ∀ r ∈ argRefs, r ∉ ([main_v31] : List (Ref sig .tc))) r hr)).trans (kept7 m ρ c r hr)
theorem kept9 (c : Dev nD) (r : Ref sig .tc) (hr : r ∈ argRefs) : Bd9 m ρ c (Proc.devRef .tc r) = m ((c : Thread nD τ).loc r) :=
  (StableHlo.after_of_writes_sub hostOps4 _ hostOps4_writes ((by decide : ∀ r ∈ argRefs, r ∉ hostOps4_W) r hr)).trans (kept8 m ρ c r hr)
theorem kept10 (c : Dev nD) (r : Ref sig .tc) (hr : r ∈ argRefs) : Bd10 m ρ c (Proc.devRef .tc r) = m ((c : Thread nD τ).loc r) :=
  (Bd10_keep m ρ c r ((by decide : ∀ r ∈ argRefs, r ∉ ([main_v34] : List (Ref sig .tc))) r hr)).trans (kept9 m ρ c r hr)

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
  | ⟨4, _⟩ => fun c => dat4 (En9 m ρ) c
abbrev noVariants : Variants := Variants.none
/-- No core owes another anything. -/
abbrev noDues : GSem nD τ sig → Finset Unit := fun _ => ∅
abbrev noLevels : GSem nD τ sig → Unit → ℕ := fun _ _ => 0
/-- Beside the buffers through every segment: the core's generator register at some state and its dues, at nothing. -/
abbrev riding (c : Dev nD) : sProp 𝕄 := iprop((∃ r, prngReg c r) ∗ ∃ W, owes (c : Thread nD τ) (0 : CellTallies nD τ sig Unit) W)
/-- A host stretch as a segment from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev lastState (c : Dev nD) : sProp 𝕄 := iprop(StableHlo.held (c : Thread nD τ) (Pipeline.ucRefs τ sig) (Bd10 m ρ c) ∗ ∃ r, prngReg c r)

/-! ## The regions as segments -/

set_option backward.isDefEq.respectTransparency.types false in
/-- Region 0 over the thread state: entered from every unscoped buffer at boundary 1's contents, left at boundary
    2's.  Its arrays are split out of the unscoped buffers and put back at the exit contents; the generator register
    goes into the region's invariant and comes out; nothing is owed; the kernel has no semaphore of its own. -/
def reg0 : Pipeline.RegionSeg (pcfgs (F := F)) adm (pdats m ρ) () defs₀ noVariants noDues noLevels 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ noDues noLevels 0 fun _ _ => rfl
  pre c := iprop(StableHlo.held (c : Thread nD τ) (Pipeline.ucRefs τ sig) (Bd1 m ρ c) ∗ riding c)
  post c := iprop(StableHlo.held (c : Thread nD τ) (Pipeline.ucRefs τ sig) (Bd2 m ρ c) ∗ riding c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (leaves0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary
    4's.  Its arrays are split out of the unscoped buffers and put back at the exit contents; the generator register
    goes into the region's invariant and comes out; nothing is owed; the kernel has no semaphore of its own. -/
def reg1 : Pipeline.RegionSeg (pcfgs (F := F)) adm (pdats m ρ) () defs₀ noVariants noDues noLevels 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ noDues noLevels 1 fun _ _ => rfl
  pre c := iprop(StableHlo.held (c : Thread nD τ) (Pipeline.ucRefs τ sig) (Bd3 m ρ c) ∗ riding c)
  post c := iprop(StableHlo.held (c : Thread nD τ) (Pipeline.ucRefs τ sig) (Bd4 m ρ c) ∗ riding c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (leaves1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary
    6's.  Its arrays are split out of the unscoped buffers and put back at the exit contents; the generator register
    goes into the region's invariant and comes out; nothing is owed; the kernel has no semaphore of its own. -/
def reg2 : Pipeline.RegionSeg (pcfgs (F := F)) adm (pdats m ρ) () defs₀ noVariants noDues noLevels 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ noDues noLevels 2 fun _ _ => rfl
  pre c := iprop(StableHlo.held (c : Thread nD τ) (Pipeline.ucRefs τ sig) (Bd5 m ρ c) ∗ riding c)
  post c := iprop(StableHlo.held (c : Thread nD τ) (Pipeline.ucRefs τ sig) (Bd6 m ρ c) ∗ riding c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (leaves2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary
    8's.  Its arrays are split out of the unscoped buffers and put back at the exit contents; the generator register
    goes into the region's invariant and comes out; nothing is owed; the kernel has no semaphore of its own. -/
def reg3 : Pipeline.RegionSeg (pcfgs (F := F)) adm (pdats m ρ) () defs₀ noVariants noDues noLevels 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ noDues noLevels 3 fun _ _ => rfl
  pre c := iprop(StableHlo.held (c : Thread nD τ) (Pipeline.ucRefs τ sig) (Bd7 m ρ c) ∗ riding c)
  post c := iprop(StableHlo.held (c : Thread nD τ) (Pipeline.ucRefs τ sig) (Bd8 m ρ c) ∗ riding c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (leaves3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary
    10's.  Its arrays are split out of the unscoped buffers and put back at the exit contents; the generator register
    goes into the region's invariant and comes out; nothing is owed; the kernel has no semaphore of its own. -/
def reg4 : Pipeline.RegionSeg (pcfgs (F := F)) adm (pdats m ρ) () defs₀ noVariants noDues noLevels 4 where
  win := launch4.win.to₀
  block_pos := launch4.block_pos
  stage_whole := launch4.stage_whole
  K := PEmpty
  osem k := k.elim
  ho := Pipeline.OwnSemFacts.none _
  hbody c := (body_obligation4 (En9 m ρ) c).loose
  hwaits := Pipeline.hwaits_of_owed_zero _ _ _ _ noDues noLevels 4 fun _ _ => rfl
  pre c := iprop(StableHlo.held (c : Thread nD τ) (Pipeline.ucRefs τ sig) (Bd9 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (En9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    have hback : (Pipeline.ΦA spec4 c : sProp 𝕄)
        ⊢ iprop((∃ r, prngReg c r) ∗ BI.emp ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (show (pdats m ρ 4 c).Φ (Fin.last _) ⊢ Pipeline.ΦA spec4 c from endInv4 (En9 m ρ) c).trans hback
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (En9 m ρ c) (Ex10 m ρ c) ((pdats m ρ 4 c).arrAt · cfg4.N) (leaves4 m ρ c) (rest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's ten segments in order. -/
abbrev allSegs : List (Pipeline.Seg (pcfgs (F := F)) adm (pdats m ρ) () defs₀ noVariants noDues noLevels) :=
  [ .host (hostSeg hostOps0 hostOps0_sub hostOps0_fresh (Bd0 m ρ)),
    .region (reg0 m ρ),
    .host (hostSeg hostOps1 hostOps1_sub hostOps1_fresh (Bd2 m ρ)),
    .region (reg1 m ρ),
    .host (hostSeg hostOps2 hostOps2_sub hostOps2_fresh (Bd4 m ρ)),
    .region (reg2 m ρ),
    .host (hostSeg hostOps3 hostOps3_sub hostOps3_fresh (Bd6 m ρ)),
    .region (reg3 m ρ),
    .host (hostSeg hostOps4 hostOps4_sub hostOps4_fresh (Bd8 m ρ)),
    .region (reg4 m ρ) ]

/-- The program is the run of its segments. -/
theorem main_run (c : Dev nD) : main (F := F) c = Pipeline.Seg.run (allSegs m ρ) := (main_chain c).trans (by chain_rfl)

set_option backward.isDefEq.respectTransparency.types false in
/-- THE RUN.  From any memory with zero counters every weakly fair execution of the program on the TensorCores
    terminates, nothing faulting, and in every final memory each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd10 m ρ c b) :=
  Pipeline.θ_run_regions_kit (pcfgs (F := F)) adm (pdats m ρ) () cellOf_inj emb₁ defs₀ noVariants noDues noLevels m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noDues noLevels fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd10 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd10 m ρ c) s')
      isplitl [Hh] <;> iassumption)
    (hQ := fun s h c => h c)

/-- An argument array ends as launched. -/
theorem arg_kept (c : Dev nD) (r : Ref sig .tc) (hr : r ∈ argRefs) (hu : ¬ (Proc.devRef .tc r : DevRef τ sig).isScoped)
    (s : MemSt nD τ sig (Elt F)) (h : ∀ b ∈ Pipeline.ucRefs τ sig, s.mem (((c : Thread nD τ)).1, b) = Bd10 m ρ c b) :
    s.mem ((c.tc : Thread nD τ).loc r) = m ((c.tc : Thread nD τ).loc r) :=
  (h _ (mem_uc r hu)).trans (kept10 m ρ c r hr)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨arg_kept m ρ c main_arg0 (by decide) (by decide) r.2 (h c),
    arg_kept m ρ c main_arg1 (by decide) (by decide) r.2 (h c),
    arg_kept m ρ c main_arg2 (by decide) (by decide) r.2 (h c),
    arg_kept m ρ c main_arg3 (by decide) (by decide) r.2 (h c),
    arg_kept m ρ c main_arg4 (by decide) (by decide) r.2 (h c),
    arg_kept m ρ c main_arg5 (by decide) (by decide) r.2 (h c),
    arg_kept m ρ c main_arg6 (by decide) (by decide) r.2 (h c),
    arg_kept m ρ c main_arg7 (by decide) (by decide) r.2 (h c),
    arg_kept m ρ c main_arg8 (by decide) (by decide) r.2 (h c),
    arg_kept m ρ c main_arg9 (by decide) (by decide) r.2 (h c),
    arg_kept m ρ c main_arg10 (by decide) (by decide) r.2 (h c),
    arg_kept m ρ c main_arg11 (by decide) (by decide) r.2 (h c),
    arg_kept m ρ c main_arg12 (by decide) (by decide) r.2 (h c),
    arg_kept m ρ c main_arg13 (by decide) (by decide) r.2 (h c)⟩) (run_all m ρ)

end Cert.KernelIdeal.Frame

end
-- ==== Proof.IdealHost.lean ====
/-
  What the host operations between the kernel regions compute, each stretch read at the one buffer the next
  region needs: a bias vector laid out as a one-row matrix (a reshape), and the sparse neighbourhood step — the
  edge sources made non-negative, the rows they name gathered, each scaled by its edge weight and added into the
  rows the edge targets name — as ONE function of the matrix it acts on, the same in both layers.
-/
import proofs.«136399_j53652731461900_1_alg».proof.Proof.Gen.KernelIdeal.Launch
import Idealize.ShloMosaic.Lib.StableHlo.Run

noncomputable section

namespace Cert.KernelIdeal.HostVal

open Cert.KernelIdeal Cert.KernelIdeal.Gen
open Idealize.ShloMosaic Idealize.ShloMosaic.TcCoe Idealize.ShloMosaic.StableHlo

variable {F : FTy → Type} [FloatOps F]

/-- The sparse step on a 100000×32 matrix h: gather the rows named by the edge sources (a negative source counted
    from the end), scale each by its edge weight, add them into the rows of the zero matrix named by the edge targets. -/
def sparseK (src dst : (⟨S3200000, .i32⟩ : BufTy).Contents (Elt F)) (w : (⟨S3200000, .f32⟩ : BufTy).Contents (Elt F))
    (h : (⟨S100000x32, .f32⟩ : BufTy).Contents (Elt F)) : (⟨S100000x32, .f32⟩ : BufTy).Contents (Elt F) :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 dst)
    (mulf
      (Host.gather gather_S100000x32_S3200000x1_S3200000x32_1_0_n_n_0_1_132 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x32 ![0, 1] bcast_S3200000x1_S3200000x32_0_1
        (broadcastInDim S3200000x1 ![0] bcast_S3200000_S3200000x1_0 w)))

/-- Before the first projection: the first layer's bias as a one-row matrix. -/
theorem bias_a (V : Valuation τ sig (Elt F)) :
    after hostOps0 V (main_v0 : DevRef τ sig) = shapeCast S1x32 (V (main_arg6 : DevRef τ sig)) shapeCasts_S32_S1x32 := by
  after_results
  rfl

set_option maxHeartbeats 1000000 in
/-- Between the first projection and the first combine: the sparse step applied to the first projection. -/
theorem agg_a (V : Valuation τ sig (Elt F)) :
    after hostOps1 V (main_v14 : DevRef τ sig)
      = sparseK (V (main_arg1 : DevRef τ sig)) (V (main_arg2 : DevRef τ sig)) (V (main_arg3 : DevRef τ sig)) (V (main_v1_0 : DevRef τ sig)) := by
  after_results
  rfl

/-- Before the second projection: the second layer's bias as a one-row matrix. -/
theorem bias_b (V : Valuation τ sig (Elt F)) :
    after hostOps2 V (main_v16 : DevRef τ sig) = shapeCast S1x32 (V (main_arg9 : DevRef τ sig)) shapeCasts_S32_S1x32 := by
  after_results
  rfl

set_option maxHeartbeats 1000000 in
/-- Between the second projection and the second combine: the same sparse step applied to the second projection. -/
theorem agg_b (V : Valuation τ sig (Elt F)) :
    after hostOps3 V (main_v30 : DevRef τ sig)
      = sparseK (V (main_arg1 : DevRef τ sig)) (V (main_arg2 : DevRef τ sig)) (V (main_arg3 : DevRef τ sig)) (V (main_v17_0 : DevRef τ sig)) := by
  after_results
  rfl

/-- Before the pooling region: the two dense layers' biases as one-row matrices. -/
theorem bias_d1 (V : Valuation τ sig (Elt F)) :
    after hostOps4 V (main_v32 : DevRef τ sig) = shapeCast S1x24 (V (main_arg11 : DevRef τ sig)) shapeCasts_S24_S1x24 := by
  after_results
  rfl
theorem bias_d2 (V : Valuation τ sig (Elt F)) :
    after hostOps4 V (main_v33 : DevRef τ sig) = shapeCast S1x1 (V (main_arg13 : DevRef τ sig)) shapeCasts_S1_S1x1 := by
  after_results
  rfl

end Cert.KernelIdeal.HostVal

end
-- ==== Proof.Spec.lean ====
/-
  The function both programs compute, stated once over literal shapes and explicit coordinates.

  A graph-convolution layer maps a node-feature matrix X (n rows) to
      relu( S (X · K₁) + X · K₂ + b )
  where S is the sparse neighbourhood step (gather the rows named by the edge sources, scale each by its edge
  weight, add them into the rows named by the edge targets).  S enters only as a function from matrices to
  matrices: nothing here looks inside it.  Two such layers are followed by the column sums of the result (the
  sum over all nodes), and two affine maps applied to that one row.
  All sums are over the extended reals, where addition is associative and commutative, so the order in which a
  finite sum is taken does not matter.
-/
import Idealize.ShloMosaic.Lib.ValueIdx
import Idealize.ShloMosaic.PureOps.Ideal

noncomputable section

open scoped BigOperators

namespace Cert.Spec

open Idealize.ShloMosaic Idealize.ShloMosaic.ValueIdx

/-- An m×n matrix of extended reals. -/
abbrev Mat (m n : Nat) : Type := FVec Ideal ⟨2, ![m, n]⟩ .f32
/-- A vector of n extended reals. -/
abbrev Row (n : Nat) : Type := FVec Ideal ⟨1, ![n]⟩ .f32

/-- A matrix given by its entries. -/
def ofEntries {m n : Nat} (f : Fin m → Fin n → EReal) : Mat m n := fun i => f (i 0) (i 1)

theorem ofEntries_apply {m n : Nat} (f : Fin m → Fin n → EReal) (a : Fin m) (b : Fin n) :
    ofEntries f (ix2 a b) = f a b := rfl

/-- Two matrices with the same entries are equal. -/
theorem ext_entries {m n : Nat} {A B : Mat m n} (h : ∀ (a : Fin m) (b : Fin n), A (ix2 a b) = B (ix2 a b)) : A = B := by
  funext i; rw [eq_ix2 i]; exact h _ _

/-- The matrix product: entry (a, b) is the sum over c of A(a, c) · B(c, b). -/
def mm {m k n : Nat} (A : Mat m k) (B : Mat k n) : Mat m n :=
  ofEntries fun a b => ∑ c : Fin k, A (ix2 a c) * B (ix2 c b)

/-- One layer: relu((S(X·K₁) + X·K₂) + b), entry by entry; relu is the maximum with the zero word's value. -/
def layer {n k : Nat} (S : Mat n 32 → Mat n 32) (X : Mat n k) (K1 K2 : Mat k 32) (b : Row 32) : Mat n 32 :=
  ofEntries fun a j => max ((S (mm X K1) (ix2 a j) + mm X K2 (ix2 a j)) + b (ix1 j)) (Ideal.ofBits .f32 0x00000000#32)

/-- The column sums of a matrix as a one-row matrix, taken from the zero word's value. -/
def pool {n : Nat} (X : Mat n 32) : Mat 1 32 :=
  ofEntries fun _ j => Ideal.ofBits .f32 0x00000000#32 + ∑ r : Fin n, X (ix2 r j)

/-- An affine map of a one-row matrix: P·W + b. -/
def affine {k n : Nat} (P : Mat 1 k) (W : Mat k n) (b : Row n) : Mat 1 n :=
  ofEntries fun u j => mm P W (ix2 u j) + b (ix1 j)

/-- The whole function: two layers, the sum over the nodes, two affine maps. -/
def out (S : Mat 100000 32 → Mat 100000 32) (X : Mat 100000 128) (K1a K2a : Mat 128 32) (ba : Row 32)
    (K1b K2b : Mat 32 32) (bb : Row 32) (Wd1 : Mat 32 24) (bd1 : Row 24) (Wd2 : Mat 24 1) (bd2 : Row 1) : Mat 1 1 :=
  affine (affine (pool (layer S (layer S X K1a K2a ba) K1b K2b bb)) Wd1 bd1) Wd2 bd2

end Cert.Spec

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.LibPlainOps.lean ====
import Idealize.ShloMosaic.Lib.KernelVsHost
import Idealize.ShloMosaic.Lib.StackMember
import Idealize.ShloMosaic.Lib.ValueLayout

/-!
# Matrix operations read at an index, at the ideal values

General readings, at the extended reals, of the operations a dense layer and a column statistic are made of, each at an
index written with literal coordinates (`ix1`, `ix2`): a matrix product of plain dimension numbers ([m,k] by [k,n],
contracting the left operand's axis 1 with the right operand's axis 0), the kernel's into a zero accumulator and the
host's, as the sum over the contracted coordinate; a sum over axis 0 of a matrix, the kernel's and the host's, as the
sum down the column; the host's broadcasts of a scalar to any shape and of a vector to a one-row matrix; and the words
the host's guarded quotient compares (the integer zero converted, a positive literal minus it).
-/

noncomputable section

namespace Cert.KernelIdeal.HeadValue.PlainOps

open Idealize.ShloMosaic Idealize.ShloMosaic.ValueIdx
open scoped BigOperators

variable {m k n : Nat} {φ φ₁ φ₂ : FTy}

/-- A record of plain dimension numbers is the library's, whatever its well-formedness proof. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The host's product of an m×k by a k×n matrix at (a, b): the sum over the contracted coordinate. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product into a zero accumulator at (a, b): the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  rw [matmul_zero_eq_dotGeneral]
  exact dotGeneral_apply D hD prec A B a b

/-- The source index of a column sum: row `r` of column `j`. -/
theorem lift_col (h : (⟨2, ![m, n]⟩ : Shape).Reduces [0] ⟨1, ![n]⟩) (j : Fin n) (r : Fin m) :
    h.lift (ix1 j) r = ix2 r j := by
  funext c
  apply Fin.ext
  match c with
  | ⟨0, _⟩ => rfl
  | ⟨1, _⟩ => rfl

/-- The kernel's sum over axis 0 of an m×n matrix at column `j`: the sum down the column. The accumulator
    hypothesis is the equation of the two zero words. -/
theorem multiReduction_add_col (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ r : Fin m, src (ix2 r j) := by
  refine (Ideal.multiReduction_add_single src 0x00000000#32 h hφ hacc (ix1 j)).trans ?_
  show ∑ r : Fin m, src (h.lift (ix1 j) r) = _
  exact Finset.sum_congr rfl fun r _ => congrArg src (lift_col h j r)

/-- The host's sum over axis 0 of an m×n matrix at column `j`: the initial value plus the sum down the column. -/
theorem hostReduceAdd_col {u : Shape} (x : FVec Ideal ⟨2, ![m, n]⟩ φ) (init : u.Idx → Ideal φ)
    (h' : (⟨2, ![m, n]⟩ : Shape).ReducesTo [0] ⟨1, ![n]⟩) (hu : 0 < u.numel)
    (h : (⟨2, ![m, n]⟩ : Shape).Reduces [0] ⟨1, ![n]⟩) (j : Fin n) :
    Host.reduceAdd x init h' hu (ix1 j) = init (Shape.Idx.first hu) + ∑ r : Fin m, x (ix2 r j) := by
  show Ideal.hostReduceAdd h' x _ (ix1 j) = _
  rw [Ideal.hostReduceAdd_single h' h]
  show _ + ∑ r : Fin m, x (h.lift (ix1 j) r) = _
  exact congrArg (_ + ·) (Finset.sum_congr rfl fun r _ => congrArg x (lift_col h j r))

section Broadcasts
variable {α : Type}

/-- A scalar broadcast to any shape reads the scalar everywhere. -/
theorem broadcastInDim_scalar_apply {t : Shape} (h : (⟨0, ![]⟩ : Shape).BroadcastsInDim t ![])
    (x : (⟨0, ![]⟩ : Shape).Idx → α) (j : t.Idx) : broadcastInDim t ![] h x j = x ix0 :=
  broadcastInDim_apply ![] h x j ix0 fun a => a.elim0

/-- A vector laid as the one row of a matrix (the host's broadcast along axis 1) reads, at (u, j), the vector at j. -/
theorem broadcastInDim_asRow_apply (h : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] h x (ix2 u j) = x (ix1 j) := by
  refine broadcastInDim_apply ![1] h x (ix2 u j) (ix1 j) fun a => ?_
  match a with
  | ⟨0, _⟩ =>
    show j.val = if n = 1 then 0 else j.val
    split
    · have := j.isLt; omega
    · rfl

end Broadcasts

/-- A literal minus the integer zero converted is the literal. -/
theorem sub_sitofp_zero (x : EReal) : x - (Scalar.sitofp .f32 0#32 : Ideal .f32) = x := by
  rw [sitofp_zero]; exact sub_zero x

/-- The f32 word `0x42800000` denotes 64. -/
theorem ofBits_64 : Ideal.ofBits .f32 0x42800000#32 = ((64 : ℝ) : EReal) := by
  simp [Ideal.ofBits, Ideal.ieee]
  rw [← EReal.coe_mul]
  norm_num

/-- So it is above zero. -/
theorem ofBits_64_pos : (0 : EReal) < Ideal.ofBits .f32 0x42800000#32 := by
  rw [ofBits_64]; exact_mod_cast (by norm_num : (0 : ℝ) < 64)

end Cert.KernelIdeal.HeadValue.PlainOps

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibSameShapeCast.lean ====
/-
  Operands that pass through a cast to their own shape. General in the extents.

  A `vector.shape_cast` to the same shape is the identity, so
  * a plain matrix product `[m, k] × [k, n]` into the zero accumulator whose right operand is such a cast is, at entry
    `(a, b)`, `Σ_c A(a, c) · B(c, b)` of the operand under the cast;
  * a one-row matrix `[1, n]` under such a cast, broadcast down `m` rows, is at entry `(p, k)` the row's entry `(0, k)`.
-/
import proofs.«136399_j53652731461900_1_alg».proof.Proof.LibPlainProduct
import proofs.«136399_j53652731461900_1_alg».proof.Proof.LibBroadcastTo
import Idealize.ShloMosaic.Lib.Pipeline.Value

noncomputable section

open scoped BigOperators

namespace Cert.SameShapeCast

open Idealize.ShloMosaic Idealize.ShloMosaic.ValueIdx

variable {m k n : Nat} {φ₁ φ₂ : FTy}

/-- A product into zero whose right operand is cast to its own shape, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (hc : (⟨2, ![k, n]⟩ : Shape).ShapeCasts ⟨2, ![k, n]⟩) (a : Fin m) (b : Fin n) :
    matmul (PlainProduct.rec2 w) prec A (shapeCast ⟨2, ![k, n]⟩ B hc) (constant (F := Ideal) ⟨2, ![m, n]⟩ .f32 0x00000000#32) (ix2 a b)
      = ∑ c : Fin k, A (ix2 a c) * B (ix2 c b) := by
  rw [shapeCast_self]
  exact PlainProduct.matmul_zero_apply w prec A B a b

/-- A one-row matrix cast to its own shape and broadcast down the rows keeps the column coordinate. -/
theorem row_apply {α : Type} (x : (⟨2, ![1, n]⟩ : Shape).Idx → α) (hc : (⟨2, ![1, n]⟩ : Shape).ShapeCasts ⟨2, ![1, n]⟩)
    (h : (⟨2, ![1, n]⟩ : Shape).Broadcasts ⟨2, ![m, n]⟩) (p : Fin m) (j : Fin n) :
    broadcastTo ⟨2, ![m, n]⟩ (shapeCast ⟨2, ![1, n]⟩ x hc) h (ix2 p j) = x (ix2 0 j) := by
  rw [shapeCast_self]
  exact BroadcastTo.row_apply x h p j

end Cert.SameShapeCast

end
-- ==== Proof.Payloads.lean ====
/-
  The arithmetic of each kernel body, read entry by entry over the extended reals.

  A change of float format is the identity there, a matrix product into the zero accumulator is the sum over the
  contracted coordinate, a cast of a matrix to its own shape is the identity, a one-row matrix broadcast down the
  rows keeps the column coordinate, and a sum over axis 0 is the sum down the column.  So the projection bodies
  compute X·K and X·K + b, the combine bodies max(a + t, 0), and the last body the running column sums followed by
  two affine maps of the one pooled row.
-/
import proofs.«136399_j53652731461900_1_alg».proof.Proof.Gen.KernelIdeal.Skeleton
import proofs.«136399_j53652731461900_1_alg».proof.Proof.Spec
import proofs.«136399_j53652731461900_1_alg».proof.Proof.LibPlainProduct
import proofs.«136399_j53652731461900_1_alg».proof.Proof.LibPlainOps
import proofs.«136399_j53652731461900_1_alg».proof.Proof.LibBroadcastTo
import proofs.«136399_j53652731461900_1_alg».proof.Proof.LibSameShapeCast

noncomputable section

open scoped BigOperators

namespace Cert.KernelIdeal.Payloads

open Idealize.ShloMosaic Idealize.ShloMosaic.ValueIdx Cert.KernelIdeal Cert.KernelIdeal.Gen

/-! ## The projection bodies: X·K and X·K + b -/

/-- The first projection's product at entry (p, q). -/
theorem k0_pay2_apply (x : Vec Ideal S5000x128 .f32) (K : Vec Ideal S128x32 .f32) (p : Fin 5000) (q : Fin 32) :
    Gen.k0_pay2 x K (ix2 p q) = ∑ c : Fin 128, x (ix2 p c) * K (ix2 c q) := by
  unfold Gen.k0_pay2 Gen.k0_pay1
  exact PlainProduct.matmul_zero_apply dot_S5000x128_S128x32_S5000x32_1_0_0_1_n_n.wf none
    (truncf .bf16 x bitsLt_bf16_f32) (truncf .bf16 K bitsLt_bf16_f32) p q

/-- The first projection's product plus the bias row at entry (p, q). -/
theorem k0_pay3_apply (x : Vec Ideal S5000x128 .f32) (K : Vec Ideal S128x32 .f32) (b : Vec Ideal S1x32 .f32)
    (p : Fin 5000) (q : Fin 32) :
    Gen.k0_pay3 x K b (ix2 p q) = (∑ c : Fin 128, x (ix2 p c) * K (ix2 c q)) + b (ix2 0 q) := by
  unfold Gen.k0_pay3 Gen.k0_pay1
  exact congrArg₂ (· + ·)
    (PlainProduct.matmul_zero_apply dot_S5000x128_S128x32_S5000x32_1_0_0_1_n_n.wf none
      (truncf .bf16 x bitsLt_bf16_f32) (truncf .bf16 K bitsLt_bf16_f32) p q)
    (SameShapeCast.row_apply b shapeCasts_S1x32_S1x32 broadcasts_S1x32_S5000x32 p q)

/-- The second projection's product at entry (p, q). -/
theorem k2_pay2_apply (x : Vec Ideal S5000x32 .f32) (K : Vec Ideal S32x32 .f32) (p : Fin 5000) (q : Fin 32) :
    Gen.k2_pay2 x K (ix2 p q) = ∑ c : Fin 32, x (ix2 p c) * K (ix2 c q) := by
  unfold Gen.k2_pay2 Gen.k2_pay1
  rw [shapeCast_self]
  exact PlainProduct.matmul_zero_apply dot_S5000x32_S32x32_S5000x32_1_0_0_1_n_n.wf none
    (truncf .bf16 x bitsLt_bf16_f32) (truncf .bf16 K bitsLt_bf16_f32) p q

/-- The second projection's product plus the bias row at entry (p, q). -/
theorem k2_pay3_apply (x : Vec Ideal S5000x32 .f32) (K : Vec Ideal S32x32 .f32) (b : Vec Ideal S1x32 .f32)
    (p : Fin 5000) (q : Fin 32) :
    Gen.k2_pay3 x K b (ix2 p q) = (∑ c : Fin 32, x (ix2 p c) * K (ix2 c q)) + b (ix2 0 q) := by
  unfold Gen.k2_pay3 Gen.k2_pay1
  rw [shapeCast_self x]
  exact congrArg₂ (· + ·)
    (PlainProduct.matmul_zero_apply dot_S5000x32_S32x32_S5000x32_1_0_0_1_n_n.wf none
      (truncf .bf16 x bitsLt_bf16_f32) (truncf .bf16 K bitsLt_bf16_f32) p q)
    (SameShapeCast.row_apply b shapeCasts_S1x32_S1x32 broadcasts_S1x32_S5000x32 p q)

/-! ## The combine bodies: max(a + t, 0) -/

/-- The first combine at entry (p, q). -/
theorem k1_pay1_apply (a t : Vec Ideal S5000x32 .f32) (p : Fin 5000) (q : Fin 32) :
    Gen.k1_pay1 a t (ix2 p q) = max (a (ix2 p q) + t (ix2 p q)) (Ideal.ofBits .f32 0x00000000#32) := by
  unfold Gen.k1_pay1
  rw [shapeCast_self a, shapeCast_self t]
  rfl

/-- The second combine at entry (p, q). -/
theorem k3_pay1_apply (a t : Vec Ideal S5000x32 .f32) (p : Fin 5000) (q : Fin 32) :
    Gen.k3_pay1 a t (ix2 p q) = max (a (ix2 p q) + t (ix2 p q)) (Ideal.ofBits .f32 0x00000000#32) := by
  unfold Gen.k3_pay1
  rw [shapeCast_self a, shapeCast_self t]
  rfl

/-! ## The pooling body: the running column sums, then the two affine maps -/

/-- The accumulator's first contents: the zero word's value in every column. -/
theorem k4_pay1_apply (q : Fin 32) : Gen.k4_pay1 (F := Ideal) (ix2 0 q) = Ideal.ofBits .f32 0x00000000#32 := by
  unfold Gen.k4_pay1
  rw [shapeCast_self]
  rfl

/-- A one-axis vector viewed as a one-row matrix keeps its coordinate. -/
theorem asRow_apply {α : Type} (v : S32.Idx → α) (q : Fin 32) :
    shapeCast S1x32 v shapeCasts_S32_S1x32 (ix2 0 q) = v (ix1 q) :=
  shapeCast_apply v shapeCasts_S32_S1x32 (ix2 0 q) (ix1 q) (by
    rw [Shape.rowMajor_val_one, Shape.rowMajor_val_two]
    show q.val = 0 * 32 + q.val
    omega)

/-- One step of the pooling: the accumulator plus the block's column sum, at column q. -/
theorem k4_pay2_apply (acc : Vec Ideal S1x32 .f32) (x : Vec Ideal S5000x32 .f32) (q : Fin 32) :
    Gen.k4_pay2 acc x (ix2 0 q) = acc (ix2 0 q) + ∑ r : Fin 5000, x (ix2 r q) := by
  unfold Gen.k4_pay2
  rw [shapeCast_self, shapeCast_self x]
  refine congrArg (acc (ix2 0 q) + ·) ?_
  refine (asRow_apply _ q).trans ?_
  exact HeadValue.PlainOps.multiReduction_add_col x reduces_S5000x32_S32 (.inl rfl) rfl q

/-- The two affine maps of the pooled row, at the one entry of the result. -/
theorem k4_pay3_apply (pooled : Vec Ideal S1x32 .f32) (W1 : Vec Ideal S32x24 .f32) (b1 : Vec Ideal S1x24 .f32)
    (W2 : Vec Ideal S24x1 .f32) (b2 : Vec Ideal S1x1 .f32) :
    Gen.k4_pay3 pooled W1 b1 W2 b2 (ix2 0 0)
      = (∑ j : Fin 24, ((∑ c : Fin 32, pooled (ix2 0 c) * W1 (ix2 c j)) + b1 (ix2 0 j)) * W2 (ix2 j 0)) + b2 (ix2 0 0) := by
  unfold Gen.k4_pay3
  rw [shapeCast_self b1, shapeCast_self b2]
  refine congrArg (· + b2 (ix2 0 0)) ?_
  refine (PlainProduct.matmul_zero_apply dot_S1x24_S24x1_S1x1_1_0_0_1_n_n.wf none _ _ 0 0).trans ?_
  refine Finset.sum_congr rfl fun j _ => congrArg (· * W2 (ix2 j 0)) ?_
  exact congrArg (· + b1 (ix2 0 j))
    (PlainProduct.matmul_zero_apply dot_S1x32_S32x24_S1x24_1_0_0_1_n_n.wf none
      (truncf .bf16 pooled bitsLt_bf16_f32) (truncf .bf16 W1 bitsLt_bf16_f32) 0 j)

end Cert.KernelIdeal.Payloads

end
-- ==== Proof.KernelBlocksBase.lean ====
/-
  Two entry-by-entry matrix functions the regions' results are stated with, and two facts shared by the regions.
-/
import proofs.«136399_j53652731461900_1_alg».proof.Proof.Spec

noncomputable section

open scoped BigOperators

namespace Cert.KernelIdeal.Blocks

open Idealize.ShloMosaic Idealize.ShloMosaic.ValueIdx

/-- The sum of two matrices clamped below at the zero word's value, entry by entry. -/
def clampSum {n m : Nat} (A T : Spec.Mat n m) : Spec.Mat n m :=
  Spec.ofEntries fun a j => max (A (ix2 a j) + T (ix2 a j)) (Ideal.ofBits .f32 0x00000000#32)

theorem clampSum_apply {n m : Nat} (A T : Spec.Mat n m) (a : Fin n) (j : Fin m) :
    clampSum A T (ix2 a j) = max (A (ix2 a j) + T (ix2 a j)) (Ideal.ofBits .f32 0x00000000#32) := rfl

/-- The clamped sum at any index. -/
theorem clampSum_at {n m : Nat} (A T : Spec.Mat n m) (i : (⟨2, ![n, m]⟩ : Shape).Idx) :
    clampSum A T i = max (A (ix2 (i 0) (i 1)) + T (ix2 (i 0) (i 1))) (Ideal.ofBits .f32 0x00000000#32) := rfl

/-- A matrix product at any index: the sum over the contracted coordinate. -/
theorem mm_at {m k n : Nat} (A : Spec.Mat m k) (B : Spec.Mat k n) (i : (⟨2, ![m, n]⟩ : Shape).Idx) :
    Spec.mm A B i = ∑ c : Fin k, A (ix2 (i 0) c) * B (ix2 c (i 1)) := rfl

/-- A matrix product plus a row added to every row, at any index. -/
theorem mm_add_row_at {n k : Nat} (X : Spec.Mat n k) (K2 : Spec.Mat k 32) (B : Spec.Mat 1 32) (i : (⟨2, ![n, 32]⟩ : Shape).Idx) :
    (Spec.ofEntries fun a j => Spec.mm X K2 (ix2 a j) + B (ix2 0 j) : Spec.Mat n 32) i
      = (∑ c : Fin k, X (ix2 (i 0) c) * K2 (ix2 c (i 1))) + B (ix2 0 (i 1)) := rfl

/-- The zero offsets of a whole-buffer rectangle. -/
theorem hz : (![0, 0] : Fin 2 → Nat) = fun _ => 0 := funext fun a => by fin_cases a <;> rfl

end Cert.KernelIdeal.Blocks

end
-- ==== Proof.KernelBlocks0.lean ====
/-
  A projection region, from blocks to whole arrays.

  The region's grid has 20 points; point t works on rows 5000·t … 5000·t + 4999.  The input window's block at t is
  those rows of the input matrix, the two weight windows and the bias window hold their whole arrays at every point,
  and each result window's block at t is those rows of its result array.  Every point writes its two result blocks
  back, and the 20 blocks tile the 100000 rows.  So the first result array ends as the matrix product of the input
  matrix with the first weight matrix, and the second as the product with the second weight matrix plus the bias row
  added to every row: at row 5000·t + p the body's entry (p, q) is the sum over c of X(5000·t + p, c) · K(c, q).
-/
import proofs.«136399_j53652731461900_1_alg».proof.Proof.IdealProj0
import proofs.«136399_j53652731461900_1_alg».proof.Proof.Payloads
import proofs.«136399_j53652731461900_1_alg».proof.Proof.Spec
import proofs.«136399_j53652731461900_1_alg».proof.Proof.KernelBlocksBase
import Idealize.ShloMosaic.Lib.Pipeline.Value

noncomputable section

open scoped BigOperators

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the input window and the two result windows are at row block t, the weight and bias
    windows at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, entry by entry -/

/-- The input block at point t: entry (p, k) is the input matrix at row 5000·t + p. -/
theorem blk0_0_apply (c : Dev nD) (t : Fin cfg0.N) (p : Fin 5000) (k : Fin 128) (i : S100000x128.Idx)
    (h0 : (i 0).val = 5000 * t.val + p.val) (h1 : (i 1).val = k.val) :
    (blk0 V c 0 t : Vec Ideal S5000x128 .f32) (ix2 p k) = (V c main_arg0 : S100000x128.Idx → EReal) i := by
  obtain ⟨e00, e01, -⟩ := idx_facts0 t
  unfold blk0
  rw [View.read_apply]
  show V c main_arg0 _ = V c main_arg0 i
  refine congrArg (V c main_arg0) ?_
  funext a; apply Fin.ext
  match a with
  | ⟨0, _⟩ => show win0_0.index t 0 * 5000 + 1 * p.val = (i 0).val; omega
  | ⟨1, _⟩ => show win0_0.index t 1 * 128 + 1 * k.val = (i 1).val; omega

/-- The first weight window's block is the whole first weight matrix. -/
theorem blk0_1_apply (c : Dev nD) (t : Fin cfg0.N) (k : Fin 128) (q : Fin 32) :
    (blk0 V c 1 t : Vec Ideal S128x32 .f32) (ix2 k q) = (V c main_arg4 : S128x32.Idx → EReal) (ix2 k q) := by
  obtain ⟨-, -, e10, e11, -⟩ := idx_facts0 t
  unfold blk0
  rw [View.read_apply]
  show V c main_arg4 _ = V c main_arg4 _
  refine congrArg (V c main_arg4) ?_
  funext a; apply Fin.ext
  match a with
  | ⟨0, _⟩ => show win0_1.index t 0 * 128 + 1 * k.val = k.val; omega
  | ⟨1, _⟩ => show win0_1.index t 1 * 32 + 1 * q.val = q.val; omega

/-- The second weight window's block is the whole second weight matrix. -/
theorem blk0_2_apply (c : Dev nD) (t : Fin cfg0.N) (k : Fin 128) (q : Fin 32) :
    (blk0 V c 2 t : Vec Ideal S128x32 .f32) (ix2 k q) = (V c main_arg5 : S128x32.Idx → EReal) (ix2 k q) := by
  obtain ⟨-, -, -, -, e20, e21, -⟩ := idx_facts0 t
  unfold blk0
  rw [View.read_apply]
  show V c main_arg5 _ = V c main_arg5 _
  refine congrArg (V c main_arg5) ?_
  funext a; apply Fin.ext
  match a with
  | ⟨0, _⟩ => show win0_2.index t 0 * 128 + 1 * k.val = k.val; omega
  | ⟨1, _⟩ => show win0_2.index t 1 * 32 + 1 * q.val = q.val; omega

/-- The bias window's block is the whole bias row. -/
theorem blk0_3_apply (c : Dev nD) (t : Fin cfg0.N) (q : Fin 32) :
    (blk0 V c 3 t : Vec Ideal S1x32 .f32) (ix2 0 q) = (V c main_v0 : S1x32.Idx → EReal) (ix2 0 q) := by
  obtain ⟨-, -, -, -, -, -, e30, e31, -⟩ := idx_facts0 t
  unfold blk0
  rw [View.read_apply]
  show V c main_v0 _ = V c main_v0 _
  refine congrArg (V c main_v0) ?_
  funext a; apply Fin.ext
  match a with
  | ⟨0, _⟩ => show win0_3.index t 0 * 1 + 1 * 0 = 0; omega
  | ⟨1, _⟩ => show win0_3.index t 1 * 32 + 1 * q.val = q.val; omega

/-! ## The first result: X · K₁ -/

/-- Where an entry of the first result's block at point t sits in the array. -/
theorem emb0_4 (t : Fin cfg0.N) (j : ((cfg0.win 4).xblock (grid0.coords t)).Idx) :
    ((((cfg0.win 4).blk t).view.emb j) 0).val = 5000 * t.val + (j 0).val
      ∧ ((((cfg0.win 4).blk t).view.emb j) 1).val = (j 1).val := by
  obtain ⟨-, -, -, -, -, -, -, -, e40, e41, -⟩ := idx_facts0 t
  constructor
  · show win0_4.index t 0 * 5000 + 1 * (j 0).val = _; omega
  · show win0_4.index t 1 * 32 + 1 * (j 1).val = _; omega

/-- What point t writes back to the first result is block t of the product. -/
theorem flushed0_4_eq (c : Dev nD) (t : Fin cfg0.N) :
    (dat0 V c).flushed 4 t = ((cfg0.win 4).blk t).view.read (Elt Ideal) (Spec.mm (V c main_arg0) (V c main_arg4)) := by
  show (cfg0.win 4).cut (grid0.coords t) ((dat0 V c).after 4 t) = _
  rw [after0_4]
  unfold projected0
  rw [View.canon_unit_zero hz]
  simp only [View.ld_unit_zero (S := S5000x128) hz, View.ld_unit_zero (S := S128x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win0 4).xinj (grid0.coords t) j = ix2 p q := funext fun a => Fin.ext (by
    match a with
    | ⟨0, _⟩ => exact hp.symm
    | ⟨1, _⟩ => exact hq.symm)
  obtain ⟨g0, g1⟩ := emb0_4 t j
  refine (congrArg (k0_pay2 (blk0 V c 0 t) (blk0 V c 1 t)) hl).trans ?_
  refine (Payloads.k0_pay2_apply _ _ p q).trans ?_
  rw [View.read_apply]
  refine Eq.trans ?_ (mm_at _ _ _).symm
  refine Finset.sum_congr rfl fun k _ => congrArg₂ (· * ·) ?_ ?_
  · exact blk0_0_apply V c t p k _ (by show ((((cfg0.win 4).blk t).view.emb j) 0).val = _; omega) rfl
  · refine (blk0_1_apply V c t k q).trans (congrArg (V c main_arg4) ?_)
    funext a; apply Fin.ext
    match a with
    | ⟨0, _⟩ => rfl
    | ⟨1, _⟩ => show q.val = ((((cfg0.win 4).blk t).view.emb j) 1).val; omega

/-- An index of the first result is in point t's block iff each coordinate is in the block's range. -/
theorem mem_blk0_4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v1_0).slice (win0_4.rect t)).set ↔ _
  rw [View.set_slice_whole, Rect.mem_set_unit]
  exact Iff.rfl

/-- Row r of the first result is covered by point r / 5000. -/
theorem cover0_4 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e40, e41, -⟩ := idx_facts0 t
  refine ⟨t, flush0_4 t, ?_⟩
  rw [mem_blk0_4]
  intro a
  match a with
  | ⟨0, _⟩ => show win0_4.index t 0 * 5000 ≤ (i 0).val ∧ (i 0).val < win0_4.index t 0 * 5000 + 5000; omega
  | ⟨1, _⟩ => show win0_4.index t 1 * 32 ≤ (i 1).val ∧ (i 1).val < win0_4.index t 1 * 32 + 32; omega

/-- The first result array after the region: the product of the input matrix with the first weight matrix. -/
theorem proj0_first (c : Dev nD) : (dat0 (F := Ideal) V c).arrAt 4 cfg0.N = Spec.mm (V c main_arg0) (V c main_arg4) :=
  (dat0 V c).arrAt_eq_of_cover 4 _ (fun t _ => flushed0_4_eq V c t) cover0_4

/-! ## The second result: X · K₂ + b -/

/-- The second result as one function of the arrays the region is entered with. -/
def second0 (c : Dev nD) : Spec.Mat 100000 32 :=
  Spec.ofEntries fun a j => Spec.mm (V c main_arg0) (V c main_arg5) (ix2 a j) + (V c main_v0 : S1x32.Idx → EReal) (ix2 0 j)

/-- Where an entry of the second result's block at point t sits in the array. -/
theorem emb0_5 (t : Fin cfg0.N) (j : ((cfg0.win 5).xblock (grid0.coords t)).Idx) :
    ((((cfg0.win 5).blk t).view.emb j) 0).val = 5000 * t.val + (j 0).val
      ∧ ((((cfg0.win 5).blk t).view.emb j) 1).val = (j 1).val := by
  obtain ⟨-, -, -, -, -, -, -, -, -, -, e50, e51⟩ := idx_facts0 t
  constructor
  · show win0_5.index t 0 * 5000 + 1 * (j 0).val = _; omega
  · show win0_5.index t 1 * 32 + 1 * (j 1).val = _; omega

/-- What point t writes back to the second result is block t of that function. -/
theorem flushed0_5_eq (c : Dev nD) (t : Fin cfg0.N) :
    (dat0 V c).flushed 5 t = ((cfg0.win 5).blk t).view.read (Elt Ideal) (second0 V c) := by
  show (cfg0.win 5).cut (grid0.coords t) ((dat0 V c).after 5 t) = _
  rw [after0_5]
  unfold shifted0
  rw [View.canon_unit_zero hz]
  simp only [View.ld_unit_zero (S := S5000x128) hz, View.ld_unit_zero (S := S128x32) hz, View.ld_unit_zero (S := S1x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win0 5).xinj (grid0.coords t) j = ix2 p q := funext fun a => Fin.ext (by
    match a with
    | ⟨0, _⟩ => exact hp.symm
    | ⟨1, _⟩ => exact hq.symm)
  obtain ⟨g0, g1⟩ := emb0_5 t j
  have hq' : (((cfg0.win 5).blk t).view.emb j) 1 = q := Fin.ext (by omega)
  refine (congrArg (k0_pay3 (blk0 V c 0 t) (blk0 V c 2 t) (blk0 V c 3 t)) hl).trans ?_
  refine (Payloads.k0_pay3_apply _ _ _ p q).trans ?_
  rw [View.read_apply]
  refine Eq.trans ?_ (mm_add_row_at (V c main_arg0) (V c main_arg5) (V c main_v0) _).symm
  refine congrArg₂ (· + ·) (Finset.sum_congr rfl fun k _ => congrArg₂ (· * ·) ?_ ?_) ?_
  · exact blk0_0_apply V c t p k _ (by show ((((cfg0.win 5).blk t).view.emb j) 0).val = _; omega) rfl
  · rw [hq']; exact blk0_2_apply V c t k q
  · rw [hq']; exact blk0_3_apply V c t q

/-- An index of the second result is in point t's block iff each coordinate is in the block's range. -/
theorem mem_blk0_5 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v1_1).slice (win0_5.rect t)).set ↔ _
  rw [View.set_slice_whole, Rect.mem_set_unit]
  exact Iff.rfl

/-- Row r of the second result is covered by point r / 5000. -/
theorem cover0_5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := idx_facts0 t
  refine ⟨t, flush0_5 t, ?_⟩
  rw [mem_blk0_5]
  intro a
  match a with
  | ⟨0, _⟩ => show win0_5.index t 0 * 5000 ≤ (i 0).val ∧ (i 0).val < win0_5.index t 0 * 5000 + 5000; omega
  | ⟨1, _⟩ => show win0_5.index t 1 * 32 ≤ (i 1).val ∧ (i 1).val < win0_5.index t 1 * 32 + 32; omega

/-- The second result array after the region: the product with the second weight matrix, plus the bias row on every row. -/
theorem proj0_second (c : Dev nD) : (dat0 (F := Ideal) V c).arrAt 5 cfg0.N
    = Spec.ofEntries fun a j => Spec.mm (V c main_arg0) (V c main_arg5) (ix2 a j) + (V c main_v0 : S1x32.Idx → EReal) (ix2 0 j) :=
  (dat0 V c).arrAt_eq_of_cover 5 (second0 V c) (fun t _ => flushed0_5_eq V c t) cover0_5

end Cert.KernelIdeal.Blocks

end
-- ==== Proof.KernelBlocks1.lean ====
/-
  A combine region, from blocks to the whole array.

  The region's grid has 20 points; point t works on rows 5000·t … 5000·t + 4999 of its two input arrays and of its
  result array, and writes its result block back.  The body adds the two blocks entry by entry and clamps below at
  the zero word's value, and the 20 blocks tile the 100000 rows, so the result array ends as max(a + t, 0) entry by
  entry of the two input arrays.
-/
import proofs.«136399_j53652731461900_1_alg».proof.Proof.IdealCombine1
import proofs.«136399_j53652731461900_1_alg».proof.Proof.Payloads
import proofs.«136399_j53652731461900_1_alg».proof.Proof.Spec
import proofs.«136399_j53652731461900_1_alg».proof.Proof.KernelBlocksBase
import Idealize.ShloMosaic.Lib.Pipeline.Value

noncomputable section

open scoped BigOperators

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: all three windows are at row block t. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first input's block at point t: entry (p, q) is the array at row 5000·t + p. -/
theorem blk1_0_apply (c : Dev nD) (t : Fin cfg1.N) (p : Fin 5000) (q : Fin 32) (i : S100000x32.Idx)
    (h0 : (i 0).val = 5000 * t.val + p.val) (h1 : (i 1).val = q.val) :
    (blk1 V c 0 t : Vec Ideal S5000x32 .f32) (ix2 p q) = (V c main_v14 : S100000x32.Idx → EReal) i := by
  obtain ⟨e00, e01, -⟩ := idx_facts1 t
  unfold blk1
  rw [View.read_apply]
  show V c main_v14 _ = V c main_v14 i
  refine congrArg (V c main_v14) ?_
  funext a; apply Fin.ext
  match a with
  | ⟨0, _⟩ => show win1_0.index t 0 * 5000 + 1 * p.val = (i 0).val; omega
  | ⟨1, _⟩ => show win1_0.index t 1 * 32 + 1 * q.val = (i 1).val; omega

/-- The second input's block at point t: entry (p, q) is the array at row 5000·t + p. -/
theorem blk1_1_apply (c : Dev nD) (t : Fin cfg1.N) (p : Fin 5000) (q : Fin 32) (i : S100000x32.Idx)
    (h0 : (i 0).val = 5000 * t.val + p.val) (h1 : (i 1).val = q.val) :
    (blk1 V c 1 t : Vec Ideal S5000x32 .f32) (ix2 p q) = (V c main_v1_1 : S100000x32.Idx → EReal) i := by
  obtain ⟨-, -, e10, e11, -⟩ := idx_facts1 t
  unfold blk1
  rw [View.read_apply]
  show V c main_v1_1 _ = V c main_v1_1 i
  refine congrArg (V c main_v1_1) ?_
  funext a; apply Fin.ext
  match a with
  | ⟨0, _⟩ => show win1_1.index t 0 * 5000 + 1 * p.val = (i 0).val; omega
  | ⟨1, _⟩ => show win1_1.index t 1 * 32 + 1 * q.val = (i 1).val; omega

/-- Where an entry of the result's block at point t sits in the array. -/
theorem emb1_2 (t : Fin cfg1.N) (j : ((cfg1.win 2).xblock (grid1.coords t)).Idx) :
    ((((cfg1.win 2).blk t).view.emb j) 0).val = 5000 * t.val + (j 0).val
      ∧ ((((cfg1.win 2).blk t).view.emb j) 1).val = (j 1).val := by
  obtain ⟨-, -, -, -, e20, e21⟩ := idx_facts1 t
  constructor
  · show win1_2.index t 0 * 5000 + 1 * (j 0).val = _; omega
  · show win1_2.index t 1 * 32 + 1 * (j 1).val = _; omega

/-- What point t writes back is block t of that function. -/
theorem flushed1_2_eq (c : Dev nD) (t : Fin cfg1.N) :
    (dat1 V c).flushed 2 t = ((cfg1.win 2).blk t).view.read (Elt Ideal) (clampSum (V c main_v14) (V c main_v1_1)) := by
  show (cfg1.win 2).cut (grid1.coords t) ((dat1 V c).after 2 t) = _
  rw [after1_2]
  unfold combined1
  rw [View.canon_unit_zero hz]
  simp only [View.ld_unit_zero (S := S5000x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win1 2).xinj (grid1.coords t) j = ix2 p q := funext fun a => Fin.ext (by
    match a with
    | ⟨0, _⟩ => exact hp.symm
    | ⟨1, _⟩ => exact hq.symm)
  obtain ⟨g0, g1⟩ := emb1_2 t j
  refine (congrArg (k1_pay1 (blk1 V c 0 t) (blk1 V c 1 t)) hl).trans ?_
  refine (Payloads.k1_pay1_apply _ _ p q).trans ?_
  rw [View.read_apply]
  refine Eq.trans ?_ (clampSum_at (V c main_v14) (V c main_v1_1) _).symm
  refine congrArg₂ max (congrArg₂ (· + ·) ?_ ?_) rfl
  · exact blk1_0_apply V c t p q _ (by show ((((cfg1.win 2).blk t).view.emb j) 0).val = _; omega)
      (by show ((((cfg1.win 2).blk t).view.emb j) 1).val = _; omega)
  · exact blk1_1_apply V c t p q _ (by show ((((cfg1.win 2).blk t).view.emb j) 0).val = _; omega)
      (by show ((((cfg1.win 2).blk t).view.emb j) 1).val = _; omega)

/-- An index of the result is in point t's block iff each coordinate is in the block's range. -/
theorem mem_blk1_2 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v15).slice (win1_2.rect t)).set ↔ _
  rw [View.set_slice_whole, Rect.mem_set_unit]
  exact Iff.rfl

/-- Row r of the result is covered by point r / 5000. -/
theorem cover1_2 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e20, e21⟩ := idx_facts1 t
  refine ⟨t, flush1_2 t, ?_⟩
  rw [mem_blk1_2]
  intro a
  match a with
  | ⟨0, _⟩ => show win1_2.index t 0 * 5000 ≤ (i 0).val ∧ (i 0).val < win1_2.index t 0 * 5000 + 5000; omega
  | ⟨1, _⟩ => show win1_2.index t 1 * 32 ≤ (i 1).val ∧ (i 1).val < win1_2.index t 1 * 32 + 32; omega

/-- The result array after the region: the two input arrays added and clamped below at zero, entry by entry. -/
theorem comb1 (c : Dev nD) : (dat1 (F := Ideal) V c).arrAt 2 cfg1.N
    = clampSum (V c main_v14) (V c main_v1_1) :=
  (dat1 V c).arrAt_eq_of_cover 2 (clampSum (V c main_v14) (V c main_v1_1)) (fun t _ => flushed1_2_eq V c t) cover1_2

end Cert.KernelIdeal.Blocks

end
-- ==== Proof.KernelBlocks2.lean ====
/-
  A projection region, from blocks to whole arrays.

  The region's grid has 20 points; point t works on rows 5000·t … 5000·t + 4999.  The input window's block at t is
  those rows of the input matrix, the two weight windows and the bias window hold their whole arrays at every point,
  and each result window's block at t is those rows of its result array.  Every point writes its two result blocks
  back, and the 20 blocks tile the 100000 rows.  So the first result array ends as the matrix product of the input
  matrix with the first weight matrix, and the second as the product with the second weight matrix plus the bias row
  added to every row: at row 5000·t + p the body's entry (p, q) is the sum over c of X(5000·t + p, c) · K(c, q).
-/
import proofs.«136399_j53652731461900_1_alg».proof.Proof.IdealProj2
import proofs.«136399_j53652731461900_1_alg».proof.Proof.Payloads
import proofs.«136399_j53652731461900_1_alg».proof.Proof.Spec
import proofs.«136399_j53652731461900_1_alg».proof.Proof.KernelBlocksBase
import Idealize.ShloMosaic.Lib.Pipeline.Value

noncomputable section

open scoped BigOperators

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the input window and the two result windows are at row block t, the weight and bias
    windows at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The input blocks, entry by entry -/

/-- The input block at point t: entry (p, k) is the input matrix at row 5000·t + p. -/
theorem blk2_0_apply (c : Dev nD) (t : Fin cfg2.N) (p : Fin 5000) (k : Fin 32) (i : S100000x32.Idx)
    (h0 : (i 0).val = 5000 * t.val + p.val) (h1 : (i 1).val = k.val) :
    (blk2 V c 0 t : Vec Ideal S5000x32 .f32) (ix2 p k) = (V c main_v15 : S100000x32.Idx → EReal) i := by
  obtain ⟨e00, e01, -⟩ := idx_facts2 t
  unfold blk2
  rw [View.read_apply]
  show V c main_v15 _ = V c main_v15 i
  refine congrArg (V c main_v15) ?_
  funext a; apply Fin.ext
  match a with
  | ⟨0, _⟩ => show win2_0.index t 0 * 5000 + 1 * p.val = (i 0).val; omega
  | ⟨1, _⟩ => show win2_0.index t 1 * 32 + 1 * k.val = (i 1).val; omega

/-- The first weight window's block is the whole first weight matrix. -/
theorem blk2_1_apply (c : Dev nD) (t : Fin cfg2.N) (k : Fin 32) (q : Fin 32) :
    (blk2 V c 1 t : Vec Ideal S32x32 .f32) (ix2 k q) = (V c main_arg7 : S32x32.Idx → EReal) (ix2 k q) := by
  obtain ⟨-, -, e10, e11, -⟩ := idx_facts2 t
  unfold blk2
  rw [View.read_apply]
  show V c main_arg7 _ = V c main_arg7 _
  refine congrArg (V c main_arg7) ?_
  funext a; apply Fin.ext
  match a with
  | ⟨0, _⟩ => show win2_1.index t 0 * 32 + 1 * k.val = k.val; omega
  | ⟨1, _⟩ => show win2_1.index t 1 * 32 + 1 * q.val = q.val; omega

/-- The second weight window's block is the whole second weight matrix. -/
theorem blk2_2_apply (c : Dev nD) (t : Fin cfg2.N) (k : Fin 32) (q : Fin 32) :
    (blk2 V c 2 t : Vec Ideal S32x32 .f32) (ix2 k q) = (V c main_arg8 : S32x32.Idx → EReal) (ix2 k q) := by
  obtain ⟨-, -, -, -, e20, e21, -⟩ := idx_facts2 t
  unfold blk2
  rw [View.read_apply]
  show V c main_arg8 _ = V c main_arg8 _
  refine congrArg (V c main_arg8) ?_
  funext a; apply Fin.ext
  match a with
  | ⟨0, _⟩ => show win2_2.index t 0 * 32 + 1 * k.val = k.val; omega
  | ⟨1, _⟩ => show win2_2.index t 1 * 32 + 1 * q.val = q.val; omega

/-- The bias window's block is the whole bias row. -/
theorem blk2_3_apply (c : Dev nD) (t : Fin cfg2.N) (q : Fin 32) :
    (blk2 V c 3 t : Vec Ideal S1x32 .f32) (ix2 0 q) = (V c main_v16 : S1x32.Idx → EReal) (ix2 0 q) := by
  obtain ⟨-, -, -, -, -, -, e30, e31, -⟩ := idx_facts2 t
  unfold blk2
  rw [View.read_apply]
  show V c main_v16 _ = V c main_v16 _
  refine congrArg (V c main_v16) ?_
  funext a; apply Fin.ext
  match a with
  | ⟨0, _⟩ => show win2_3.index t 0 * 1 + 1 * 0 = 0; omega
  | ⟨1, _⟩ => show win2_3.index t 1 * 32 + 1 * q.val = q.val; omega

/-! ## The first result: X · K₁ -/

/-- Where an entry of the first result's block at point t sits in the array. -/
theorem emb2_4 (t : Fin cfg2.N) (j : ((cfg2.win 4).xblock (grid2.coords t)).Idx) :
    ((((cfg2.win 4).blk t).view.emb j) 0).val = 5000 * t.val + (j 0).val
      ∧ ((((cfg2.win 4).blk t).view.emb j) 1).val = (j 1).val := by
  obtain ⟨-, -, -, -, -, -, -, -, e40, e41, -⟩ := idx_facts2 t
  constructor
  · show win2_4.index t 0 * 5000 + 1 * (j 0).val = _; omega
  · show win2_4.index t 1 * 32 + 1 * (j 1).val = _; omega

/-- What point t writes back to the first result is block t of the product. -/
theorem flushed2_4_eq (c : Dev nD) (t : Fin cfg2.N) :
    (dat2 V c).flushed 4 t = ((cfg2.win 4).blk t).view.read (Elt Ideal) (Spec.mm (V c main_v15) (V c main_arg7)) := by
  show (cfg2.win 4).cut (grid2.coords t) ((dat2 V c).after 4 t) = _
  rw [after2_4]
  unfold projected2
  rw [View.canon_unit_zero hz]
  simp only [View.ld_unit_zero (S := S5000x32) hz, View.ld_unit_zero (S := S32x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win2 4).xinj (grid2.coords t) j = ix2 p q := funext fun a => Fin.ext (by
    match a with
    | ⟨0, _⟩ => exact hp.symm
    | ⟨1, _⟩ => exact hq.symm)
  obtain ⟨g0, g1⟩ := emb2_4 t j
  refine (congrArg (k2_pay2 (blk2 V c 0 t) (blk2 V c 1 t)) hl).trans ?_
  refine (Payloads.k2_pay2_apply _ _ p q).trans ?_
  rw [View.read_apply]
  refine Eq.trans ?_ (mm_at _ _ _).symm
  refine Finset.sum_congr rfl fun k _ => congrArg₂ (· * ·) ?_ ?_
  · exact blk2_0_apply V c t p k _ (by show ((((cfg2.win 4).blk t).view.emb j) 0).val = _; omega) rfl
  · refine (blk2_1_apply V c t k q).trans (congrArg (V c main_arg7) ?_)
    funext a; apply Fin.ext
    match a with
    | ⟨0, _⟩ => rfl
    | ⟨1, _⟩ => show q.val = ((((cfg2.win 4).blk t).view.emb j) 1).val; omega

/-- An index of the first result is in point t's block iff each coordinate is in the block's range. -/
theorem mem_blk2_4 (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v17_0).slice (win2_4.rect t)).set ↔ _
  rw [View.set_slice_whole, Rect.mem_set_unit]
  exact Iff.rfl

/-- Row r of the first result is covered by point r / 5000. -/
theorem cover2_4 (i : S100000x32.Idx) : ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e40, e41, -⟩ := idx_facts2 t
  refine ⟨t, flush2_4 t, ?_⟩
  rw [mem_blk2_4]
  intro a
  match a with
  | ⟨0, _⟩ => show win2_4.index t 0 * 5000 ≤ (i 0).val ∧ (i 0).val < win2_4.index t 0 * 5000 + 5000; omega
  | ⟨1, _⟩ => show win2_4.index t 1 * 32 ≤ (i 1).val ∧ (i 1).val < win2_4.index t 1 * 32 + 32; omega

/-- The first result array after the region: the product of the input matrix with the first weight matrix. -/
theorem proj2_first (c : Dev nD) : (dat2 (F := Ideal) V c).arrAt 4 cfg2.N = Spec.mm (V c main_v15) (V c main_arg7) :=
  (dat2 V c).arrAt_eq_of_cover 4 _ (fun t _ => flushed2_4_eq V c t) cover2_4

/-! ## The second result: X · K₂ + b -/

/-- The second result as one function of the arrays the region is entered with. -/
def second2 (c : Dev nD) : Spec.Mat 100000 32 :=
  Spec.ofEntries fun a j => Spec.mm (V c main_v15) (V c main_arg8) (ix2 a j) + (V c main_v16 : S1x32.Idx → EReal) (ix2 0 j)

/-- Where an entry of the second result's block at point t sits in the array. -/
theorem emb2_5 (t : Fin cfg2.N) (j : ((cfg2.win 5).xblock (grid2.coords t)).Idx) :
    ((((cfg2.win 5).blk t).view.emb j) 0).val = 5000 * t.val + (j 0).val
      ∧ ((((cfg2.win 5).blk t).view.emb j) 1).val = (j 1).val := by
  obtain ⟨-, -, -, -, -, -, -, -, -, -, e50, e51⟩ := idx_facts2 t
  constructor
  · show win2_5.index t 0 * 5000 + 1 * (j 0).val = _; omega
  · show win2_5.index t 1 * 32 + 1 * (j 1).val = _; omega

/-- What point t writes back to the second result is block t of that function. -/
theorem flushed2_5_eq (c : Dev nD) (t : Fin cfg2.N) :
    (dat2 V c).flushed 5 t = ((cfg2.win 5).blk t).view.read (Elt Ideal) (second2 V c) := by
  show (cfg2.win 5).cut (grid2.coords t) ((dat2 V c).after 5 t) = _
  rw [after2_5]
  unfold shifted2
  rw [View.canon_unit_zero hz]
  simp only [View.ld_unit_zero (S := S5000x32) hz, View.ld_unit_zero (S := S32x32) hz, View.ld_unit_zero (S := S1x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win2 5).xinj (grid2.coords t) j = ix2 p q := funext fun a => Fin.ext (by
    match a with
    | ⟨0, _⟩ => exact hp.symm
    | ⟨1, _⟩ => exact hq.symm)
  obtain ⟨g0, g1⟩ := emb2_5 t j
  have hq' : (((cfg2.win 5).blk t).view.emb j) 1 = q := Fin.ext (by omega)
  refine (congrArg (k2_pay3 (blk2 V c 0 t) (blk2 V c 2 t) (blk2 V c 3 t)) hl).trans ?_
  refine (Payloads.k2_pay3_apply _ _ _ p q).trans ?_
  rw [View.read_apply]
  refine Eq.trans ?_ (mm_add_row_at (V c main_v15) (V c main_arg8) (V c main_v16) _).symm
  refine congrArg₂ (· + ·) (Finset.sum_congr rfl fun k _ => congrArg₂ (· * ·) ?_ ?_) ?_
  · exact blk2_0_apply V c t p k _ (by show ((((cfg2.win 5).blk t).view.emb j) 0).val = _; omega) rfl
  · rw [hq']; exact blk2_2_apply V c t k q
  · rw [hq']; exact blk2_3_apply V c t q

/-- An index of the second result is in point t's block iff each coordinate is in the block's range. -/
theorem mem_blk2_5 (t : Fin cfg2.N) (i : S100000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v17_1).slice (win2_5.rect t)).set ↔ _
  rw [View.set_slice_whole, Rect.mem_set_unit]
  exact Iff.rfl

/-- Row r of the second result is covered by point r / 5000. -/
theorem cover2_5 (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e50, e51⟩ := idx_facts2 t
  refine ⟨t, flush2_5 t, ?_⟩
  rw [mem_blk2_5]
  intro a
  match a with
  | ⟨0, _⟩ => show win2_5.index t 0 * 5000 ≤ (i 0).val ∧ (i 0).val < win2_5.index t 0 * 5000 + 5000; omega
  | ⟨1, _⟩ => show win2_5.index t 1 * 32 ≤ (i 1).val ∧ (i 1).val < win2_5.index t 1 * 32 + 32; omega

/-- The second result array after the region: the product with the second weight matrix, plus the bias row on every row. -/
theorem proj2_second (c : Dev nD) : (dat2 (F := Ideal) V c).arrAt 5 cfg2.N
    = Spec.ofEntries fun a j => Spec.mm (V c main_v15) (V c main_arg8) (ix2 a j) + (V c main_v16 : S1x32.Idx → EReal) (ix2 0 j) :=
  (dat2 V c).arrAt_eq_of_cover 5 (second2 V c) (fun t _ => flushed2_5_eq V c t) cover2_5

end Cert.KernelIdeal.Blocks

end
-- ==== Proof.KernelBlocks3.lean ====
/-
  A combine region, from blocks to the whole array.

  The region's grid has 20 points; point t works on rows 5000·t … 5000·t + 4999 of its two input arrays and of its
  result array, and writes its result block back.  The body adds the two blocks entry by entry and clamps below at
  the zero word's value, and the 20 blocks tile the 100000 rows, so the result array ends as max(a + t, 0) entry by
  entry of the two input arrays.
-/
import proofs.«136399_j53652731461900_1_alg».proof.Proof.IdealCombine3
import proofs.«136399_j53652731461900_1_alg».proof.Proof.Payloads
import proofs.«136399_j53652731461900_1_alg».proof.Proof.Spec
import proofs.«136399_j53652731461900_1_alg».proof.Proof.KernelBlocksBase
import Idealize.ShloMosaic.Lib.Pipeline.Value

noncomputable section

open scoped BigOperators

namespace Cert.KernelIdeal.Blocks

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: all three windows are at row block t. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input's block at point t: entry (p, q) is the array at row 5000·t + p. -/
theorem blk3_0_apply (c : Dev nD) (t : Fin cfg3.N) (p : Fin 5000) (q : Fin 32) (i : S100000x32.Idx)
    (h0 : (i 0).val = 5000 * t.val + p.val) (h1 : (i 1).val = q.val) :
    (blk3 V c 0 t : Vec Ideal S5000x32 .f32) (ix2 p q) = (V c main_v30 : S100000x32.Idx → EReal) i := by
  obtain ⟨e00, e01, -⟩ := idx_facts3 t
  unfold blk3
  rw [View.read_apply]
  show V c main_v30 _ = V c main_v30 i
  refine congrArg (V c main_v30) ?_
  funext a; apply Fin.ext
  match a with
  | ⟨0, _⟩ => show win3_0.index t 0 * 5000 + 1 * p.val = (i 0).val; omega
  | ⟨1, _⟩ => show win3_0.index t 1 * 32 + 1 * q.val = (i 1).val; omega

/-- The second input's block at point t: entry (p, q) is the array at row 5000·t + p. -/
theorem blk3_1_apply (c : Dev nD) (t : Fin cfg3.N) (p : Fin 5000) (q : Fin 32) (i : S100000x32.Idx)
    (h0 : (i 0).val = 5000 * t.val + p.val) (h1 : (i 1).val = q.val) :
    (blk3 V c 1 t : Vec Ideal S5000x32 .f32) (ix2 p q) = (V c main_v17_1 : S100000x32.Idx → EReal) i := by
  obtain ⟨-, -, e10, e11, -⟩ := idx_facts3 t
  unfold blk3
  rw [View.read_apply]
  show V c main_v17_1 _ = V c main_v17_1 i
  refine congrArg (V c main_v17_1) ?_
  funext a; apply Fin.ext
  match a with
  | ⟨0, _⟩ => show win3_1.index t 0 * 5000 + 1 * p.val = (i 0).val; omega
  | ⟨1, _⟩ => show win3_1.index t 1 * 32 + 1 * q.val = (i 1).val; omega

/-- Where an entry of the result's block at point t sits in the array. -/
theorem emb3_2 (t : Fin cfg3.N) (j : ((cfg3.win 2).xblock (grid3.coords t)).Idx) :
    ((((cfg3.win 2).blk t).view.emb j) 0).val = 5000 * t.val + (j 0).val
      ∧ ((((cfg3.win 2).blk t).view.emb j) 1).val = (j 1).val := by
  obtain ⟨-, -, -, -, e20, e21⟩ := idx_facts3 t
  constructor
  · show win3_2.index t 0 * 5000 + 1 * (j 0).val = _; omega
  · show win3_2.index t 1 * 32 + 1 * (j 1).val = _; omega

/-- What point t writes back is block t of that function. -/
theorem flushed3_2_eq (c : Dev nD) (t : Fin cfg3.N) :
    (dat3 V c).flushed 2 t = ((cfg3.win 2).blk t).view.read (Elt Ideal) (clampSum (V c main_v30) (V c main_v17_1)) := by
  show (cfg3.win 2).cut (grid3.coords t) ((dat3 V c).after 2 t) = _
  rw [after3_2]
  unfold combined3
  rw [View.canon_unit_zero hz]
  simp only [View.ld_unit_zero (S := S5000x32) hz]
  funext j
  obtain ⟨p, q, hp, hq⟩ : ∃ (p : Fin 5000) (q : Fin 32), p.val = (j 0).val ∧ q.val = (j 1).val :=
    ⟨⟨(j 0).val, (j 0).isLt⟩, ⟨(j 1).val, (j 1).isLt⟩, rfl, rfl⟩
  have hl : (win3 2).xinj (grid3.coords t) j = ix2 p q := funext fun a => Fin.ext (by
    match a with
    | ⟨0, _⟩ => exact hp.symm
    | ⟨1, _⟩ => exact hq.symm)
  obtain ⟨g0, g1⟩ := emb3_2 t j
  refine (congrArg (k3_pay1 (blk3 V c 0 t) (blk3 V c 1 t)) hl).trans ?_
  refine (Payloads.k3_pay1_apply _ _ p q).trans ?_
  rw [View.read_apply]
  refine Eq.trans ?_ (clampSum_at (V c main_v30) (V c main_v17_1) _).symm
  refine congrArg₂ max (congrArg₂ (· + ·) ?_ ?_) rfl
  · exact blk3_0_apply V c t p q _ (by show ((((cfg3.win 2).blk t).view.emb j) 0).val = _; omega)
      (by show ((((cfg3.win 2).blk t).view.emb j) 1).val = _; omega)
  · exact blk3_1_apply V c t p q _ (by show ((((cfg3.win 2).blk t).view.emb j) 0).val = _; omega)
      (by show ((((cfg3.win 2).blk t).view.emb j) 1).val = _; omega)

/-- An index of the result is in point t's block iff each coordinate is in the block's range. -/
theorem mem_blk3_2 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v31).slice (win3_2.rect t)).set ↔ _
  rw [View.set_slice_whole, Rect.mem_set_unit]
  exact Iff.rfl

/-- Row r of the result is covered by point r / 5000. -/
theorem cover3_2 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e20, e21⟩ := idx_facts3 t
  refine ⟨t, flush3_2 t, ?_⟩
  rw [mem_blk3_2]
  intro a
  match a with
  | ⟨0, _⟩ => show win3_2.index t 0 * 5000 ≤ (i 0).val ∧ (i 0).val < win3_2.index t 0 * 5000 + 5000; omega
  | ⟨1, _⟩ => show win3_2.index t 1 * 32 ≤ (i 1).val ∧ (i 1).val < win3_2.index t 1 * 32 + 32; omega

/-- The result array after the region: the two input arrays added and clamped below at zero, entry by entry. -/
theorem comb3 (c : Dev nD) : (dat3 (F := Ideal) V c).arrAt 2 cfg3.N
    = clampSum (V c main_v30) (V c main_v17_1) :=
  (dat3 V c).arrAt_eq_of_cover 2 (clampSum (V c main_v30) (V c main_v17_1)) (fun t _ => flushed3_2_eq V c t) cover3_2

end Cert.KernelIdeal.Blocks

end
-- ==== Proof.KernelBlocks.lean ====
/-
  The four plain regions' result arrays as whole-array functions of the arrays each region is entered with:
  two projection regions (a matrix product, and a matrix product plus the bias row) and two combine regions
  (the clamped sum of two arrays).
-/
import proofs.«136399_j53652731461900_1_alg».proof.Proof.KernelBlocks0
import proofs.«136399_j53652731461900_1_alg».proof.Proof.KernelBlocks1
import proofs.«136399_j53652731461900_1_alg».proof.Proof.KernelBlocks2
import proofs.«136399_j53652731461900_1_alg».proof.Proof.KernelBlocks3
-- ==== Proof.LibBlockSums.lean ====
/-
  Sums over a range cut into equal blocks, and running sums.

  In any additive commutative monoid the order and grouping of a finite sum do not matter, so
  * a sum over a·b consecutive indices is the sum over the a blocks of the sum over the b indices of each block
    (index b·t + r is index r of block t);
  * a sequence that starts at z plus its first term and then adds one term per step is, after n steps, z plus the
    sum of its first n + 1 terms; and when the step rule is only known below a bound, the same holds up to the bound.
-/
import Mathlib.Algebra.BigOperators.Fin

open scoped BigOperators

namespace Cert.BlockSums

variable {M : Type*} [AddCommMonoid M]

/-- A sum over a·b consecutive indices, taken block by block: a blocks of b indices each, index b·t + r being
    index r of block t. -/
theorem sum_blocks_mul (a b : ℕ) (f : Fin (a * b) → M) (hlt : ∀ (t : Fin a) (r : Fin b), b * t.val + r.val < a * b) :
    ∑ R : Fin (a * b), f R = ∑ t : Fin a, ∑ r : Fin b, f ⟨b * t.val + r.val, hlt t r⟩ := by
  rw [← Equiv.sum_comp finProdFinEquiv f, Fintype.sum_prod_type]
  refine Finset.sum_congr rfl fun t _ => Finset.sum_congr rfl fun r _ => congrArg f (Fin.ext ?_)
  show r.val + b * t.val = b * t.val + r.val
  exact Nat.add_comm _ _

/-- A sum over 100000 consecutive indices is the sum over 20 blocks of the sums over the 5000 indices of each
    block: index 5000·t + r is index r of block t. -/
theorem sum_blocks (f : Fin 100000 → M) :
    ∑ R : Fin 100000, f R = ∑ t : Fin 20, ∑ r : Fin 5000, f ⟨5000 * t.val + r.val, by omega⟩ :=
  sum_blocks_mul 20 5000 f fun t r => by omega

/-- A running sum: if acc starts at z + g 0 and each step adds the next term, then after n steps it is z plus the
    sum of the terms g 0, …, g n. -/
theorem fold_range (z : M) (g acc : ℕ → M) (h0 : acc 0 = z + g 0) (hs : ∀ n, acc (n + 1) = acc n + g (n + 1)) (n : ℕ) :
    acc n = z + ∑ t ∈ Finset.range (n + 1), g t := by
  induction n with
  | zero => rw [Finset.sum_range_one]; exact h0
  | succ n ih => rw [hs n, ih, Finset.sum_range_succ _ (n + 1), add_assoc]

/-- The same when the step rule is only known below a bound N: for every n below N the running sum at n is z plus
    the sum of g 0, …, g n. -/
theorem fold_range_below (N : ℕ) (z : M) (g acc : ℕ → M) (h0 : acc 0 = z + g 0)
    (hs : ∀ n, n + 1 < N → acc (n + 1) = acc n + g (n + 1)) (n : ℕ) (hn : n < N) :
    acc n = z + ∑ t ∈ Finset.range (n + 1), g t := by
  induction n with
  | zero => rw [Finset.sum_range_one]; exact h0
  | succ n ih => rw [hs n hn, ih (Nat.lt_of_succ_lt hn), Finset.sum_range_succ _ (n + 1), add_assoc]

/-- A running sum over 20 steps, the step rule known only below 20: at step 19 it is z plus the sum of the 20
    terms. -/
theorem fold_fin20 (z : M) (g acc : ℕ → M) (h0 : acc 0 = z + g 0)
    (hs : ∀ n, n + 1 < 20 → acc (n + 1) = acc n + g (n + 1)) : acc 19 = z + ∑ t : Fin 20, g t.val := by
  rw [fold_range_below 20 z g acc h0 hs 19 (by omega), Finset.sum_range]

end Cert.BlockSums
-- ==== Proof.IdealPoolValue.lean ====
/-
  The pooling region's result, as one function of the arrays the region is entered with.

  The scratch row after point n holds, in column q, the zero word's value plus the column sums of the first n + 1
  blocks of the node matrix: the first point stores zero and adds its block's column sums, every later point adds
  its own to what it finds.  The 20 blocks of 5000 rows are the 100000 rows, so after the last point the scratch is
  the zero word's value plus the sum of every row: the pooled row.  The last point stores, into the one entry of the
  result, (pooled · W₁ + b₁) · W₂ + b₂, and only that point writes the result back.
-/
import proofs.«136399_j53652731461900_1_alg».proof.Proof.IdealPool4
import proofs.«136399_j53652731461900_1_alg».proof.Proof.Payloads
import proofs.«136399_j53652731461900_1_alg».proof.Proof.Spec
import proofs.«136399_j53652731461900_1_alg».proof.Proof.KernelBlocksBase
import proofs.«136399_j53652731461900_1_alg».proof.Proof.LibBlockSums
import Idealize.ShloMosaic.Lib.Pipeline.Value

set_option maxRecDepth 16384

noncomputable section

open scoped BigOperators

namespace Cert.KernelIdeal.PoolVal

open Cert.KernelIdeal Cert.KernelIdeal.Gen Cert.KernelIdeal.Frame
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz : (![0, 0] : Fin 2 → Nat) = fun _ => 0 := Cert.KernelIdeal.Blocks.hz

/-! ## What each case's run leaves, as the body's arithmetic of what it read -/

/-- A middle point leaves, in the scratch, what it found plus the block's column sums. -/
theorem accMid_eq (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : ¬atLast i) (x : Vec Ideal S5000x32 .f32) (s : Vec Ideal S1x32 .f32) :
    accMid (F := Ideal) c i arg1 harg1 arg2 harg2 arg3 harg3 arg4 harg4 arg5 harg5 arg6 harg6 arg7 harg7 hc0 hc1 x s = k4_pay2 s x := by
  unfold accMid
  rw [View.read_writes_eq_canon _ _ _ (coverMid c i arg1 harg1 arg2 harg2 arg3 harg3 arg4 harg4 arg5 harg5 arg6 harg6 arg7 harg7 hc0 hc1 x s)]
  unfold runMid
  dsimp only
  rw [View.canon_unit_zero hz]
  simp only [View.readAt_eq_ld, harg7.read_unread, harg1.read_unread, View.ld_unit_zero (S := S1x32) hz, View.ld_unit_zero (S := S5000x32) hz]

/-- The first point leaves zero plus the block's column sums. -/
theorem accFirst_eq (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : atFirst i) (hc1 : ¬atLast i) (x : Vec Ideal S5000x32 .f32) :
    accFirst (F := Ideal) c i arg1 harg1 arg2 harg2 arg3 harg3 arg4 harg4 arg5 harg5 arg6 harg6 arg7 harg7 hc0 hc1 x = k4_pay2 (k4_pay1 (F := Ideal)) x := by
  unfold accFirst
  rw [View.read_writes_eq_canon _ _ _ (coverFirst c i arg1 harg1 arg2 harg2 arg3 harg3 arg4 harg4 arg5 harg5 arg6 harg6 arg7 harg7 hc0 hc1 x)]
  unfold runFirst
  dsimp only
  rw [View.canon_cons_unit_zero hz]
  sl_unfold_run_names
  rw [View.readCov_unit_zero _ hz]
  simp only [View.readAt_eq_ld, harg1.read_unread, View.ld_unit_zero (S := S5000x32) hz]

/-- The last point leaves, in the scratch, what a middle point would, -/
theorem accLast_eq (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i) (x : Vec Ideal S5000x32 .f32) (w1 : Vec Ideal S32x24 .f32) (b1 : Vec Ideal S1x24 .f32) (w2 : Vec Ideal S24x1 .f32) (b2 : Vec Ideal S1x1 .f32) (s : Vec Ideal S1x32 .f32) :
    accLast (F := Ideal) c i arg1 harg1 arg2 harg2 arg3 harg3 arg4 harg4 arg5 harg5 arg6 harg6 arg7 harg7 hc0 hc1 x w1 b1 w2 b2 s = k4_pay2 s x := by
  unfold accLast
  rw [View.read_writes_eq_canon _ _ _ (coverLastS c i arg1 harg1 arg2 harg2 arg3 harg3 arg4 harg4 arg5 harg5 arg6 harg6 arg7 harg7 hc0 hc1 x w1 b1 w2 b2 s)]
  unfold runLast
  dsimp only
  sl_unfold_run_names
  rw [View.canon_unit_zero hz]
  simp only [View.readAt_eq_ld, harg7.read_unread, harg1.read_unread, View.ld_unit_zero (S := S1x32) hz, View.ld_unit_zero (S := S5000x32) hz]

/-- and, in the result's buffer, the two dense layers applied to the scratch it has just updated. -/
theorem resLast_eq (c : Dev nD) (i : grid4.Coords) (arg1 : Memref sig .tc .vmem S5000x32 .f32) (harg1 : arg1.IsWhole) (arg2 : Memref sig .tc .vmem S32x24 .f32) (harg2 : arg2.IsWhole) (arg3 : Memref sig .tc .vmem S1x24 .f32) (harg3 : arg3.IsWhole) (arg4 : Memref sig .tc .vmem S24x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x32 .f32) (harg7 : arg7.IsWhole) (hc0 : ¬atFirst i) (hc1 : atLast i) (x : Vec Ideal S5000x32 .f32) (w1 : Vec Ideal S32x24 .f32) (b1 : Vec Ideal S1x24 .f32) (w2 : Vec Ideal S24x1 .f32) (b2 : Vec Ideal S1x1 .f32) (s : Vec Ideal S1x32 .f32) :
    resLast (F := Ideal) c i arg1 harg1 arg2 harg2 arg3 harg3 arg4 harg4 arg5 harg5 arg6 harg6 arg7 harg7 hc0 hc1 x w1 b1 w2 b2 s = k4_pay3 (k4_pay2 s x) w1 b1 w2 b2 := by
  unfold resLast
  rw [View.read_writes_eq_canon _ _ _ (coverLastO c i arg1 harg1 arg2 harg2 arg3 harg3 arg4 harg4 arg5 harg5 arg6 harg6 arg7 harg7 hc0 hc1 x w1 b1 w2 b2 s)]
  unfold runLast
  dsimp only
  rw [View.canon_unit_zero hz]
  sl_unfold_run_names
  rw [View.readCov_unit_zero _ hz]
  simp only [View.readAt_eq_ld, harg7.read_unread, harg1.read_unread, harg2.read_unread, harg3.read_unread, harg4.read_unread, harg5.read_unread,
    View.ld_unit_zero (S := S1x32) hz, View.ld_unit_zero (S := S5000x32) hz, View.ld_unit_zero (S := S32x24) hz, View.ld_unit_zero (S := S1x24) hz,
    View.ld_unit_zero (S := S24x1) hz, View.ld_unit_zero (S := S1x1) hz]

/-! ## The windows' blocks -/

variable (V : (c : Dev nD) → (b : Ref sig .tc) → Buf (Elt Ideal) ((c : Thread nD τ).loc b))

/-- The block indices at point t: the node matrix's window is at row block t, every other window at its one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 ∧ True :=
  (by decide +kernel : ∀ t : Fin grid4.N, _)

/-- The node matrix's block at point t: entry (p, q) is the matrix at row 5000·t + p. -/
theorem blk4_0_apply (c : Dev nD) (t : Fin cfg4.N) (p : Fin 5000) (q : Fin 32) (i : S100000x32.Idx)
    (h0 : (i 0).val = 5000 * t.val + p.val) (h1 : (i 1).val = q.val) :
    (blk4 V c 0 t : Vec Ideal S5000x32 .f32) (ix2 p q) = (V c main_v31 : S100000x32.Idx → EReal) i := by
  obtain ⟨e00, e01, -⟩ := idx_facts4 t
  unfold blk4
  rw [View.read_apply]
  show V c main_v31 _ = V c main_v31 i
  refine congrArg (V c main_v31) ?_
  funext a; apply Fin.ext
  match a with
  | ⟨0, _⟩ => show win4_0.index t 0 * 5000 + 1 * p.val = (i 0).val; omega
  | ⟨1, _⟩ => show win4_0.index t 1 * 32 + 1 * q.val = (i 1).val; omega

/-- Window 1's block is its whole array at every point. -/
theorem blk4_1_eq (c : Dev nD) (t : Fin cfg4.N) : (blk4 V c 1 t : Vec Ideal S32x24 .f32) = (V c main_arg10 : S32x24.Idx → EReal) := by
  obtain ⟨-, -, e0, e1, -⟩ := idx_facts4 t
  funext j
  unfold blk4
  rw [View.read_apply]
  show V c main_arg10 _ = V c main_arg10 j
  refine congrArg (V c main_arg10) ?_
  funext a; apply Fin.ext
  match a with
  | ⟨0, _⟩ => show win4_1.index t 0 * 32 + 1 * (j 0).val = (j 0).val; omega
  | ⟨1, _⟩ => show win4_1.index t 1 * 24 + 1 * (j 1).val = (j 1).val; omega

/-- Window 2's block is its whole array at every point. -/
theorem blk4_2_eq (c : Dev nD) (t : Fin cfg4.N) : (blk4 V c 2 t : Vec Ideal S1x24 .f32) = (V c main_v32 : S1x24.Idx → EReal) := by
  obtain ⟨-, -, -, -, e0, e1, -⟩ := idx_facts4 t
  funext j
  unfold blk4
  rw [View.read_apply]
  show V c main_v32 _ = V c main_v32 j
  refine congrArg (V c main_v32) ?_
  funext a; apply Fin.ext
  match a with
  | ⟨0, _⟩ => show win4_2.index t 0 * 1 + 1 * (j 0).val = (j 0).val; omega
  | ⟨1, _⟩ => show win4_2.index t 1 * 24 + 1 * (j 1).val = (j 1).val; omega

/-- Window 3's block is its whole array at every point. -/
theorem blk4_3_eq (c : Dev nD) (t : Fin cfg4.N) : (blk4 V c 3 t : Vec Ideal S24x1 .f32) = (V c main_arg12 : S24x1.Idx → EReal) := by
  obtain ⟨-, -, -, -, -, -, e0, e1, -⟩ := idx_facts4 t
  funext j
  unfold blk4
  rw [View.read_apply]
  show V c main_arg12 _ = V c main_arg12 j
  refine congrArg (V c main_arg12) ?_
  funext a; apply Fin.ext
  match a with
  | ⟨0, _⟩ => show win4_3.index t 0 * 24 + 1 * (j 0).val = (j 0).val; omega
  | ⟨1, _⟩ => show win4_3.index t 1 * 1 + 1 * (j 1).val = (j 1).val; omega

/-- Window 4's block is its whole array at every point. -/
theorem blk4_4_eq (c : Dev nD) (t : Fin cfg4.N) : (blk4 V c 4 t : Vec Ideal S1x1 .f32) = (V c main_v33 : S1x1.Idx → EReal) := by
  obtain ⟨-, -, -, -, -, -, -, -, e0, e1, -⟩ := idx_facts4 t
  funext j
  unfold blk4
  rw [View.read_apply]
  show V c main_v33 _ = V c main_v33 j
  refine congrArg (V c main_v33) ?_
  funext a; apply Fin.ext
  match a with
  | ⟨0, _⟩ => show win4_4.index t 0 * 1 + 1 * (j 0).val = (j 0).val; omega
  | ⟨1, _⟩ => show win4_4.index t 1 * 1 + 1 * (j 1).val = (j 1).val; omega

/-! ## The scratch row, in closed form -/

/-- The node matrix the region is entered with. -/
abbrev nodes (c : Dev nD) : Spec.Mat 100000 32 := V c main_v31

/-- Column q's sum over block t of the node matrix (zero past the grid). -/
def blockSum (c : Dev nD) (q : Fin 32) (t : ℕ) : EReal :=
  if h : t < 20 then ∑ r : Fin 5000, nodes V c (ix2 (⟨5000 * t + r.val, by omega⟩ : Fin 100000) q) else 0

/-- The column sums of the block the body reads at point t. -/
theorem colsum_blk (c : Dev nD) (t : Fin cfg4.N) (q : Fin 32) (x : Vec Ideal S5000x32 .f32) (hx : x = blk4 V c 0 t) :
    ∑ r : Fin 5000, x (ix2 r q) = blockSum V c q t.val := by
  have hN : t.val < 20 := lt_of_lt_of_eq t.isLt (show cfg4.N = 20 from N_4)
  subst hx
  unfold blockSum
  rw [dif_pos hN]
  exact Finset.sum_congr rfl fun r _ =>
    blk4_0_apply V c t r q (ix2 (⟨5000 * t.val + r.val, by have := r.isLt; omega⟩ : Fin 100000) q) rfl rfl

/-- After point n the scratch holds, in column q, the zero word's value plus the column sums of blocks 0 … n. -/
theorem accAt_entry (c : Dev nD) (q : Fin 32) : ∀ (n : ℕ) (hn : n < cfg4.N),
    (accAt V c n hn : Vec Ideal S1x32 .f32) (ix2 0 q) = Ideal.ofBits .f32 0x00000000#32 + ∑ t ∈ Finset.range (n + 1), blockSum V c q t
  | 0, hn => by
    rw [accAt_first V c ⟨0, hn⟩ (Nat.zero_mod _) (by show ¬(0 : ℕ) % 20 = 19; decide), accFirst_eq, Payloads.k4_pay2_apply, Payloads.k4_pay1_apply,
      colsum_blk V c ⟨0, hn⟩ q _ rfl, Finset.sum_range_one]
  | n + 1, hn => by
    have hN : n + 1 < 20 := lt_of_lt_of_eq hn (show cfg4.N = 20 from N_4)
    have h0 : ¬(n + 1) % 20 = 0 := by omega
    have ih := accAt_entry c q n (Nat.lt_of_succ_lt hn)
    have hstep : (accAt V c (n + 1) hn : Vec Ideal S1x32 .f32) = k4_pay2 (accAt V c n (Nat.lt_of_succ_lt hn)) (blk4 V c 0 ⟨n + 1, hn⟩) := by
      by_cases hl : (n + 1) % 20 = 19
      · exact (accAt_last V c ⟨n + 1, hn⟩ h0 hl).trans (accLast_eq _ _ (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) _ _ _ _ _ _ _ _)
      · exact (accAt_mid V c ⟨n + 1, hn⟩ h0 hl).trans (accMid_eq _ _ (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scratchM (Memref.isWhole_whole _) _ _ _ _)
    rw [hstep, Payloads.k4_pay2_apply, ih, colsum_blk V c ⟨n + 1, hn⟩ q _ rfl, Finset.sum_range_succ _ (n + 1), add_assoc]

/-- After the last point the scratch is the pooled row: the zero word's value plus the sum over all 100000 rows. -/
theorem accAt_pooled (c : Dev nD) (t : Fin cfg4.N) (ht : t.val = 19) (q : Fin 32) :
    (accAt V c t.val t.isLt : Vec Ideal S1x32 .f32) (ix2 0 q) = Spec.pool (nodes V c) (ix2 0 q) := by
  rw [accAt_entry V c q t.val t.isLt, ht, Finset.sum_range (fun t => blockSum V c q t)]
  show _ = Ideal.ofBits .f32 0x00000000#32 + ∑ r : Fin 100000, nodes V c (ix2 r q)
  rw [Cert.BlockSums.sum_blocks (fun R : Fin 100000 => nodes V c (ix2 R q))]
  refine congrArg (_ + ·) (Finset.sum_congr rfl fun t _ => ?_)
  unfold blockSum
  rw [dif_pos t.isLt]

/-! ## The result array -/

/-- An index of the result is in point t's block iff each coordinate is in the block's range. -/
theorem mem_blk4_5 (t : Fin cfg4.N) (i : S1x1.Idx) :
    i ∈ ((cfg4.win 5).blk t).view.set ↔ ∀ a : Fin 2, win4_5.index t a * S1x1.size a ≤ (i a).val ∧ (i a).val < win4_5.index t a * S1x1.size a + S1x1.size a := by
  show i ∈ ((View.whole main_v34).slice (win4_5.rect t)).set ↔ _
  rw [View.set_slice_whole, Rect.mem_set_unit]
  exact Iff.rfl

/-- The result's one entry is in the last point's block, which is written back. -/
theorem cover4_5 (i : S1x1.Idx) : ∃ t : Fin cfg4.N, (cfg4.win 5).flush t = true ∧ i ∈ ((cfg4.win 5).blk t).view.set := by
  have hN : cfg4.N = 20 := N_4
  obtain ⟨t, ht⟩ : ∃ t : Fin cfg4.N, t.val = 19 := ⟨⟨19, by rw [hN]; omega⟩, rfl⟩
  obtain ⟨-, -, -, -, -, -, -, -, -, -, e50, e51, -⟩ := idx_facts4 t
  refine ⟨t, (flush4_5 t).mpr (by omega), ?_⟩
  rw [mem_blk4_5]
  intro a
  match a with
  | ⟨0, _⟩ => have hlt : (i 0).val < 1 := (i 0).isLt; show win4_5.index t 0 * 1 ≤ (i 0).val ∧ (i 0).val < win4_5.index t 0 * 1 + 1; omega
  | ⟨1, _⟩ => have hlt : (i 1).val < 1 := (i 1).isLt; show win4_5.index t 1 * 1 ≤ (i 1).val ∧ (i 1).val < win4_5.index t 1 * 1 + 1; omega

/-- The one entry of the result, from the arrays the region is entered with: the two dense layers applied to the
    pooled row, the biases given as the rows b1, b2 that the one-row matrices the region reads lay out. -/
theorem pool_final (c : Dev nD) (b1 : Spec.Row 24) (b2 : Spec.Row 1)
    (hb1 : ∀ j : Fin 24, (V c main_v32 : S1x24.Idx → EReal) (ix2 0 j) = b1 (ix1 j))
    (hb2 : (V c main_v33 : S1x1.Idx → EReal) (ix2 0 0) = b2 (ix1 0)) :
    (dat4 (F := Ideal) V c).arrAt 5 cfg4.N
      = Spec.affine (Spec.affine (Spec.pool (nodes V c)) (V c main_arg10) b1) (V c main_arg12) b2 := by
  refine (dat4 V c).arrAt_eq_of_cover 5 _ (fun t hf => ?_) cover4_5
  -- the one flushing point is the last: what it stores is the function's one entry
  have hl : t.val % 20 = 19 := (flush4_5 t).mp hf
  have hN : t.val < 20 := lt_of_lt_of_eq t.isLt (show cfg4.N = 20 from N_4)
  have h0 : ¬t.val % 20 = 0 := by omega
  have ht : t.val = 19 := by omega
  show (cfg4.win 5).cut (grid4.coords t) ((dat4 V c).after 5 t) = _
  rw [after4_5, resAt_last V c t h0 hl, resLast_eq]
  rw [← accLast_eq c (grid4.coords t) (ms4_0 t) (hs4_0 t) (ms4_1 t) (hs4_1 t) (ms4_2 t) (hs4_2 t) (ms4_3 t) (hs4_3 t) (ms4_4 t) (hs4_4 t) (ms4_5 t) (hs4_5 t) scratchM (Memref.isWhole_whole _) (fun h => h0 ((atFirst_iff t).mp h)) ((atLast_iff t).mpr hl)
    (blk4 V c 0 t) (blk4 V c 1 t) (blk4 V c 2 t) (blk4 V c 3 t) (blk4 V c 4 t) (accBefore V c t), ← accAt_last V c t h0 hl]
  rw [blk4_1_eq, blk4_2_eq, blk4_3_eq, blk4_4_eq]
  funext j
  have hj : (win4 5).xinj (grid4.coords t) j = ix2 0 0 := funext fun a => Fin.ext (by
    match a with
    | ⟨0, _⟩ => have hlt : (j 0).val < 1 := (j 0).isLt; show (j 0).val = 0; omega
    | ⟨1, _⟩ => have hlt : (j 1).val < 1 := (j 1).isLt; show (j 1).val = 0; omega)
  refine (congrArg (k4_pay3 (accAt V c t.val t.isLt) (V c main_arg10) (V c main_v32) (V c main_arg12) (V c main_v33)) hj).trans ?_
  refine (Payloads.k4_pay3_apply _ _ _ _ _).trans ?_
  rw [View.read_apply]
  have hemb : (((cfg4.win 5).blk t).view.emb j) = ix2 0 0 := funext fun a => Fin.ext (by
    match a with
    | ⟨0, _⟩ => have hlt : ((((cfg4.win 5).blk t).view.emb j) 0).val < 1 := ((((cfg4.win 5).blk t).view.emb j) 0).isLt; show ((((cfg4.win 5).blk t).view.emb j) 0).val = 0; omega
    | ⟨1, _⟩ => have hlt : ((((cfg4.win 5).blk t).view.emb j) 1).val < 1 := ((((cfg4.win 5).blk t).view.emb j) 1).isLt; show ((((cfg4.win 5).blk t).view.emb j) 1).val = 0; omega)
  rw [hemb, hb2]
  show _ = (∑ k : Fin 24, ((∑ c' : Fin 32, Spec.pool (nodes V c) (ix2 0 c') * (V c main_arg10 : Spec.Mat 32 24) (ix2 c' k)) + b1 (ix1 k)) * (V c main_arg12 : Spec.Mat 24 1) (ix2 k 0)) + b2 (ix1 0)
  refine congrArg (· + _) (Finset.sum_congr rfl fun k _ => ?_)
  rw [hb1 k]
  refine congrArg (fun z => (z + b1 (ix1 k)) * _) (Finset.sum_congr rfl fun c' _ => ?_)
  rw [accAt_pooled V c t ht c']

end Cert.KernelIdeal.PoolVal

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.IdealValue.lean ====
/-
  The idealized kernel's result is the specification's function of its arguments.

  Reading the run's last boundary back to the launch memory, region by region: the first projection region leaves
  X·K₁ and X·K₂ + b; the host applies the sparse step S to the first; the combine region leaves the entrywise
  maximum of S(X·K₁) + (X·K₂ + b) with zero, which is the layer relu((S(X·K₁) + X·K₂) + b) because addition of
  extended reals is associative; the same again for the second layer; the pooling region leaves the two dense
  layers applied to the sum of the second layer's rows.  No argument array is written on the way, so every array a
  region reads that is an argument holds its launch contents.
-/
import proofs.«136399_j53652731461900_1_alg».proof.Proof.IdealRun
import proofs.«136399_j53652731461900_1_alg».proof.Proof.IdealHost
import proofs.«136399_j53652731461900_1_alg».proof.Proof.KernelBlocks
import proofs.«136399_j53652731461900_1_alg».proof.Proof.IdealPoolValue
import proofs.«136399_j53652731461900_1_alg».proof.Proof.Spec
import proofs.«136399_j53652731461900_1_alg».proof.Proof.LibLayoutReads

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- A sum clamped at zero, with the second summand a matrix plus a row added to every row, is the layer: the row
    moves across the sum by associativity. -/
theorem layer_of_clamp {n k : Nat} (S : Spec.Mat n 32 → Spec.Mat n 32) (X : Spec.Mat n k) (K1 K2 : Spec.Mat k 32)
    (B : Spec.Mat 1 32) (b : Spec.Row 32) (hB : ∀ j : Fin 32, B (ix2 0 j) = b (ix1 j)) :
    Blocks.clampSum (S (Spec.mm X K1)) (Spec.ofEntries fun a j => Spec.mm X K2 (ix2 a j) + B (ix2 0 j)) = Spec.layer S X K1 K2 b :=
  Spec.ext_entries fun a j => by
    rw [Blocks.clampSum_apply, Spec.ofEntries_apply, hB j]
    show _ = max ((S (Spec.mm X K1) (ix2 a j) + Spec.mm X K2 (ix2 a j)) + b (ix1 j)) _
    rw [add_assoc]

variable (m : (ℓ : Loc nD τ sig) → Buf (Elt Ideal) ℓ) (ρ : Dev nD → PrngReg) (c : Dev nD)

/-- An argument array's launch contents on core c. -/
abbrev arg (r : Ref sig .tc) : Buf (Elt Ideal) ((c : Thread nD τ).loc r) := m ((c : Thread nD τ).loc r)

/-- The sparse step with the launch's edge sources, targets and weights. -/
abbrev S : Spec.Mat 100000 32 → Spec.Mat 100000 32 :=
  HostVal.sparseK (F := Ideal) (arg m c main_arg1) (arg m c main_arg2) (arg m c main_arg3)

/-- The first layer's result. -/
abbrev X1 : Spec.Mat 100000 32 := Spec.layer (S m c) (arg m c main_arg0) (arg m c main_arg4) (arg m c main_arg5) (arg m c main_arg6)
/-- The second layer's result. -/
abbrev X2 : Spec.Mat 100000 32 := Spec.layer (S m c) (X1 m c) (arg m c main_arg7) (arg m c main_arg8) (arg m c main_arg9)

/-! ## The first layer -/

theorem first_proj : (Bd2 m ρ c (Proc.devRef .tc main_v1_0) : Spec.Mat 100000 32) = Spec.mm (arg m c main_arg0) (arg m c main_arg4) := by
  refine (Bd2_arr m ρ c 4).trans ((Blocks.proj0_first (En1 m ρ) c).trans ?_)
  rw [show En1 m ρ c main_arg0 = arg m c main_arg0 from kept1 m ρ c main_arg0 (by decide),
    show En1 m ρ c main_arg4 = arg m c main_arg4 from kept1 m ρ c main_arg4 (by decide)]

theorem first_shift : (Bd2 m ρ c (Proc.devRef .tc main_v1_1) : Spec.Mat 100000 32)
    = Spec.ofEntries fun a j => Spec.mm (arg m c main_arg0) (arg m c main_arg5) (ix2 a j) + (En1 m ρ c main_v0 : S1x32.Idx → EReal) (ix2 0 j) := by
  refine (Bd2_arr m ρ c 5).trans ((Blocks.proj0_second (En1 m ρ) c).trans ?_)
  rw [show En1 m ρ c main_arg0 = arg m c main_arg0 from kept1 m ρ c main_arg0 (by decide),
    show En1 m ρ c main_arg5 = arg m c main_arg5 from kept1 m ρ c main_arg5 (by decide)]

theorem bias_a_entry (j : Fin 32) : (En1 m ρ c main_v0 : S1x32.Idx → EReal) (ix2 0 j) = (arg m c main_arg6 : S32.Idx → EReal) (ix1 j) :=
  (congrFun (HostVal.bias_a (F := Ideal) (Bd0 m ρ c)) (ix2 0 j)).trans (LayoutReads.row_of_vec_apply _ _ j)

theorem agg_a_eq : (En3 m ρ c main_v14 : Spec.Mat 100000 32) = S m c (Spec.mm (arg m c main_arg0) (arg m c main_arg4)) := by
  refine (HostVal.agg_a (F := Ideal) (Bd2 m ρ c)).trans ?_
  rw [kept2 m ρ c main_arg1 (by decide), kept2 m ρ c main_arg2 (by decide), kept2 m ρ c main_arg3 (by decide), first_proj m ρ c]

theorem keep_shift_a : En3 m ρ c main_v1_1 = Bd2 m ρ c (Proc.devRef .tc main_v1_1) :=
  StableHlo.after_of_writes_sub hostOps1 _ hostOps1_writes (by decide)

theorem layer_a : (Bd4 m ρ c (Proc.devRef .tc main_v15) : Spec.Mat 100000 32) = X1 m c := by
  refine (Bd4_arr m ρ c 2).trans ((Blocks.comb1 (En3 m ρ) c).trans ?_)
  rw [agg_a_eq m ρ c, show En3 m ρ c main_v1_1 = _ from keep_shift_a m ρ c, first_shift m ρ c]
  exact layer_of_clamp _ _ _ _ _ _ (bias_a_entry m ρ c)

/-! ## The second layer -/

theorem keep_x1 : En5 m ρ c main_v15 = Bd4 m ρ c (Proc.devRef .tc main_v15) :=
  StableHlo.after_of_writes_sub hostOps2 _ hostOps2_writes (by decide)

theorem second_proj : (Bd6 m ρ c (Proc.devRef .tc main_v17_0) : Spec.Mat 100000 32) = Spec.mm (X1 m c) (arg m c main_arg7) := by
  refine (Bd6_arr m ρ c 4).trans ((Blocks.proj2_first (En5 m ρ) c).trans ?_)
  rw [show En5 m ρ c main_v15 = _ from keep_x1 m ρ c, layer_a m ρ c,
    show En5 m ρ c main_arg7 = arg m c main_arg7 from kept5 m ρ c main_arg7 (by decide)]

theorem second_shift : (Bd6 m ρ c (Proc.devRef .tc main_v17_1) : Spec.Mat 100000 32)
    = Spec.ofEntries fun a j => Spec.mm (X1 m c) (arg m c main_arg8) (ix2 a j) + (En5 m ρ c main_v16 : S1x32.Idx → EReal) (ix2 0 j) := by
  refine (Bd6_arr m ρ c 5).trans ((Blocks.proj2_second (En5 m ρ) c).trans ?_)
  rw [show En5 m ρ c main_v15 = _ from keep_x1 m ρ c, layer_a m ρ c,
    show En5 m ρ c main_arg8 = arg m c main_arg8 from kept5 m ρ c main_arg8 (by decide)]

theorem bias_b_entry (j : Fin 32) : (En5 m ρ c main_v16 : S1x32.Idx → EReal) (ix2 0 j) = (arg m c main_arg9 : S32.Idx → EReal) (ix1 j) :=
  (congrFun (HostVal.bias_b (F := Ideal) (Bd4 m ρ c)) (ix2 0 j)).trans
    ((LayoutReads.row_of_vec_apply _ _ j).trans (congrFun (kept4 m ρ c main_arg9 (by decide)) (ix1 j)))

theorem agg_b_eq : (En7 m ρ c main_v30 : Spec.Mat 100000 32) = S m c (Spec.mm (X1 m c) (arg m c main_arg7)) := by
  refine (HostVal.agg_b (F := Ideal) (Bd6 m ρ c)).trans ?_
  rw [kept6 m ρ c main_arg1 (by decide), kept6 m ρ c main_arg2 (by decide), kept6 m ρ c main_arg3 (by decide), second_proj m ρ c]

theorem keep_shift_b : En7 m ρ c main_v17_1 = Bd6 m ρ c (Proc.devRef .tc main_v17_1) :=
  StableHlo.after_of_writes_sub hostOps3 _ hostOps3_writes (by decide)

theorem layer_b : (Bd8 m ρ c (Proc.devRef .tc main_v31) : Spec.Mat 100000 32) = X2 m c := by
  refine (Bd8_arr m ρ c 2).trans ((Blocks.comb3 (En7 m ρ) c).trans ?_)
  rw [agg_b_eq m ρ c, show En7 m ρ c main_v17_1 = _ from keep_shift_b m ρ c, second_shift m ρ c]
  exact layer_of_clamp _ _ _ _ _ _ (bias_b_entry m ρ c)

/-! ## The pooled head -/

theorem keep_x2 : En9 m ρ c main_v31 = Bd8 m ρ c (Proc.devRef .tc main_v31) :=
  StableHlo.after_of_writes_sub hostOps4 _ hostOps4_writes (by decide)

theorem bias_d1_entry (j : Fin 24) : (En9 m ρ c main_v32 : S1x24.Idx → EReal) (ix2 0 j) = (arg m c main_arg11 : S24.Idx → EReal) (ix1 j) :=
  (congrFun (HostVal.bias_d1 (F := Ideal) (Bd8 m ρ c)) (ix2 0 j)).trans
    ((LayoutReads.row_of_vec_apply _ _ j).trans (congrFun (kept8 m ρ c main_arg11 (by decide)) (ix1 j)))

theorem bias_d2_entry : (En9 m ρ c main_v33 : S1x1.Idx → EReal) (ix2 0 0) = (arg m c main_arg13 : S1.Idx → EReal) (ix1 0) :=
  (congrFun (HostVal.bias_d2 (F := Ideal) (Bd8 m ρ c)) (ix2 0 0)).trans
    ((LayoutReads.row_of_vec_apply _ _ 0).trans (congrFun (kept8 m ρ c main_arg13 (by decide)) (ix1 0)))

/-- The result array after the run: the specification's function of the launch contents of the arguments. -/
theorem result_eq : (Bd10 m ρ c (Proc.devRef .tc main_v34) : Spec.Mat 1 1)
    = Spec.out (S m c) (arg m c main_arg0) (arg m c main_arg4) (arg m c main_arg5) (arg m c main_arg6) (arg m c main_arg7) (arg m c main_arg8)
        (arg m c main_arg9) (arg m c main_arg10) (arg m c main_arg11) (arg m c main_arg12) (arg m c main_arg13) := by
  refine (Bd10_arr m ρ c 5).trans ((PoolVal.pool_final (En9 m ρ) c (arg m c main_arg11) (arg m c main_arg13)
    (bias_d1_entry m ρ c) (bias_d2_entry m ρ c)).trans ?_)
  rw [show PoolVal.nodes (En9 m ρ) c = X2 m c from (keep_x2 m ρ c).trans (layer_b m ρ c),
    show En9 m ρ c main_arg10 = arg m c main_arg10 from kept9 m ρ c main_arg10 (by decide),
    show En9 m ρ c main_arg12 = arg m c main_arg12 from kept9 m ρ c main_arg12 (by decide)]
  rfl

/-! ## The run, with the result named -/

/-- Every weakly fair execution of the idealized kernel terminates, nothing faulting, with the result array at the
    specification's function of the arguments' launch contents and every argument array as launched. -/
theorem run_named : θ_run defs (onTc (τ := τ) (main (F := Ideal))) ⟨m, fun _ => 0, ρ⟩ (fun r => ∀ c : Dev nD,
      r.2.mem ((c.tc : Thread nD τ).loc main_v34)
        = Spec.out (S m c) (arg m c main_arg0) (arg m c main_arg4) (arg m c main_arg5) (arg m c main_arg6) (arg m c main_arg7) (arg m c main_arg8)
            (arg m c main_arg9) (arg m c main_arg10) (arg m c main_arg11) (arg m c main_arg12) (arg m c main_arg13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c) _ (mem_uc main_v34 (by decide))).trans (result_eq m ρ c),
    arg_kept m ρ c main_arg0 (by decide) (by decide) r.2 (h c),
    arg_kept m ρ c main_arg1 (by decide) (by decide) r.2 (h c),
    arg_kept m ρ c main_arg2 (by decide) (by decide) r.2 (h c),
    arg_kept m ρ c main_arg3 (by decide) (by decide) r.2 (h c),
    arg_kept m ρ c main_arg4 (by decide) (by decide) r.2 (h c),
    arg_kept m ρ c main_arg5 (by decide) (by decide) r.2 (h c),
    arg_kept m ρ c main_arg6 (by decide) (by decide) r.2 (h c),
    arg_kept m ρ c main_arg7 (by decide) (by decide) r.2 (h c),
    arg_kept m ρ c main_arg8 (by decide) (by decide) r.2 (h c),
    arg_kept m ρ c main_arg9 (by decide) (by decide) r.2 (h c),
    arg_kept m ρ c main_arg10 (by decide) (by decide) r.2 (h c),
    arg_kept m ρ c main_arg11 (by decide) (by decide) r.2 (h c),
    arg_kept m ρ c main_arg12 (by decide) (by decide) r.2 (h c),
    arg_kept m ρ c main_arg13 (by decide) (by decide) r.2 (h c)⟩) (run_all m ρ)

end Cert.KernelIdeal.Val

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.RefValue.lean ====
/-
  The reference program's result is the specification's function of its arguments.

  The reference applies, twice, "project, pass through the sparse neighbourhood step, add a second projection and
  the bias row, clamp below at zero", then sums the rows and applies two affine maps.  Each host operation is read
  entry by entry over the extended reals: a matrix product is the sum over the contracted coordinate, a vector laid
  out as one row and repeated down the rows reads the vector at the column, a rank-zero word repeated everywhere
  reads the word's value, and the sum over axis 0 is the initial value plus the sum down the column.  The sparse
  step (the edge sources made non-negative, the rows they name gathered, each scaled by its edge weight and added
  into the rows the edge targets name) is kept as one function of the matrix it is applied to and never opened:
  both layers apply the same one.
-/
import proofs.«136399_j53652731461900_1_alg».proof.Proof.Gen.ReferenceIdeal.Read
import proofs.«136399_j53652731461900_1_alg».proof.Proof.Spec
import proofs.«136399_j53652731461900_1_alg».proof.Proof.LibPlainProduct
import proofs.«136399_j53652731461900_1_alg».proof.Proof.LibPlainOps
import proofs.«136399_j53652731461900_1_alg».proof.Proof.LibHostRead

noncomputable section

open scoped BigOperators

namespace Cert.RefValue

open Cert.ReferenceIdeal Cert.ReferenceIdeal.Gen Idealize.ShloMosaic Idealize.ShloMosaic.ValueIdx

/-! ## The sparse neighbourhood step, as one function of the matrix it acts on -/

/-- Gather the rows named by the edge sources (a negative source counted from the end), scale each by its edge
    weight, and add them into the rows named by the edge targets of the zero matrix. -/
def sparse (src dst : Vec Ideal S3200000 .i32) (w : Vec Ideal S3200000 .f32) (h : Spec.Mat 100000 32) : Spec.Mat 100000 32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (mulf
      (Host.gather gather_S100000x32_S3200000x1_S3200000x32_1_0_n_n_0_1_132 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x32 ![0, 1] bcast_S3200000x1_S3200000x32_0_1
        (broadcastInDim S3200000x1 ![0] bcast_S3200000_S3200000x1_0 w)))

/-- The reference's own chain of operations is the sparse step (by definition). -/
theorem sparse_fold (src dst : Vec Ideal S3200000 .i32) (w : Vec Ideal S3200000 .f32) (h : Spec.Mat 100000 32) :
    Host.scatterAdd scatter_S100000x32_S3200000x1_S3200000x32_1_0_0_1
      (broadcastInDim S100000x32 ![] bcast_S_S100000x32 (constant (F := Ideal) S_ .f32 0x00000000#32))
      (broadcastInDim S3200000x1 ![0] bcast_S3200000_S3200000x1_0 dst)
      (mulf
        (Host.gather gather_S100000x32_S3200000x1_S3200000x32_1_0_n_n_0_1_132 h
          (broadcastInDim S3200000x1 ![0] bcast_S3200000_S3200000x1_0
            (select (cmpi .slt src (broadcastInDim S3200000 ![] bcast_S_S3200000 (constantI S_ 32 0#32)))
              (addi src (broadcastInDim S3200000 ![] bcast_S_S3200000 (constantI S_ 32 100000#32))) src)))
        (broadcastInDim S3200000x32 ![0, 1] bcast_S3200000x1_S3200000x32_0_1
          (broadcastInDim S3200000x1 ![0] bcast_S3200000_S3200000x1_0 w)))
    = sparse src dst w h := rfl

/-! ## The four matrix products -/

/-- The first layer's projections: X·K for a 128-column X. -/
theorem dot_in_eq (X : Spec.Mat 100000 128) (K : Spec.Mat 128 32) :
    Host.dotGeneral dot_S100000x128_S128x32_S100000x32_1_0_0_1_n_n none X K = Spec.mm X K :=
  Spec.ext_entries fun a b =>
    PlainProduct.dotGeneral_apply dot_S100000x128_S128x32_S100000x32_1_0_0_1_n_n.wf none X K a b

/-- The second layer's projections: X·K for a 32-column X. -/
theorem dot_hid_eq (X : Spec.Mat 100000 32) (K : Spec.Mat 32 32) :
    Host.dotGeneral dot_S100000x32_S32x32_S100000x32_1_0_0_1_n_n none X K = Spec.mm X K :=
  Spec.ext_entries fun a b =>
    PlainProduct.dotGeneral_apply dot_S100000x32_S32x32_S100000x32_1_0_0_1_n_n.wf none X K a b

/-- The first dense map's product: the pooled row times a 32×24 matrix. -/
theorem dot_d1_eq (P : Spec.Mat 1 32) (W : Spec.Mat 32 24) :
    Host.dotGeneral dot_S1x32_S32x24_S1x24_1_0_0_1_n_n none P W = Spec.mm P W :=
  Spec.ext_entries fun a b =>
    PlainProduct.dotGeneral_apply dot_S1x32_S32x24_S1x24_1_0_0_1_n_n.wf none P W a b

/-- The second dense map's product: a row of 24 times a 24×1 matrix. -/
theorem dot_d2_eq (P : Spec.Mat 1 24) (W : Spec.Mat 24 1) :
    Host.dotGeneral dot_S1x24_S24x1_S1x1_1_0_0_1_n_n none P W = Spec.mm P W :=
  Spec.ext_entries fun a b =>
    PlainProduct.dotGeneral_apply dot_S1x24_S24x1_S1x1_1_0_0_1_n_n.wf none P W a b

/-! ## A layer, the sum over the nodes, an affine map -/

/-- One layer: the sparse step of the first projection, plus the second projection, plus the bias (a vector laid
    out as one row and repeated down the rows), clamped below at the zero word (repeated everywhere). -/
theorem layer_eq {k : Nat} (S : Spec.Mat 100000 32 → Spec.Mat 100000 32) (X : Spec.Mat 100000 k) (K1 K2 : Spec.Mat k 32)
    (b : Spec.Row 32) :
    maximumf
      (addf (addf (S (Spec.mm X K1)) (Spec.mm X K2))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))
    = Spec.layer S X K1 K2 b :=
  Spec.ext_entries fun a j => by
    refine congrArg₂ max (congrArg (S (Spec.mm X K1) (ix2 a j) + Spec.mm X K2 (ix2 a j) + ·) ?_) ?_
    · exact (HostRead.row_rows_apply _ bcast_S1x32_S100000x32_0_1 a j).trans (HostRead.vec_row_apply b bcast_S32_S1x32_1 0 j)
    · exact HostRead.word_apply S100000x32 0x00000000#32 bcast_S_S100000x32 (ix2 a j)

/-- The sum over the nodes from the zero word, laid out as one row. -/
theorem pool_eq (X : Spec.Mat 100000 32) :
    broadcastInDim S1x32 ![1] bcast_S32_S1x32_1
      (Host.reduceAdd (F := Ideal) X (constant (F := Ideal) S_ .f32 0x00000000#32) reducesTo_S100000x32_S32_d0 h_S_)
    = Spec.pool X :=
  Spec.ext_entries fun u j => by
    refine (HostRead.vec_row_apply _ bcast_S32_S1x32_1 u j).trans ?_
    exact KernelIdeal.HeadValue.PlainOps.hostReduceAdd_col X _ reducesTo_S100000x32_S32_d0 h_S_
      ⟨reducesTo_S100000x32_S32_d0.1, Nat.one_pos, reducesTo_S100000x32_S32_d0.2⟩ j

/-- An affine map of a one-row matrix: the product plus the bias vector laid out as one row. -/
theorem affine_eq {k n : Nat} (P : Spec.Mat 1 k) (W : Spec.Mat k n) (b : Spec.Row n)
    (hb : (⟨1, ![n]⟩ : Shape).BroadcastsInDim ⟨2, ![1, n]⟩ ![1]) :
    addf (Spec.mm P W) (broadcastInDim ⟨2, ![1, n]⟩ ![1] hb b) = Spec.affine P W b :=
  Spec.ext_entries fun u j =>
    congrArg (Spec.mm P W (ix2 u j) + ·) (HostRead.vec_row_apply b hb u j)

/-! ## The whole reference -/

/-- The reference's last stage, as a function of the fourteen argument arrays, is the specification's function:
    the sparse step is that of the edge arrays (arguments 1 to 3); the node features are argument 0; the first
    layer's two projections and bias are arguments 4 to 6, the second layer's 7 to 9; the two dense maps'
    matrices and biases are arguments 10 to 13. -/
theorem ref_out (x0 : Vec Ideal S100000x128 .f32) (x1 x2 : Vec Ideal S3200000 .i32) (x3 : Vec Ideal S3200000 .f32)
    (x4 x5 : Vec Ideal S128x32 .f32) (x6 : Vec Ideal S32 .f32) (x7 x8 : Vec Ideal S32x32 .f32) (x9 : Vec Ideal S32 .f32)
    (x10 : Vec Ideal S32x24 .f32) (x11 : Vec Ideal S24 .f32) (x12 : Vec Ideal S24x1 .f32) (x13 : Vec Ideal S1 .f32) :
    Read.val_main_v47 (F := Ideal) x0 x1 x2 x3 x4 x5 x6 x7 x8 x9 x10 x11 x12 x13
      = Spec.out (sparse x1 x2 x3) x0 x4 x5 x6 x7 x8 x9 x10 x11 x12 x13 := by
  simp only [Read.val_main_v0, Read.val_main_c, Read.val_main_v1, Read.val_main_v2, Read.val_main_c_0, Read.val_main_v3, Read.val_main_v4, Read.val_main_v5, Read.val_main_v6, Read.val_main_v7, Read.val_main_v8, Read.val_main_v9, Read.val_main_v10, Read.val_main_cst, Read.val_main_v11, Read.val_main_v12, Read.val_main_v13, Read.val_main_v14, Read.val_main_v15, Read.val_main_v16, Read.val_main_v17, Read.val_main_v18, Read.val_main_call0_cst, Read.val_main_call0_v0, Read.val_main_v19, Read.val_main_v20, Read.val_main_c_1, Read.val_main_v21, Read.val_main_v22, Read.val_main_c_2, Read.val_main_v23, Read.val_main_v24, Read.val_main_v25, Read.val_main_v26, Read.val_main_v27, Read.val_main_v28, Read.val_main_v29, Read.val_main_v30, Read.val_main_cst_3, Read.val_main_v31, Read.val_main_v32, Read.val_main_v33, Read.val_main_v34, Read.val_main_v35, Read.val_main_v36, Read.val_main_v37, Read.val_main_v38, Read.val_main_call1_cst, Read.val_main_call1_v0, Read.val_main_v39, Read.val_main_cst_4, Read.val_main_v40, Read.val_main_v41, Read.val_main_v42, Read.val_main_v43, Read.val_main_v44, Read.val_main_v45, Read.val_main_v46, Read.val_main_v47]
  rw [dot_in_eq x0 x4, dot_in_eq x0 x5, sparse_fold x1 x2 x3 (Spec.mm x0 x4), layer_eq (sparse x1 x2 x3) x0 x4 x5 x6]
  rw [dot_hid_eq _ x7, dot_hid_eq _ x8, sparse_fold x1 x2 x3 (Spec.mm _ x7), layer_eq (sparse x1 x2 x3) _ x7 x8 x9]
  rw [pool_eq, dot_d1_eq, affine_eq _ x10 x11 bcast_S24_S1x24_1, dot_d2_eq, affine_eq _ x12 x13 bcast_S1_S1x1_1]
  rfl

/-- The same for the run's own name of the result: on every device the composed term of the launch contents is the
    specification's function of the launch contents of the arguments. -/
theorem ref_out_run (m : (ℓ : Loc nD τ sig) → Buf (Elt Ideal) ℓ) (c : Dev nD) :
    Cert.ReferenceIdeal.Value.res_main_v47 (F := Ideal) m c
      = Spec.out
          (sparse (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) :=
  (Read.val_main_v47_eq m c).trans (ref_out _ _ _ _ _ _ _ _ _ _ _ _ _ _)

end Cert.RefValue

end
-- ==== Proof.lean ====
/-
  The certificate of a two-layer graph convolution with a summed readout and a two-layer head.

  Both programs compute, from the node features X, the edge sources, targets and weights, and the layers' weights and
  biases,
      X₁ = relu(S(X·K₁ᵃ) + X·K₂ᵃ + bᵃ),   X₂ = relu(S(X₁·K₁ᵇ) + X₁·K₂ᵇ + bᵇ),   ((Σ_rows X₂)·W₁ + b₁)·W₂ + b₂,
  where S gathers the rows named by the edge sources, scales each by its edge weight and adds them into the rows named
  by the edge targets.  The kernel does the dense parts in five tiled regions (two projections, two combines, a
  pooling region that carries the running column sums between grid points) and S on the host between them; the
  reference does everything on the host.  Over the extended reals the two agree because: a tiled matrix product is
  the same sum over the contracted coordinate; S is applied to equal matrices by both; the kernel adds the bias to
  X·K₂ before adding S(X·K₁) where the reference adds it after, and addition is associative; the kernel's block-wise
  running column sum over 20 blocks of 5000 rows is the sum over the 100000 rows, addition being commutative as
  well; the head is the same two affine maps.  No finiteness of the inputs is used.
  Each kernel program's run (it terminates, faults nowhere, keeps its arguments) is built from its five regions'
  runs; the reference's is the run of a straight line of host operations.
-/
import proofs.«136399_j53652731461900_1_alg».proof.Defs
import proofs.«136399_j53652731461900_1_alg».proof.Proof.Gen.Kernel
import proofs.«136399_j53652731461900_1_alg».proof.Proof.Gen.KernelIdeal
import proofs.«136399_j53652731461900_1_alg».proof.Proof.Gen.ReferenceIdeal
import proofs.«136399_j53652731461900_1_alg».proof.Proof.Gen.Pre_finite_inputs
import proofs.«136399_j53652731461900_1_alg».proof.Proof.Gen.ReferenceIdeal.Read
import proofs.«136399_j53652731461900_1_alg».proof.Proof.BitsRun
import proofs.«136399_j53652731461900_1_alg».proof.Proof.IdealValue
import proofs.«136399_j53652731461900_1_alg».proof.Proof.RefValue
import Idealize.ShloMosaic.Adequacy
import Idealize.ShloMosaic.Init

noncomputable section

namespace Cert.Proof

open Idealize.ShloMosaic Idealize.SL.Sem

/-- The two programs apply the same sparse step: the same host operations in the same order, each program's text
    carrying its own copy of the gather's and the scatter's dimension numbers. -/
theorem sparse_same (src dst : Vec Ideal Cert.ReferenceIdeal.S3200000 .i32) (w : Vec Ideal Cert.ReferenceIdeal.S3200000 .f32) (h : Cert.Spec.Mat 100000 32) :
    Cert.KernelIdeal.HostVal.sparseK (F := Ideal) src dst w h = Cert.RefValue.sparse src dst w h := rfl

/-- The word-level kernel runs and keeps its arguments. -/
theorem frame_kernel : Cert.frame_Kernel := fun m ρ _ => Cert.Kernel.Frame.frame m ρ

/-- The idealized kernel runs and keeps its arguments. -/
theorem frame_kernelIdeal : Cert.frame_KernelIdeal := fun m ρ _ => Cert.KernelIdeal.Frame.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs run, keep their arguments, and end with the same
    result: the specification's function of the arguments. -/
theorem algebraic : Cert.algebraic_KernelIdeal_ReferenceIdeal := by
  intro m ρ m' ρ' _ hagree
  refine ⟨_, Cert.KernelIdeal.Val.run_named m ρ, ?_⟩
  refine (θ_run Cert.ReferenceIdeal.defs _ _).mono (fun _ h c => ⟨(h c).1.trans ?_, (h c).2⟩)
    (Cert.ReferenceIdeal.Value.run (F := Ideal) m' ρ')
  rw [Cert.RefValue.ref_out_run]
  obtain ⟨e0, e1, e2, e3, e4, e5, e6, e7, e8, e9, e10, e11, e12, e13⟩ := hagree c
  rw [e0, e1, e2, e3, e4, e5, e6, e7, e8, e9, e10, e11, e12, e13]
  exact congrArg (fun S => Cert.Spec.out S _ _ _ _ _ _ _ _ _ _ _) (funext fun h => (sparse_same _ _ _ h).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
